-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x6 : Shape := ⟨2, ![200000, 6]⟩
abbrev S1500000x42 : Shape := ⟨2, ![1500000, 42]⟩
abbrev S1500000 : Shape := ⟨1, ![1500000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_
  bcast_S_S1500000x42 : S_.BroadcastsInDim S1500000x42 (![] : Fin 0 → Fin S1500000x42.rank)
  reducesTo_S1500000x42_S_d0_1 : S1500000x42.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x2x128x128 : S_.BroadcastsInDim S1x2x128x128 (![] : Fin 0 → Fin S1x2x128x128.rank)
  reducesTo_S1x2x128x128_S_d0_1_2_3 : S1x2x128x128.ReducesTo [0, 1, 2, 3] S_
  bcast_S_S1x2x128 : S_.BroadcastsInDim S1x2x128 (![] : Fin 0 → Fin S1x2x128.rank)
  reducesTo_S1x2x128_S_d0_1_2 : S1x2x128.ReducesTo [0, 1, 2] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_

variable [Facts]

def fn_part5 {F : FTy → Type} [FloatOps F] (main_arg20 : FVec F S2x2x128 .f32) (main_v83 : IVec S_ 1) (main_v84 : FVec F S2x2x128x128 .f32) (main_cst_32 : FVec F S_ .f32) : IVec S_ 1 :=
  let main_v85 : FVec F S2x2x128x128 .f32 := broadcastInDim S2x2x128x128 ![] bcast_S_S2x2x128x128 main_cst_32
  let main_v86 : IVec S2x2x128x128 1 := cmpf .olt main_v84 main_v85
  let main_c_33 : IVec S_ 1 := constantI S_ 1 1#1
  let main_v87 : IVec S_ 1 := (fun x v => Host.reduce IntOp.andi x v reducesTo_S2x2x128x128_S_d0_1_2_3 h_S_) main_v86 main_c_33
  let main_v88 : IVec S_ 1 := andi main_v83 main_v87
  let main_v89 : FVec F S2x2x128 .f32 := Host.absf main_arg20
  let main_cst_34 : FVec F S_ .f32 := constant S_ .f32 0x7F800000#32
  let main_v90 : FVec F S2x2x128 .f32 := broadcastInDim S2x2x128 ![] bcast_S_S2x2x128 main_cst_34
  let main_v91 : IVec S2x2x128 1 := cmpf .olt main_v89 main_v90
  let main_c_35 : IVec S_ 1 := constantI S_ 1 1#1
  let main_v92 : IVec S_ 1 := (fun x v => Host.reduce IntOp.andi x v reducesTo_S2x2x128_S_d0_1_2 h_S_) main_v91 main_c_35
  let main_v93 : IVec S_ 1 := andi main_v88 main_v92
  main_v93

def fn_part4 {F : FTy → Type} [FloatOps F] (main_arg16 : FVec F S1x2x128 .f32) (main_arg17 : FVec F S128x128 .f32) (main_arg18 : FVec F S128 .f32) (main_arg19 : FVec F S2x2x128x128 .f32) (main_arg20 : FVec F S2x2x128 .f32) (main_v63 : IVec S_ 1) (main_v67 : IVec S_ 1) : IVec S_ 1 :=
  let main_v68 : IVec S_ 1 := andi main_v63 main_v67
  let main_v69 : FVec F S1x2x128 .f32 := Host.absf main_arg16
  let main_cst_26 : FVec F S_ .f32 := constant S_ .f32 0x7F800000#32
  let main_v70 : FVec F S1x2x128 .f32 := broadcastInDim S1x2x128 ![] bcast_S_S1x2x128 main_cst_26
  let main_v71 : IVec S1x2x128 1 := cmpf .olt main_v69 main_v70
  let main_c_27 : IVec S_ 1 := constantI S_ 1 1#1
  let main_v72 : IVec S_ 1 := (fun x v => Host.reduce IntOp.andi x v reducesTo_S1x2x128_S_d0_1_2 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S2x2x128x128 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128x64 .f32) (main_arg14 : FVec F S64x128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S1x2x128x128 .f32 := Host.absf main_arg15
  let main_cst_24 : FVec F S_ .f32 := constant S_ .f32 0x7F800000#32
  let main_v65 : FVec F S1x2x128x128 .f32 := broadcastInDim S1x2x128x128 ![] bcast_S_S1x2x128x128 main_cst_24
  let main_v66 : IVec S1x2x128x128 1 := cmpf .olt main_v64 main_v65
  let main_c_25 : IVec S_ 1 := constantI S_ 1 1#1
  let main_v67 : IVec S_ 1 := (fun x v => Host.reduce IntOp.andi x v reducesTo_S1x2x128x128_S_d0_1_2_3 h_S_) main_v66 main_c_25
  fn_part4 (F := F) main_arg16 main_arg17 main_arg18 main_arg19 main_arg20 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_v48 main_v49 main_v50

def fn_part1 {F : FTy → Type} [FloatOps F] (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v13 : IVec S_ 1) (main_v16 : IVec S6x8 1) : IVec S_ 1 :=
  let main_c_5 : IVec S_ 1 := constantI S_ 1 1#1
  let main_v17 : IVec S_ 1 := (fun x v => Host.reduce IntOp.andi x v reducesTo_S6x8_S_d0_1 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S42x8 .f32 := Host.absf main_arg7
  let main_cst_8 : FVec F S_ .f32 := constant S_ .f32 0x7F800000#32
  let main_v25 : FVec F S42x8 .f32 := broadcastInDim S42x8 ![] bcast_S_S42x8 main_cst_8
  let main_v26 : IVec S42x8 1 := cmpf .olt main_v24 main_v25
  let main_c_9 : IVec S_ 1 := constantI S_ 1 1#1
  let main_v27 : IVec S_ 1 := (fun x v => Host.reduce IntOp.andi x v reducesTo_S42x8_S_d0_1 h_S_) main_v26 main_c_9
  let main_v28 : IVec S_ 1 := andi main_v23 main_v27
  let main_v29 : FVec F S8x64 .f32 := Host.absf main_arg8
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S200000x128 .f32) (main_arg1 : FVec F S200000x6 .f32) (main_arg2 : FVec F S1500000x42 .f32) (main_arg3 : IVec S1500000 32) (main_arg4 : IVec S1500000 32) (main_arg5 : FVec F S6x8 .f32) (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x6 .f32 := Host.absf main_arg1
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S1500000x42 .f32 := Host.absf main_arg2
  let main_cst_2 : FVec F S_ .f32 := constant S_ .f32 0x7F800000#32
  let main_v10 : FVec F S1500000x42 .f32 := broadcastInDim S1500000x42 ![] bcast_S_S1500000x42 main_cst_2
  let main_v11 : IVec S1500000x42 1 := cmpf .olt main_v9 main_v10
  let main_c_3 : IVec S_ 1 := constantI S_ 1 1#1
  let main_v12 : IVec S_ 1 := (fun x v => Host.reduce IntOp.andi x v reducesTo_S1500000x42_S_d0_1 h_S_) main_v11 main_c_3
  let main_v13 : IVec S_ 1 := andi main_v8 main_v12
  let main_v14 : FVec F S6x8 .f32 := Host.absf main_arg5
  let main_cst_4 : FVec F S_ .f32 := constant S_ .f32 0x7F800000#32
  let main_v15 : FVec F S6x8 .f32 := broadcastInDim S6x8 ![] bcast_S_S6x8 main_cst_4
  let main_v16 : IVec S6x8 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S200000x128 : Shape := ⟨2, ![200000, 128]⟩
abbrev S200000x6 : Shape := ⟨2, ![200000, 6]⟩
abbrev S1500000x42 : Shape := ⟨2, ![1500000, 42]⟩
abbrev S1500000 : Shape := ⟨1, ![1500000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S200000x64 : Shape := ⟨2, ![200000, 64]⟩
abbrev S4000x128 : Shape := ⟨2, ![4000, 128]⟩
abbrev S4000x6 : Shape := ⟨2, ![4000, 6]⟩
abbrev S4000x64 : Shape := ⟨2, ![4000, 64]⟩
abbrev S1x128 : Shape := ⟨2, ![1, 128]⟩
abbrev S4000x8 : Shape := ⟨2, ![4000, 8]⟩
abbrev S1500000x64 : Shape := ⟨2, ![1500000, 64]⟩
abbrev S15000x42 : Shape := ⟨2, ![15000, 42]⟩
abbrev S15000x64 : Shape := ⟨2, ![15000, 64]⟩
abbrev S15000x8 : Shape := ⟨2, ![15000, 8]⟩
abbrev S_ : Shape := ⟨0, ![]⟩
abbrev S1500000x1 : Shape := ⟨2, ![1500000, 1]⟩
abbrev S1x1x128x128 : Shape := ⟨4, ![1, 1, 128, 128]⟩
abbrev S1x1x128 : Shape := ⟨3, ![1, 1, 128]⟩
abbrev S2000x128 : Shape := ⟨2, ![2000, 128]⟩
abbrev S2000x64 : Shape := ⟨2, ![2000, 64]⟩

abbrev nBuf : Space → Nat
  | .hbm => 63
  | .vmem => 44
  | .smem => 0
  | _ => 0

abbrev bufTy : (tb : Table) → Fin (tcTables nBuf tb) → BufTy
  | .hbm, ⟨0, _⟩ => ⟨S200000x128, .f32⟩
  | .hbm, ⟨1, _⟩ => ⟨S200000x6, .f32⟩
  | .hbm, ⟨2, _⟩ => ⟨S1500000x42, .f32⟩
  | .hbm, ⟨3, _⟩ => ⟨S1500000, .i32⟩
  | .hbm, ⟨4, _⟩ => ⟨S1500000, .i32⟩
  | .hbm, ⟨5, _⟩ => ⟨S6x8, .f32⟩
  | .hbm, ⟨6, _⟩ => ⟨S8x128, .f32⟩
  | .hbm, ⟨7, _⟩ => ⟨S42x8, .f32⟩
  | .hbm, ⟨8, _⟩ => ⟨S8x64, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64x128, .f32⟩
  | .hbm, ⟨15, _⟩ => ⟨S1x2x128x128, .f32⟩
  | .hbm, ⟨16, _⟩ => ⟨S1x2x128, .f32⟩
  | .hbm, ⟨17, _⟩ => ⟨S128x128, .f32⟩
  | .hbm, ⟨18, _⟩ => ⟨S128, .f32⟩
  | .hbm, ⟨19, _⟩ => ⟨S2x2x128x128, .f32⟩
  | .hbm, ⟨20, _⟩ => ⟨S2x2x128, .f32⟩
  | .hbm, ⟨21, _⟩ => ⟨S200000x128, .f32⟩
  | .hbm, ⟨22, _⟩ => ⟨S200000x64, .f32⟩
  | .hbm, ⟨23, _⟩ => ⟨S1500000x64, .f32⟩
  | .hbm, ⟨24, _⟩ => ⟨S_, .i32⟩
  | .hbm, ⟨25, _⟩ => ⟨S1500000, .i32⟩
  | .hbm, ⟨26, _⟩ => ⟨S1500000, .i1⟩
  | .hbm, ⟨27, _⟩ => ⟨S_, .i32⟩
  | .hbm, ⟨28, _⟩ => ⟨S1500000, .i32⟩
  | .hbm, ⟨29, _⟩ => ⟨S1500000, .i32⟩
  | .hbm, ⟨30, _⟩ => ⟨S1500000, .i32⟩
  | .hbm, ⟨31, _⟩ => ⟨S1500000x1, .i32⟩
  | .hbm, ⟨32, _⟩ => ⟨S1500000x64, .f32⟩
  | .hbm, ⟨33, _⟩ => ⟨S1500000x64, .f32⟩
  | .hbm, ⟨34, _⟩ => ⟨S_, .f32⟩
  | .hbm, ⟨35, _⟩ => ⟨S200000x64, .f32⟩
  | .hbm, ⟨36, _⟩ => ⟨S1500000x1, .i32⟩
  | .hbm, ⟨37, _⟩ => ⟨S200000x64, .f32⟩
  | .hbm, ⟨38, _⟩ => ⟨S1x1x128x128, .f32⟩
  | .hbm, ⟨39, _⟩ => ⟨S128x128, .f32⟩
  | .hbm, ⟨40, _⟩ => ⟨S1x1x128x128, .f32⟩
  | .hbm, ⟨41, _⟩ => ⟨S128x128, .f32⟩
  | .hbm, ⟨42, _⟩ => ⟨S1x1x128, .f32⟩
  | .hbm, ⟨43, _⟩ => ⟨S128, .f32⟩
  | .hbm, ⟨44, _⟩ => ⟨S1x1x128, .f32⟩
  | .hbm, ⟨45, _⟩ => ⟨S128, .f32⟩
  | .hbm, ⟨46, _⟩ => ⟨S1x1x128x128, .f32⟩
  | .hbm, ⟨47, _⟩ => ⟨S128x128, .f32⟩
  | .hbm, ⟨48, _⟩ => ⟨S1x1x128x128, .f32⟩
  | .hbm, ⟨49, _⟩ => ⟨S128x128, .f32⟩
  | .hbm, ⟨50, _⟩ => ⟨S1x1x128x128, .f32⟩
  | .hbm, ⟨51, _⟩ => ⟨S128x128, .f32⟩
  | .hbm, ⟨52, _⟩ => ⟨S1x1x128x128, .f32⟩
  | .hbm, ⟨53, _⟩ => ⟨S128x128, .f32⟩
  | .hbm, ⟨54, _⟩ => ⟨S1x1x128, .f32⟩
  | .hbm, ⟨55, _⟩ => ⟨S128, .f32⟩
  | .hbm, ⟨56, _⟩ => ⟨S1x1x128, .f32⟩
  | .hbm, ⟨57, _⟩ => ⟨S128, .f32⟩
  | .hbm, ⟨58, _⟩ => ⟨S1x1x128, .f32⟩
  | .hbm, ⟨59, _⟩ => ⟨S128, .f32⟩
  | .hbm, ⟨60, _⟩ => ⟨S1x1x128, .f32⟩
  | .hbm, ⟨61, _⟩ => ⟨S128, .f32⟩
  | .hbm, ⟨62, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S4000x6, .f32⟩
  | .local _ .vmem, ⟨3, _⟩ => ⟨S4000x6, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S6x8, .f32⟩
  | .local _ .vmem, ⟨9, _⟩ => ⟨S8x128, .f32⟩
  | .local _ .vmem, ⟨10, _⟩ => ⟨S128x64, .f32⟩
  | .local _ .vmem, ⟨11, _⟩ => ⟨S4000x128, .f32⟩
  | .local _ .vmem, ⟨12, _⟩ => ⟨S4000x128, .f32⟩
  | .local _ .vmem, ⟨13, _⟩ => ⟨S4000x64, .f32⟩
  | .local _ .vmem, ⟨14, _⟩ => ⟨S4000x64, .f32⟩
  | .local _ .vmem, ⟨15, _⟩ => ⟨S15000x42, .f32⟩
  | .local _ .vmem, ⟨16, _⟩ => ⟨S15000x42, .f32⟩
  | .local _ .vmem, ⟨17, _⟩ => ⟨S42x8, .f32⟩
  | .local _ .vmem, ⟨18, _⟩ => ⟨S8x64, .f32⟩
  | .local _ .vmem, ⟨19, _⟩ => ⟨S15000x64, .f32⟩
  | .local _ .vmem, ⟨20, _⟩ => ⟨S15000x64, .f32⟩
  | .local _ .vmem, ⟨21, _⟩ => ⟨S2000x128, .f32⟩
  | .local _ .vmem, ⟨22, _⟩ => ⟨S2000x128, .f32⟩
  | .local _ .vmem, ⟨23, _⟩ => ⟨S2000x64, .f32⟩
  | .local _ .vmem, ⟨24, _⟩ => ⟨S2000x64, .f32⟩
  | .local _ .vmem, ⟨25, _⟩ => ⟨S2000x128, .f32⟩
  | .local _ .vmem, ⟨26, _⟩ => ⟨S2000x128, .f32⟩
  | .local _ .vmem, ⟨27, _⟩ => ⟨S64x128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S128x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S128x128, .f32⟩
  | .local _ .vmem, ⟨41, _⟩ => ⟨S128, .f32⟩
  | .local _ .vmem, ⟨42, _⟩ => ⟨S2000x128, .f32⟩
  | .local _ .vmem, ⟨43, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0_0 : Ref sig .tc := ⟨.hbm, 21, rfl⟩
abbrev main_v0_1 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg13_0 : Ref sig .tc := ⟨.vmem, 37, rfl⟩
abbrev cc2_stg14_0 : Ref sig .tc := ⟨.vmem, 38, rfl⟩
abbrev cc2_stg15_0 : Ref sig .tc := ⟨.vmem, 39, rfl⟩
abbrev cc2_stg16_0 : Ref sig .tc := ⟨.vmem, 40, rfl⟩
abbrev cc2_stg17_0 : Ref sig .tc := ⟨.vmem, 41, rfl⟩
abbrev cc2_stg18_0 : Ref sig .tc := ⟨.vmem, 42, rfl⟩
abbrev cc2_stg18_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem13_0 : DmaSem sig := 37
abbrev cc2_sem14_0 : DmaSem sig := 38
abbrev cc2_sem15_0 : DmaSem sig := 39
abbrev cc2_sem16_0 : DmaSem sig := 40
abbrev cc2_sem17_0 : DmaSem sig := 41
abbrev cc2_sem18_0 : DmaSem sig := 42
abbrev cc2_sem18_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S15000x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S42x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S15000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S2000x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x6_S4000x6_0_0 : ∀ a, (![0, 0] : Fin 2 → Nat) a + S4000x6.size a ≤ S4000x6.size a
  h_S4000x6 : 0 < S4000x6.numel
  inb_S6x8_S6x8_0_0 : ∀ a, (![0, 0] : Fin 2 → Nat) a + S6x8.size a ≤ S6x8.size a
  h_S6x8 : 0 < S6x8.numel
  inb_S8x128_S8x128_0_0 : ∀ a, (![0, 0] : Fin 2 → Nat) a + S8x128.size a ≤ S8x128.size a
  h_S8x128 : 0 < S8x128.numel
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  inb_S15000x42_S15000x42_0_0 : ∀ a, (![0, 0] : Fin 2 → Nat) a + S15000x42.size a ≤ S15000x42.size a
  h_S15000x42 : 0 < S15000x42.numel
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  inb_S15000x64_S15000x64_0_0 : ∀ a, (![0, 0] : Fin 2 → Nat) a + S15000x64.size a ≤ S15000x64.size a
  h_S15000x64 : 0 < S15000x64.numel
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S200000x64 : S_.BroadcastsInDim S200000x64 (![] : Fin 0 → Fin S200000x64.rank)
  slices_S1x2x128x128_S1x1x128x128_0_0_0_0 : S1x2x128x128.Slices ![0, 0, 0, 0] S1x1x128x128
  shapeCasts_S1x1x128x128_S128x128 : S1x1x128x128.ShapeCasts S128x128
  slices_S1x2x128x128_S1x1x128x128_0_1_0_0 : S1x2x128x128.Slices ![0, 1, 0, 0] S1x1x128x128
  slices_S1x2x128_S1x1x128_0_0_0 : S1x2x128.Slices ![0, 0, 0] S1x1x128
  shapeCasts_S1x1x128_S128 : S1x1x128.ShapeCasts S128
  slices_S1x2x128_S1x1x128_0_1_0 : S1x2x128.Slices ![0, 1, 0] S1x1x128
  slices_S2x2x128x128_S1x1x128x128_0_0_0_0 : S2x2x128x128.Slices ![0, 0, 0, 0] S1x1x128x128
  slices_S2x2x128x128_S1x1x128x128_0_1_0_0 : S2x2x128x128.Slices ![0, 1, 0, 0] S1x1x128x128
  slices_S2x2x128x128_S1x1x128x128_1_0_0_0 : S2x2x128x128.Slices ![1, 0, 0, 0] S1x1x128x128
  slices_S2x2x128x128_S1x1x128x128_1_1_0_0 : S2x2x128x128.Slices ![1, 1, 0, 0] S1x1x128x128
  slices_S2x2x128_S1x1x128_0_0_0 : S2x2x128.Slices ![0, 0, 0] S1x1x128
  slices_S2x2x128_S1x1x128_0_1_0 : S2x2x128.Slices ![0, 1, 0] S1x1x128
  slices_S2x2x128_S1x1x128_1_0_0 : S2x2x128.Slices ![1, 0, 0] S1x1x128
  slices_S2x2x128_S1x1x128_1_1_0 : S2x2x128.Slices ![1, 1, 0] S1x1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S128x128_S128x128 : S128x128.ShapeCasts S128x128
  shapeCasts_S128_S128 : S128.ShapeCasts S128
  broadcasts_S1x128_S2000x128 : S1x128.Broadcasts S2000x128
  dot_S4000x128_S128x128_S4000x128_1_0_0_1_n_n_wf : DotDims.WF S4000x128 S128x128 S4000x128 [1] [0] [0] [1] [] []
  dot_S4000x6_S6x8_S4000x8_1_0_0_1_n_n_wf : DotDims.WF S4000x6 S6x8 S4000x8 [1] [0] [0] [1] [] []
  dot_S4000x8_S8x128_S4000x128_1_0_0_1_n_n_wf : DotDims.WF S4000x8 S8x128 S4000x128 [1] [0] [0] [1] [] []
  dot_S4000x128_S128x64_S4000x64_1_0_0_1_n_n_wf : DotDims.WF S4000x128 S128x64 S4000x64 [1] [0] [0] [1] [] []
  dot_S15000x42_S42x8_S15000x8_1_0_0_1_n_n_wf : DotDims.WF S15000x42 S42x8 S15000x8 [1] [0] [0] [1] [] []
  dot_S15000x8_S8x64_S15000x64_1_0_0_1_n_n_wf : DotDims.WF S15000x8 S8x64 S15000x64 [1] [0] [0] [1] [] []
  gather_S200000x64_S1500000x1_S1500000x64_1_0_n_n_0_1_164_wf : GatherDims.WF S200000x64 S1500000x1 S1500000x64 [1] [0] [] [0] [] 1 ![1, 64]
  scatter_S200000x64_S1500000x1_S1500000x64_1_0_0_1_wf : ScatterDims.WF S200000x64 S1500000x1 S1500000x64 [1] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x6.size a ≤ S200000x6.size a
  hwx0_1 : ∀ i : grid0.Coords, EltTy.bits .f32 = 32 ∨ (Rect.block (s := S200000x6) S4000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x8.size a ≤ S6x8.size a
  hwx0_6 : ∀ i : grid0.Coords, EltTy.bits .f32 = 32 ∨ (Rect.block (s := S6x8) S6x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S8x128.size a
  hwx0_7 : ∀ i : grid0.Coords, EltTy.bits .f32 = 32 ∨ (Rect.block (s := S8x128) S8x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S200000x128.size a
  hwx0_9 : ∀ i : grid0.Coords, EltTy.bits .f32 = 32 ∨ (Rect.block (s := S200000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S200000x64.size a
  hwx0_10 : ∀ i : grid0.Coords, EltTy.bits .f32 = 32 ∨ (Rect.block (s := S200000x64) S4000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S15000x42.size a ≤ S1500000x42.size a
  hwx1_0 : ∀ i : grid1.Coords, EltTy.bits .f32 = 32 ∨ (Rect.block (s := S1500000x42) S15000x42.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S42x8.size a ≤ S42x8.size a
  hwx1_1 : ∀ i : grid1.Coords, EltTy.bits .f32 = 32 ∨ (Rect.block (s := S42x8) S42x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S15000x64.size a ≤ S1500000x64.size a
  hwx1_3 : ∀ i : grid1.Coords, EltTy.bits .f32 = 32 ∨ (Rect.block (s := S1500000x64) S15000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .f32 = 32 ∨ (Rect.block (s := S200000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S200000x64.size a
  hwx2_1 : ∀ i : grid2.Coords, EltTy.bits .f32 = 32 ∨ (Rect.block (s := S200000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S200000x128.size a
  hwx2_2 : ∀ i : grid2.Coords, EltTy.bits .f32 = 32 ∨ (Rect.block (s := S200000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128.size a ≤ S128.size a
  hwx2_11 : ∀ i : grid2.Coords, EltTy.bits .f32 = 32 ∨ (Rect.block (s := S128) S128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x128.size a ≤ S128x128.size a
  hwx2_12 : ∀ i : grid2.Coords, EltTy.bits .f32 = 32 ∨ (Rect.block (s := S128x128) S128x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128.size a ≤ S128.size a
  hwx2_13 : ∀ i : grid2.Coords, EltTy.bits .f32 = 32 ∨ (Rect.block (s := S128) S128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x128.size a ≤ S128x128.size a
  hwx2_14 : ∀ i : grid2.Coords, EltTy.bits .f32 = 32 ∨ (Rect.block (s := S128x128) S128x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128.size a ≤ S128.size a
  hwx2_15 : ∀ i : grid2.Coords, EltTy.bits .f32 = 32 ∨ (Rect.block (s := S128) S128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S128x128.size a ≤ S128x128.size a
  hwx2_16 : ∀ i : grid2.Coords, EltTy.bits .f32 = 32 ∨ (Rect.block (s := S128x128) S128x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128.size a ≤ S128.size a
  hwx2_17 : ∀ i : grid2.Coords, EltTy.bits .f32 = 32 ∨ (Rect.block (s := S128) S128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S2000x128.size a ≤ S200000x128.size a
  hwx2_18 : ∀ i : grid2.Coords, EltTy.bits .f32 = 32 ∨ (Rect.block (s := S200000x128) S2000x128.size (cc2_transform_18 i) (hinb2_18 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x6_S6x8_S4000x8_1_0_0_1_n_n : DotDims S4000x6 S6x8 S4000x8 where
  lhsContracting := [1]
  rhsContracting := [0]
  lhsNonContracting := [0]
  rhsNonContracting := [1]
  lhsBatch := []
  rhsBatch := []
  wf := dot_S4000x6_S6x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S15000x42_S42x8_S15000x8_1_0_0_1_n_n : DotDims S15000x42 S42x8 S15000x8 where
  lhsContracting := [1]
  rhsContracting := [0]
  lhsNonContracting := [0]
  rhsNonContracting := [1]
  lhsBatch := []
  rhsBatch := []
  wf := dot_S15000x42_S42x8_S15000x8_1_0_0_1_n_n_wf
def dot_S15000x8_S8x64_S15000x64_1_0_0_1_n_n : DotDims S15000x8 S8x64 S15000x64 where
  lhsContracting := [1]
  rhsContracting := [0]
  lhsNonContracting := [0]
  rhsNonContracting := [1]
  lhsBatch := []
  rhsBatch := []
  wf := dot_S15000x8_S8x64_S15000x64_1_0_0_1_n_n_wf
def gather_S200000x64_S1500000x1_S1500000x64_1_0_n_n_0_1_164 : GatherDims S200000x64 S1500000x1 S1500000x64 where
  offsetDims := [1]
  collapsedSliceDims := [0]
  operandBatchingDims := []
  startIndicesBatchingDims := []
  startIndexMap := [0]
  indexVectorDim := 1
  sliceSizes := ![1, 64]
  wf := gather_S200000x64_S1500000x1_S1500000x64_1_0_n_n_0_1_164_wf
def scatter_S200000x64_S1500000x1_S1500000x64_1_0_0_1 : ScatterDims S200000x64 S1500000x1 S1500000x64 where
  updateWindowDims := [1]
  insertedWindowDims := [0]
  scatterDimsToOperandDims := [0]
  indexVectorDim := 1
  wf := scatter_S200000x64_S1500000x1_S1500000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S6x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S8x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S4000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg2) S15000x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S42x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S15000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v20) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg17) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg18) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v22) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v30) S128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v24) S128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v32) S128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v26) S128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v34) S128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v28) S128x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v36) S128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v37) S2000x128.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

class Facts : Prop extends Facts₀ where

variable [Facts]
-- ==== ReferenceIdeal.lean ====
abbrev S200000x128 : Shape := ⟨2, ![200000, 128]⟩
abbrev S200000x6 : Shape := ⟨2, ![200000, 6]⟩
abbrev S1500000x42 : Shape := ⟨2, ![1500000, 42]⟩
abbrev S1500000 : Shape := ⟨1, ![1500000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S1x128 : Shape := ⟨2, ![1, 128]⟩
abbrev S_ : Shape := ⟨0, ![]⟩
abbrev S200000x8 : Shape := ⟨2, ![200000, 8]⟩
abbrev S200000x64 : Shape := ⟨2, ![200000, 64]⟩
abbrev S1500000x8 : Shape := ⟨2, ![1500000, 8]⟩
abbrev S1500000x64 : Shape := ⟨2, ![1500000, 64]⟩
abbrev S1500000x1 : Shape := ⟨2, ![1500000, 1]⟩
abbrev S1x1x128x128 : Shape := ⟨4, ![1, 1, 128, 128]⟩
abbrev S1x1x128 : Shape := ⟨3, ![1, 1, 128]⟩

abbrev nBuf : Space → Nat
  | .hbm => 206
  | .vmem => 0
  | .smem => 0
  | _ => 0

abbrev hbmTy0_0 (i : Nat) : BufTy := match i % 128 with
  | 0 => ⟨S200000x128, .f32⟩
  | 1 => ⟨S200000x6, .f32⟩
  | 2 => ⟨S1500000x42, .f32⟩
  | 3 => ⟨S1500000, .i32⟩
  | 4 => ⟨S1500000, .i32⟩
  | 5 => ⟨S6x8, .f32⟩
  | 6 => ⟨S8x128, .f32⟩
  | 7 => ⟨S42x8, .f32⟩
  | 8 => ⟨S8x64, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64x128, .f32⟩
  | 15 => ⟨S1x2x128x128, .f32⟩
  | 16 => ⟨S1x2x128, .f32⟩
  | 17 => ⟨S128x128, .f32⟩
  | 18 => ⟨S128, .f32⟩
  | 19 => ⟨S2x2x128x128, .f32⟩
  | 20 => ⟨S2x2x128, .f32⟩
  | 21 => ⟨S200000x128, .f32⟩
  | 22 => ⟨S1x128, .f32⟩
  | 23 => ⟨S200000x128, .f32⟩
  | 24 => ⟨S200000x128, .f32⟩
  | 25 => ⟨S200000x128, .f32⟩
  | 26 => ⟨S200000x128, .f32⟩
  | 27 => ⟨S_, .f32⟩
  | 28 => ⟨S200000x128, .f32⟩
  | 29 => ⟨S200000x128, .f32⟩
  | 30 => ⟨S_, .f32⟩
  | 31 => ⟨S200000x128, .f32⟩
  | 32 => ⟨S200000x128, .f32⟩
  | 33 => ⟨S200000x128, .f32⟩
  | 34 => ⟨S200000x128, .f32⟩
  | 35 => ⟨S1x128, .f32⟩
  | 36 => ⟨S200000x128, .f32⟩
  | 37 => ⟨S200000x128, .f32⟩
  | 38 => ⟨S200000x128, .f32⟩
  | 39 => ⟨S200000x128, .f32⟩
  | 40 => ⟨S_, .f32⟩
  | 41 => ⟨S200000x128, .f32⟩
  | 42 => ⟨S200000x128, .f32⟩
  | 43 => ⟨S_, .f32⟩
  | 44 => ⟨S200000x128, .f32⟩
  | 45 => ⟨S200000x128, .f32⟩
  | 46 => ⟨S200000x128, .f32⟩
  | 47 => ⟨S200000x8, .f32⟩
  | 48 => ⟨S200000x128, .f32⟩
  | 49 => ⟨S200000x128, .f32⟩
  | 50 => ⟨S200000x64, .f32⟩
  | 51 => ⟨S200000x64, .f32⟩
  | 52 => ⟨S200000x64, .f32⟩
  | 53 => ⟨S_, .f32⟩
  | 54 => ⟨S200000x64, .f32⟩
  | 55 => ⟨S200000x64, .f32⟩
  | 56 => ⟨S_, .f32⟩
  | 57 => ⟨S200000x64, .f32⟩
  | 58 => ⟨S200000x64, .f32⟩
  | 59 => ⟨S200000x64, .f32⟩
  | 60 => ⟨S1500000x8, .f32⟩
  | 61 => ⟨S1500000x64, .f32⟩
  | 62 => ⟨S_, .i32⟩
  | 63 => ⟨S1500000, .i32⟩
  | 64 => ⟨S1500000, .i1⟩
  | 65 => ⟨S_, .i32⟩
  | 66 => ⟨S1500000, .i32⟩
  | 67 => ⟨S1500000, .i32⟩
  | 68 => ⟨S1500000, .i32⟩
  | 69 => ⟨S1500000x1, .i32⟩
  | 70 => ⟨S1500000x64, .f32⟩
  | 71 => ⟨S1500000x64, .f32⟩
  | 72 => ⟨S_, .f32⟩
  | 73 => ⟨S200000x64, .f32⟩
  | 74 => ⟨S1500000x1, .i32⟩
  | 75 => ⟨S200000x64, .f32⟩
  | 76 => ⟨S200000x128, .f32⟩
  | 77 => ⟨S200000x128, .f32⟩
  | 78 => ⟨S200000x128, .f32⟩
  | 79 => ⟨S_, .f32⟩
  | 80 => ⟨S200000x128, .f32⟩
  | 81 => ⟨S200000x128, .f32⟩
  | 82 => ⟨S_, .f32⟩
  | 83 => ⟨S200000x128, .f32⟩
  | 84 => ⟨S200000x128, .f32⟩
  | 85 => ⟨S200000x128, .f32⟩
  | 86 => ⟨S200000x128, .f32⟩
  | 87 => ⟨S1x1x128x128, .f32⟩
  | 88 => ⟨S128x128, .f32⟩
  | 89 => ⟨S200000x128, .f32⟩
  | 90 => ⟨S1x1x128, .f32⟩
  | 91 => ⟨S128, .f32⟩
  | 92 => ⟨S1x128, .f32⟩
  | 93 => ⟨S200000x128, .f32⟩
  | 94 => ⟨S200000x128, .f32⟩
  | 95 => ⟨S200000x128, .f32⟩
  | 96 => ⟨S200000x128, .f32⟩
  | 97 => ⟨S_, .f32⟩
  | 98 => ⟨S200000x128, .f32⟩
  | 99 => ⟨S200000x128, .f32⟩
  | 100 => ⟨S_, .f32⟩
  | 101 => ⟨S200000x128, .f32⟩
  | 102 => ⟨S200000x128, .f32⟩
  | 103 => ⟨S200000x128, .f32⟩
  | 104 => ⟨S1x1x128x128, .f32⟩
  | 105 => ⟨S128x128, .f32⟩
  | 106 => ⟨S200000x128, .f32⟩
  | 107 => ⟨S1x1x128, .f32⟩
  | 108 => ⟨S128, .f32⟩
  | 109 => ⟨S1x128, .f32⟩
  | 110 => ⟨S200000x128, .f32⟩
  | 111 => ⟨S200000x128, .f32⟩
  | 112 => ⟨S200000x128, .f32⟩
  | 113 => ⟨S200000x128, .f32⟩
  | 114 => ⟨S_, .f32⟩
  | 115 => ⟨S200000x128, .f32⟩
  | 116 => ⟨S200000x128, .f32⟩
  | 117 => ⟨S_, .f32⟩
  | 118 => ⟨S200000x128, .f32⟩
  | 119 => ⟨S200000x128, .f32⟩
  | 120 => ⟨S200000x128, .f32⟩
  | 121 => ⟨S200000x128, .f32⟩
  | 122 => ⟨S200000x128, .f32⟩
  | 123 => ⟨S1x128, .f32⟩
  | 124 => ⟨S200000x128, .f32⟩
  | 125 => ⟨S200000x128, .f32⟩
  | 126 => ⟨S200000x128, .f32⟩
  | 127 => ⟨S200000x128, .f32⟩
  | _ => ⟨S200000x128, .f32⟩

abbrev hbmTy0_1 (i : Nat) : BufTy := match i % 128 with
  | 0 => ⟨S_, .f32⟩
  | 1 => ⟨S200000x128, .f32⟩
  | 2 => ⟨S200000x128, .f32⟩
  | 3 => ⟨S_, .f32⟩
  | 4 => ⟨S200000x128, .f32⟩
  | 5 => ⟨S200000x128, .f32⟩
  | 6 => ⟨S200000x128, .f32⟩
  | 7 => ⟨S200000x128, .f32⟩
  | 8 => ⟨S1x1x128x128, .f32⟩
  | 9 => ⟨S128x128, .f32⟩
  | 10 => ⟨S200000x128, .f32⟩
  | 11 => ⟨S1x1x128, .f32⟩
  | 12 => ⟨S128, .f32⟩
  | 13 => ⟨S1x128, .f32⟩
  | 14 => ⟨S200000x128, .f32⟩
  | 15 => ⟨S200000x128, .f32⟩
  | 16 => ⟨S200000x128, .f32⟩
  | 17 => ⟨S200000x128, .f32⟩
  | 18 => ⟨S_, .f32⟩
  | 19 => ⟨S200000x128, .f32⟩
  | 20 => ⟨S200000x128, .f32⟩
  | 21 => ⟨S_, .f32⟩
  | 22 => ⟨S200000x128, .f32⟩
  | 23 => ⟨S200000x128, .f32⟩
  | 24 => ⟨S200000x128, .f32⟩
  | 25 => ⟨S1x1x128x128, .f32⟩
  | 26 => ⟨S128x128, .f32⟩
  | 27 => ⟨S200000x128, .f32⟩
  | 28 => ⟨S1x1x128, .f32⟩
  | 29 => ⟨S128, .f32⟩
  | 30 => ⟨S1x128, .f32⟩
  | 31 => ⟨S200000x128, .f32⟩
  | 32 => ⟨S200000x128, .f32⟩
  | 33 => ⟨S200000x128, .f32⟩
  | 34 => ⟨S200000x128, .f32⟩
  | 35 => ⟨S_, .f32⟩
  | 36 => ⟨S200000x128, .f32⟩
  | 37 => ⟨S200000x128, .f32⟩
  | 38 => ⟨S_, .f32⟩
  | 39 => ⟨S200000x128, .f32⟩
  | 40 => ⟨S200000x128, .f32⟩
  | 41 => ⟨S200000x128, .f32⟩
  | 42 => ⟨S200000x128, .f32⟩
  | 43 => ⟨S1x1x128x128, .f32⟩
  | 44 => ⟨S128x128, .f32⟩
  | 45 => ⟨S200000x128, .f32⟩
  | 46 => ⟨S1x1x128, .f32⟩
  | 47 => ⟨S128, .f32⟩
  | 48 => ⟨S1x128, .f32⟩
  | 49 => ⟨S200000x128, .f32⟩
  | 50 => ⟨S200000x128, .f32⟩
  | 51 => ⟨S200000x128, .f32⟩
  | 52 => ⟨S200000x128, .f32⟩
  | 53 => ⟨S_, .f32⟩
  | 54 => ⟨S200000x128, .f32⟩
  | 55 => ⟨S200000x128, .f32⟩
  | 56 => ⟨S_, .f32⟩
  | 57 => ⟨S200000x128, .f32⟩
  | 58 => ⟨S200000x128, .f32⟩
  | 59 => ⟨S200000x128, .f32⟩
  | 60 => ⟨S1x1x128x128, .f32⟩
  | 61 => ⟨S128x128, .f32⟩
  | 62 => ⟨S200000x128, .f32⟩
  | 63 => ⟨S1x1x128, .f32⟩
  | 64 => ⟨S128, .f32⟩
  | 65 => ⟨S1x128, .f32⟩
  | 66 => ⟨S200000x128, .f32⟩
  | 67 => ⟨S200000x128, .f32⟩
  | 68 => ⟨S200000x128, .f32⟩
  | 69 => ⟨S200000x128, .f32⟩
  | 70 => ⟨S_, .f32⟩
  | 71 => ⟨S200000x128, .f32⟩
  | 72 => ⟨S200000x128, .f32⟩
  | 73 => ⟨S_, .f32⟩
  | 74 => ⟨S200000x128, .f32⟩
  | 75 => ⟨S200000x128, .f32⟩
  | 76 => ⟨S200000x128, .f32⟩
  | 77 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_c : Ref sig .tc := ⟨.hbm, 62, rfl⟩
abbrev main_v17 : Ref sig .tc := ⟨.hbm, 63, rfl⟩
abbrev main_v18 : Ref sig .tc := ⟨.hbm, 64, rfl⟩
abbrev main_c_0 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_call9_v0 : Ref sig .tc := ⟨.hbm, 179, rfl⟩
abbrev main_call9_v1 : Ref sig .tc := ⟨.hbm, 180, rfl⟩
abbrev main_call9_cst : Ref sig .tc := ⟨.hbm, 181, rfl⟩
abbrev main_call9_v2 : Ref sig .tc := ⟨.hbm, 182, rfl⟩
abbrev main_call9_v3 : Ref sig .tc := ⟨.hbm, 183, rfl⟩
abbrev main_call9_cst_0 : Ref sig .tc := ⟨.hbm, 184, rfl⟩
abbrev main_call9_v4 : Ref sig .tc := ⟨.hbm, 185, rfl⟩
abbrev main_call9_v5 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_call10_v0 : Ref sig .tc := ⟨.hbm, 196, rfl⟩
abbrev main_call10_v1 : Ref sig .tc := ⟨.hbm, 197, rfl⟩
abbrev main_call10_cst : Ref sig .tc := ⟨.hbm, 198, rfl⟩
abbrev main_call10_v2 : Ref sig .tc := ⟨.hbm, 199, rfl⟩
abbrev main_call10_v3 : Ref sig .tc := ⟨.hbm, 200, rfl⟩
abbrev main_call10_cst_0 : Ref sig .tc := ⟨.hbm, 201, rfl⟩
abbrev main_call10_v4 : Ref sig .tc := ⟨.hbm, 202, rfl⟩
abbrev main_call10_v5 : Ref sig .tc := ⟨.hbm, 203, rfl⟩
abbrev main_v92 : Ref sig .tc := ⟨.hbm, 204, rfl⟩
abbrev main_v93 : Ref sig .tc := ⟨.hbm, 205, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S200000x64 : S_.BroadcastsInDim S200000x64 (![] : Fin 0 → Fin S200000x64.rank)
  bcast_S_S1500000 : S_.BroadcastsInDim S1500000 (![] : Fin 0 → Fin S1500000.rank)
  bcast_S1500000_S1500000x1_0 : S1500000.BroadcastsInDim S1500000x1 (![0] : Fin 1 → Fin S1500000x1.rank)
  slices_S1x2x128x128_S1x1x128x128_0_0_0_0 : S1x2x128x128.Slices ![0, 0, 0, 0] S1x1x128x128
  shapeCasts_S1x1x128x128_S128x128 : S1x1x128x128.ShapeCasts S128x128
  slices_S1x2x128_S1x1x128_0_0_0 : S1x2x128.Slices ![0, 0, 0] S1x1x128
  shapeCasts_S1x1x128_S128 : S1x1x128.ShapeCasts S128
  slices_S1x2x128x128_S1x1x128x128_0_1_0_0 : S1x2x128x128.Slices ![0, 1, 0, 0] S1x1x128x128
  slices_S1x2x128_S1x1x128_0_1_0 : S1x2x128.Slices ![0, 1, 0] S1x1x128
  slices_S2x2x128x128_S1x1x128x128_0_0_0_0 : S2x2x128x128.Slices ![0, 0, 0, 0] S1x1x128x128
  slices_S2x2x128_S1x1x128_0_0_0 : S2x2x128.Slices ![0, 0, 0] S1x1x128
  slices_S2x2x128x128_S1x1x128x128_0_1_0_0 : S2x2x128x128.Slices ![0, 1, 0, 0] S1x1x128x128
  slices_S2x2x128_S1x1x128_0_1_0 : S2x2x128.Slices ![0, 1, 0] S1x1x128
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  dot_S200000x128_S128x128_S200000x128_1_0_0_1_n_n_wf : DotDims.WF S200000x128 S128x128 S200000x128 [1] [0] [0] [1] [] []
  dot_S200000x6_S6x8_S200000x8_1_0_0_1_n_n_wf : DotDims.WF S200000x6 S6x8 S200000x8 [1] [0] [0] [1] [] []
  dot_S200000x8_S8x128_S200000x128_1_0_0_1_n_n_wf : DotDims.WF S200000x8 S8x128 S200000x128 [1] [0] [0] [1] [] []
  dot_S200000x128_S128x64_S200000x64_1_0_0_1_n_n_wf : DotDims.WF S200000x128 S128x64 S200000x64 [1] [0] [0] [1] [] []
  dot_S1500000x42_S42x8_S1500000x8_1_0_0_1_n_n_wf : DotDims.WF S1500000x42 S42x8 S1500000x8 [1] [0] [0] [1] [] []
  dot_S1500000x8_S8x64_S1500000x64_1_0_0_1_n_n_wf : DotDims.WF S1500000x8 S8x64 S1500000x64 [1] [0] [0] [1] [] []
  gather_S200000x64_S1500000x1_S1500000x64_1_0_n_n_0_1_164_wf : GatherDims.WF S200000x64 S1500000x1 S1500000x64 [1] [0] [] [0] [] 1 ![1, 64]
  scatter_S200000x64_S1500000x1_S1500000x64_1_0_0_1_wf : ScatterDims.WF S200000x64 S1500000x1 S1500000x64 [1] [0] [0] 1
  dot_S200000x64_S64x128_S200000x128_1_0_0_1_n_n_wf : DotDims.WF S200000x64 S64x128 S200000x128 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x6_S6x8_S200000x8_1_0_0_1_n_n : DotDims S200000x6 S6x8 S200000x8 where
  lhsContracting := [1]
  rhsContracting := [0]
  lhsNonContracting := [0]
  rhsNonContracting := [1]
  lhsBatch := []
  rhsBatch := []
  wf := dot_S200000x6_S6x8_S200000x8_1_0_0_1_n_n_wf
def dot_S200000x8_S8x128_S200000x128_1_0_0_1_n_n : DotDims S200000x8 S8x128 S200000x128 where
  lhsContracting := [1]
  rhsContracting := [0]
  lhsNonContracting := [0]
  rhsNonContracting := [1]
  lhsBatch := []
  rhsBatch := []
  wf := dot_S200000x8_S8x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S1500000x42_S42x8_S1500000x8_1_0_0_1_n_n : DotDims S1500000x42 S42x8 S1500000x8 where
  lhsContracting := [1]
  rhsContracting := [0]
  lhsNonContracting := [0]
  rhsNonContracting := [1]
  lhsBatch := []
  rhsBatch := []
  wf := dot_S1500000x42_S42x8_S1500000x8_1_0_0_1_n_n_wf
def dot_S1500000x8_S8x64_S1500000x64_1_0_0_1_n_n : DotDims S1500000x8 S8x64 S1500000x64 where
  lhsContracting := [1]
  rhsContracting := [0]
  lhsNonContracting := [0]
  rhsNonContracting := [1]
  lhsBatch := []
  rhsBatch := []
  wf := dot_S1500000x8_S8x64_S1500000x64_1_0_0_1_n_n_wf
def gather_S200000x64_S1500000x1_S1500000x64_1_0_n_n_0_1_164 : GatherDims S200000x64 S1500000x1 S1500000x64 where
  offsetDims := [1]
  collapsedSliceDims := [0]
  operandBatchingDims := []
  startIndicesBatchingDims := []
  startIndexMap := [0]
  indexVectorDim := 1
  sliceSizes := ![1, 64]
  wf := gather_S200000x64_S1500000x1_S1500000x64_1_0_n_n_0_1_164_wf
def scatter_S200000x64_S1500000x1_S1500000x64_1_0_0_1 : ScatterDims S200000x64 S1500000x1 S1500000x64 where
  updateWindowDims := [1]
  insertedWindowDims := [0]
  scatterDimsToOperandDims := [0]
  indexVectorDim := 1
  wf := scatter_S200000x64_S1500000x1_S1500000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf

class Facts : Prop extends Facts₀ where

variable [Facts]
-- ==== Proof.KernelRun.lean ====
/-
  The idealized kernel's run, with its result array named.

  The program is four segments: the x-path call, the basis-projection call, a stretch of host operations (the gather,
  the product, the scatter-add and the slices of the stacked weights) and the combine-and-layers call.  Every weakly
  fair execution terminates without a fault in a state where each buffer that outlives the calls holds what the last
  segment boundary holds; here that is read at the result array (the last call's output window after all its
  write-backs) and at the twenty-one argument arrays (which nothing writes).
-/
import proofs.«157410_j18751827214485_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and every argument array as launched. -/
theorem run_result : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c)⟩)

end Cert.KernelIdeal.Gen

end
-- ==== Proof.Bridge.lean ====
/-
  The stages of one interaction block as functions of whole arrays, spelt with the host's operations.

  With `act z = z · σ(z)`, `σ(z) = 1 / (1 + e⁻ᶻ)`, and every product a plain matrix product:
    x_ji     = act (x · W_ji + b_ji)                                            [E, 128]
    x_kj_int = act ((act (x · W_kj + b_kj) ⊙ ((rbf · W_rbf1) · W_rbf2)) · W_down)   [E, 64]
    sbf_p    = (sbf · W_sbf1) · W_sbf2                                           [T, 64]
    agg      = the sum, over the triplets `t` with `idx_ji t = e`, of `x_kj_int (idx_kj t) ⊙ sbf_p t`   [E, 64]
    out      = three residual layers and one skip layer applied to `x_ji + act (agg · W_up)`      [E, 128]
  Each definition below is one of these as the composition of host operations that computes it.
-/
import proofs.«157410_j18751827214485_1_alg».proof.ReferenceIdeal
import Idealize.ShloMosaic.PureOps.Ideal

noncomputable section

namespace Cert.Bridge

open Idealize.ShloMosaic Cert.ReferenceIdeal

-- the shape relations the host operations cite (each array's broadcast, slice and reshape is well formed): the
-- reference program's stated side conditions, taken as it takes them
variable [Cert.ReferenceIdeal.Facts₀]
open Cert.ReferenceIdeal.Facts₀

/-- `z · σ(z)` on an array of 128 columns; the number one is kept as the value of its word. -/
def act128 (Z : FVec Ideal S200000x128 .f32) : FVec Ideal S200000x128 .f32 :=
  mulf Z (Host.divf (broadcastInDim S200000x128 ![] bcast_S_S200000x128 (constant (F := Ideal) S_ .f32 0x3F800000#32))
    (addf (broadcastInDim S200000x128 ![] bcast_S_S200000x128 (constant (F := Ideal) S_ .f32 0x3F800000#32)) (Host.exp (Host.negf Z))))

/-- `z · σ(z)` on an array of 64 columns. -/
def act64 (Z : FVec Ideal S200000x64 .f32) : FVec Ideal S200000x64 .f32 :=
  mulf Z (Host.divf (broadcastInDim S200000x64 ![] bcast_S_S200000x64 (constant (F := Ideal) S_ .f32 0x3F800000#32))
    (addf (broadcastInDim S200000x64 ![] bcast_S_S200000x64 (constant (F := Ideal) S_ .f32 0x3F800000#32)) (Host.exp (Host.negf Z))))

/-- `X · W + b`, the vector `b` added to every row. -/
def dense (X : FVec Ideal S200000x128 .f32) (W : FVec Ideal S128x128 .f32) (b : FVec Ideal S128 .f32) : FVec Ideal S200000x128 .f32 :=
  addf (Host.dotGeneral dot_S200000x128_S128x128_S200000x128_1_0_0_1_n_n none X W)
    (broadcastInDim S200000x128 ![0, 1] bcast_S1x128_S200000x128_0_1 (broadcastInDim S1x128 ![1] bcast_S128_S1x128_1 b))

/-- `x_ji = act (x · W_ji + b_ji)`. -/
def xji (x : FVec Ideal S200000x128 .f32) (Wji : FVec Ideal S128x128 .f32) (bji : FVec Ideal S128 .f32) : FVec Ideal S200000x128 .f32 :=
  act128 (dense x Wji bji)

/-- `x_kj_int = act ((act (x · W_kj + b_kj) ⊙ ((rbf · W_rbf1) · W_rbf2)) · W_down)`. -/
def xkjint (x : FVec Ideal S200000x128 .f32) (rbf : FVec Ideal S200000x6 .f32) (Wkj : FVec Ideal S128x128 .f32) (bkj : FVec Ideal S128 .f32)
    (Wrbf1 : FVec Ideal S6x8 .f32) (Wrbf2 : FVec Ideal S8x128 .f32) (Wdown : FVec Ideal S128x64 .f32) : FVec Ideal S200000x64 .f32 :=
  act64 (Host.dotGeneral dot_S200000x128_S128x64_S200000x64_1_0_0_1_n_n none
    (mulf (act128 (dense x Wkj bkj))
      (Host.dotGeneral dot_S200000x8_S8x128_S200000x128_1_0_0_1_n_n none
        (Host.dotGeneral dot_S200000x6_S6x8_S200000x8_1_0_0_1_n_n none rbf Wrbf1) Wrbf2))
    Wdown)

/-- `sbf_p = (sbf · W_sbf1) · W_sbf2`. -/
def sbfp (sbf : FVec Ideal S1500000x42 .f32) (W1 : FVec Ideal S42x8 .f32) (W2 : FVec Ideal S8x64 .f32) : FVec Ideal S1500000x64 .f32 :=
  Host.dotGeneral dot_S1500000x8_S8x64_S1500000x64_1_0_0_1_n_n none
    (Host.dotGeneral dot_S1500000x42_S42x8_S1500000x8_1_0_0_1_n_n none sbf W1) W2

/-- The aggregation over triplets: row `idx_kj t` of `xk` (a negative index counted from the end), times row `t` of
    `sp`, added into row `idx_ji t` of an array of zeros. -/
def agg (xk : FVec Ideal S200000x64 .f32) (sp : FVec Ideal S1500000x64 .f32)
    (ikj iji : (⟨S1500000, .i32⟩ : BufTy).Contents (Elt Ideal)) : FVec Ideal S200000x64 .f32 :=
  Host.scatterAdd scatter_S200000x64_S1500000x1_S1500000x64_1_0_0_1
    (broadcastInDim S200000x64 ![] bcast_S_S200000x64 (constant (F := Ideal) S_ .f32 0x00000000#32))
    (broadcastInDim S1500000x1 ![0] bcast_S1500000_S1500000x1_0 iji)
    (mulf (Host.gather gather_S200000x64_S1500000x1_S1500000x64_1_0_n_n_0_1_164 xk
        (broadcastInDim S1500000x1 ![0] bcast_S1500000_S1500000x1_0
          (select (cmpi .slt ikj (broadcastInDim S1500000 ![] bcast_S_S1500000 (constantI S_ 32 0#32)))
            (addi ikj (broadcastInDim S1500000 ![] bcast_S_S1500000 (constantI S_ 32 200000#32))) ikj)))
      sp)

/-- One residual layer: `h + act (act (h · W0 + b0) · W1 + b1)`. -/
def res (h : FVec Ideal S200000x128 .f32) (W0 : FVec Ideal S128x128 .f32) (b0 : FVec Ideal S128 .f32)
    (W1 : FVec Ideal S128x128 .f32) (b1 : FVec Ideal S128 .f32) : FVec Ideal S200000x128 .f32 :=
  addf h (act128 (dense (act128 (dense h W0 b0)) W1 b1))

/-- The block's output from `x_ji`, the aggregated messages `a`, the skip input `x` and the layers' weights. -/
def out (xj : FVec Ideal S200000x128 .f32) (a : FVec Ideal S200000x64 .f32) (x : FVec Ideal S200000x128 .f32)
    (Wup : FVec Ideal S64x128 .f32)
    (Wb0 : FVec Ideal S128x128 .f32) (bb0 : FVec Ideal S128 .f32) (Wb1 : FVec Ideal S128x128 .f32) (bb1 : FVec Ideal S128 .f32)
    (Wl : FVec Ideal S128x128 .f32) (bl : FVec Ideal S128 .f32)
    (Wa0 : FVec Ideal S128x128 .f32) (ba0 : FVec Ideal S128 .f32) (Wa1 : FVec Ideal S128x128 .f32) (ba1 : FVec Ideal S128 .f32)
    (Wc0 : FVec Ideal S128x128 .f32) (bc0 : FVec Ideal S128 .f32) (Wc1 : FVec Ideal S128x128 .f32) (bc1 : FVec Ideal S128 .f32) :
    FVec Ideal S200000x128 .f32 :=
  res (res (addf (act128 (dense
        (res (addf xj (act128 (Host.dotGeneral dot_S200000x64_S64x128_S200000x128_1_0_0_1_n_n none a Wup))) Wb0 bb0 Wb1 bb1)
        Wl bl)) x)
      Wa0 ba0 Wa1 ba1)
    Wc0 bc0 Wc1 bc1

/-! ## The stacked weights' layers and the whole block -/

/-- Layer `(0, 0)` of a `[1, 2, 128, 128]` stack of matrices. -/
def w1_00 (W : FVec Ideal S1x2x128x128 .f32) : FVec Ideal S128x128 .f32 :=
  shapeCast S128x128 (extractStridedSlice S1x1x128x128 ![0, 0, 0, 0] W slices_S1x2x128x128_S1x1x128x128_0_0_0_0) shapeCasts_S1x1x128x128_S128x128
/-- Layer `(0, 1)` of a `[1, 2, 128, 128]` stack of matrices. -/
def w1_01 (W : FVec Ideal S1x2x128x128 .f32) : FVec Ideal S128x128 .f32 :=
  shapeCast S128x128 (extractStridedSlice S1x1x128x128 ![0, 1, 0, 0] W slices_S1x2x128x128_S1x1x128x128_0_1_0_0) shapeCasts_S1x1x128x128_S128x128
/-- Layer `(0, 0)` of a `[1, 2, 128]` stack of vectors. -/
def b1_00 (b : FVec Ideal S1x2x128 .f32) : FVec Ideal S128 .f32 :=
  shapeCast S128 (extractStridedSlice S1x1x128 ![0, 0, 0] b slices_S1x2x128_S1x1x128_0_0_0) shapeCasts_S1x1x128_S128
/-- Layer `(0, 1)` of a `[1, 2, 128]` stack of vectors. -/
def b1_01 (b : FVec Ideal S1x2x128 .f32) : FVec Ideal S128 .f32 :=
  shapeCast S128 (extractStridedSlice S1x1x128 ![0, 1, 0] b slices_S1x2x128_S1x1x128_0_1_0) shapeCasts_S1x1x128_S128
/-- Layer `(0, 0)` of a `[2, 2, 128, 128]` stack of matrices. -/
def w2_00 (W : FVec Ideal S2x2x128x128 .f32) : FVec Ideal S128x128 .f32 :=
  shapeCast S128x128 (extractStridedSlice S1x1x128x128 ![0, 0, 0, 0] W slices_S2x2x128x128_S1x1x128x128_0_0_0_0) shapeCasts_S1x1x128x128_S128x128
/-- Layer `(0, 1)` of a `[2, 2, 128, 128]` stack of matrices. -/
def w2_01 (W : FVec Ideal S2x2x128x128 .f32) : FVec Ideal S128x128 .f32 :=
  shapeCast S128x128 (extractStridedSlice S1x1x128x128 ![0, 1, 0, 0] W slices_S2x2x128x128_S1x1x128x128_0_1_0_0) shapeCasts_S1x1x128x128_S128x128
/-- Layer `(1, 0)` of a `[2, 2, 128, 128]` stack of matrices. -/
def w2_10 (W : FVec Ideal S2x2x128x128 .f32) : FVec Ideal S128x128 .f32 :=
  shapeCast S128x128 (extractStridedSlice S1x1x128x128 ![1, 0, 0, 0] W slices_S2x2x128x128_S1x1x128x128_1_0_0_0) shapeCasts_S1x1x128x128_S128x128
/-- Layer `(1, 1)` of a `[2, 2, 128, 128]` stack of matrices. -/
def w2_11 (W : FVec Ideal S2x2x128x128 .f32) : FVec Ideal S128x128 .f32 :=
  shapeCast S128x128 (extractStridedSlice S1x1x128x128 ![1, 1, 0, 0] W slices_S2x2x128x128_S1x1x128x128_1_1_0_0) shapeCasts_S1x1x128x128_S128x128
/-- Layer `(0, 0)` of a `[2, 2, 128]` stack of vectors. -/
def b2_00 (b : FVec Ideal S2x2x128 .f32) : FVec Ideal S128 .f32 :=
  shapeCast S128 (extractStridedSlice S1x1x128 ![0, 0, 0] b slices_S2x2x128_S1x1x128_0_0_0) shapeCasts_S1x1x128_S128
/-- Layer `(0, 1)` of a `[2, 2, 128]` stack of vectors. -/
def b2_01 (b : FVec Ideal S2x2x128 .f32) : FVec Ideal S128 .f32 :=
  shapeCast S128 (extractStridedSlice S1x1x128 ![0, 1, 0] b slices_S2x2x128_S1x1x128_0_1_0) shapeCasts_S1x1x128_S128
/-- Layer `(1, 0)` of a `[2, 2, 128]` stack of vectors. -/
def b2_10 (b : FVec Ideal S2x2x128 .f32) : FVec Ideal S128 .f32 :=
  shapeCast S128 (extractStridedSlice S1x1x128 ![1, 0, 0] b slices_S2x2x128_S1x1x128_1_0_0) shapeCasts_S1x1x128_S128
/-- Layer `(1, 1)` of a `[2, 2, 128]` stack of vectors. -/
def b2_11 (b : FVec Ideal S2x2x128 .f32) : FVec Ideal S128 .f32 :=
  shapeCast S128 (extractStridedSlice S1x1x128 ![1, 1, 0] b slices_S2x2x128_S1x1x128_1_1_0) shapeCasts_S1x1x128_S128

/-- The whole interaction block as one function of the twenty-one argument arrays, in the programs' argument order:
    `x, rbf, sbf, idx_kj, idx_ji, W_rbf1, W_rbf2, W_sbf1, W_sbf2, W_kj, b_kj, W_ji, b_ji, W_down, W_up, W_before, b_before,
    W_lin, b_lin, W_after, b_after`. -/
def result (a0 : FVec Ideal S200000x128 .f32) (a1 : FVec Ideal S200000x6 .f32) (a2 : FVec Ideal S1500000x42 .f32)
    (a3 a4 : (⟨S1500000, .i32⟩ : BufTy).Contents (Elt Ideal))
    (a5 : FVec Ideal S6x8 .f32) (a6 : FVec Ideal S8x128 .f32) (a7 : FVec Ideal S42x8 .f32) (a8 : FVec Ideal S8x64 .f32)
    (a9 : FVec Ideal S128x128 .f32) (a10 : FVec Ideal S128 .f32) (a11 : FVec Ideal S128x128 .f32) (a12 : FVec Ideal S128 .f32)
    (a13 : FVec Ideal S128x64 .f32) (a14 : FVec Ideal S64x128 .f32) (a15 : FVec Ideal S1x2x128x128 .f32) (a16 : FVec Ideal S1x2x128 .f32)
    (a17 : FVec Ideal S128x128 .f32) (a18 : FVec Ideal S128 .f32) (a19 : FVec Ideal S2x2x128x128 .f32) (a20 : FVec Ideal S2x2x128 .f32) :
    FVec Ideal S200000x128 .f32 :=
  out (xji a0 a11 a12) (agg (xkjint a0 a1 a9 a10 a5 a6 a13) (sbfp a2 a7 a8) a3 a4) a0 a14
    (w1_00 a15) (b1_00 a16) (w1_01 a15) (b1_01 a16) a17 a18
    (w2_00 a19) (b2_00 a20) (w2_01 a19) (b2_01 a20) (w2_10 a19) (b2_10 a20) (w2_11 a19) (b2_11 a20)

end Cert.Bridge

end
-- ==== Proof.BridgeCongr.lean ====
/-
  The block's output stage respects equality of its eighteen operands.
-/
import proofs.«157410_j18751827214485_1_alg».proof.Proof.Bridge

noncomputable section

namespace Cert.Bridge

open Idealize.ShloMosaic Cert.ReferenceIdeal

variable [Cert.ReferenceIdeal.Facts₀]

/-- Equal operands, equal outputs. -/
theorem out_congr {p0 q0 : FVec Ideal S200000x128 .f32} {p1 q1 : FVec Ideal S200000x64 .f32} {p2 q2 : FVec Ideal S200000x128 .f32} {p3 q3 : FVec Ideal S64x128 .f32} {p4 q4 : FVec Ideal S128x128 .f32} {p5 q5 : FVec Ideal S128 .f32} {p6 q6 : FVec Ideal S128x128 .f32} {p7 q7 : FVec Ideal S128 .f32} {p8 q8 : FVec Ideal S128x128 .f32} {p9 q9 : FVec Ideal S128 .f32} {p10 q10 : FVec Ideal S128x128 .f32} {p11 q11 : FVec Ideal S128 .f32} {p12 q12 : FVec Ideal S128x128 .f32} {p13 q13 : FVec Ideal S128 .f32} {p14 q14 : FVec Ideal S128x128 .f32} {p15 q15 : FVec Ideal S128 .f32} {p16 q16 : FVec Ideal S128x128 .f32} {p17 q17 : FVec Ideal S128 .f32}
    (h0 : p0 = q0) (h1 : p1 = q1) (h2 : p2 = q2) (h3 : p3 = q3) (h4 : p4 = q4) (h5 : p5 = q5) (h6 : p6 = q6) (h7 : p7 = q7) (h8 : p8 = q8) (h9 : p9 = q9) (h10 : p10 = q10) (h11 : p11 = q11) (h12 : p12 = q12) (h13 : p13 = q13) (h14 : p14 = q14) (h15 : p15 = q15) (h16 : p16 = q16) (h17 : p17 = q17) :
    out p0 p1 p2 p3 p4 p5 p6 p7 p8 p9 p10 p11 p12 p13 p14 p15 p16 p17 = out q0 q1 q2 q3 q4 q5 q6 q7 q8 q9 q10 q11 q12 q13 q14 q15 q16 q17 := by
  subst h0 h1 h2 h3 h4 h5 h6 h7 h8 h9 h10 h11 h12 h13 h14 h15 h16 h17
  rfl

end Cert.Bridge

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.LibGru.lean ====
/-
  One layer's arithmetic on a single node, on the extended reals.

  A node's aggregated features `row` (128 numbers) pass through: the bias and the rectifier,
  `h k = max (row k + b k) 0`; the input-to-gates product, `gi q = Σ k, h k · wt k q + bih q` for the 384 gate
  pre-activations (reset, update, candidate: three groups of 128); and the gated recurrent cell at a zero previous
  state, `out j = (1 − σ(gi (128 + j) + bhh (128 + j))) · tanh (gi (256 + j) + σ(gi j + bhh j) · bhh (256 + j))`,
  with `σ x = 1 / (1 + e⁻ˣ)`.  The zero and the one are kept as the values of their bit patterns.
-/
import Idealize.ShloMosaic.PureOps.Ideal.Laws

noncomputable section

open scoped BigOperators

namespace Cert.Lib.Gru

open Idealize.ShloMosaic

/-- The 384 gate pre-activations of one node. -/
def gates (row b : Fin 128 → EReal) (wt : Fin 128 → Fin 384 → EReal) (bih : Fin 384 → EReal) (q : Fin 384) : EReal :=
  (∑ k : Fin 128, max (row k + b k) (Ideal.ofBits .f32 0x00000000#32) * wt k q) + bih q

/-- The logistic function, as the quotient the host spells. -/
def sigm (x : EReal) : EReal :=
  Ideal.div (Ideal.ofBits .f32 0x3F800000#32) (Ideal.ofBits .f32 0x3F800000#32 + Ideal.exp (-x))

/-- The cell's output at hidden unit `j`, from the node's gate pre-activations and the hidden-side biases. -/
def cell (gi bhh : Fin 384 → EReal) (j : Fin 128) : EReal :=
  (Ideal.ofBits .f32 0x3F800000#32 - sigm (gi ⟨128 + j.val, by have := j.isLt; omega⟩ + bhh ⟨128 + j.val, by have := j.isLt; omega⟩))
    * Ideal.tanh (gi ⟨256 + j.val, by have := j.isLt; omega⟩
        + sigm (gi ⟨0 + j.val, by have := j.isLt; omega⟩ + bhh ⟨0 + j.val, by have := j.isLt; omega⟩) * bhh ⟨256 + j.val, by have := j.isLt; omega⟩)

/-- The bit pattern `0x3F800000` is the number one. -/
theorem ofBits_one : Ideal.ofBits .f32 0x3F800000#32 = (1 : EReal) := by
  simp [Ideal.ofBits, Ideal.ieee, -EReal.coe_mul]; norm_num

/-- The kernel's logistic operation is the host's quotient. -/
theorem logistic_eq_sigm (x : EReal) : Ideal.logistic x = sigm x := by
  unfold sigm Ideal.logistic
  rw [ofBits_one]

end Cert.Lib.Gru

end
-- ==== Proof.LibRowBlocks.lean ====
/-
  A long rank-two array against a block of consecutive rows of it.

  `RowsOf E M A o arr blk` says that `blk`, of `M` rows, holds rows `o, o + 1, …, o + M - 1` of the `E`-row array
  `arr` (each of `A` columns).  Every operation that acts on each row by itself carries the relation from its
  operands to its result, when the long side is spelt with the host's operations and the block side with a kernel's:

  * a plain matrix product with a matrix that both sides hold whole — the host's `dot_general` of the long array
    against a kernel's product of the block into a zero accumulator (row `r` of the product depends on row `r` of the
    left operand only);
  * the pointwise sum and product;
  * a vector spread over the rows — two `broadcast_in_dim`s on the long side, a shape cast and a broadcast on the block;
  * `z ↦ z · σ(z)` with `σ(z) = 1 / (1 + e⁻ᶻ)`: on the long side the quotient spelt out with the word of the number
    one, on the block the logistic operation;
  * a change of float format on the block, which does nothing to an extended real, and a shape cast of the block to
    its own shape.
-/
import Idealize.ShloMosaic.PureOps.Ideal.Laws
import Idealize.ShloMosaic.Lib.ValueIdx
import Idealize.ShloMosaic.Lib.Pipeline.Value
import proofs.«157410_j18751827214485_1_alg».proof.Proof.LibRowOps
import proofs.«157410_j18751827214485_1_alg».proof.Proof.LibGru

noncomputable section

open scoped BigOperators

namespace Cert.Lib.RowBlocks

open Idealize.ShloMosaic Idealize.ShloMosaic.ValueIdx Cert.Lib.RowOps

/-- `blk` holds rows `o … o + M - 1` of `arr`. -/
def RowsOf (E M A o : Nat) (arr : (⟨2, ![E, A]⟩ : Shape).Idx → EReal) (blk : (⟨2, ![M, A]⟩ : Shape).Idx → EReal) : Prop :=
  ∀ (y : Fin M) (k : Fin A) (h : o + y.val < E), blk (ix2 y k) = arr (ix2 ⟨o + y.val, h⟩ k)

variable {E M A o : Nat}

/-- A change of float format on the block side is the identity on extended reals. -/
theorem RowsOf.truncf {φ ψ : FTy} {X : (⟨2, ![E, A]⟩ : Shape).Idx → EReal} {Xb : FVec Ideal ⟨2, ![M, A]⟩ φ}
    (h : ψ.bits < φ.bits) (hX : RowsOf E M A o X Xb) : RowsOf E M A o X (truncf ψ Xb h) := hX

/-- A shape cast to the same shape on the block side is the identity. -/
theorem RowsOf.castSelf {X : (⟨2, ![E, A]⟩ : Shape).Idx → EReal} {Xb : (⟨2, ![M, A]⟩ : Shape).Idx → EReal}
    (h : (⟨2, ![M, A]⟩ : Shape).ShapeCasts ⟨2, ![M, A]⟩) (hX : RowsOf E M A o X Xb) :
    RowsOf E M A o X (shapeCast ⟨2, ![M, A]⟩ Xb h) := by
  rw [shapeCast_self]; exact hX

/-- An array equal to `W` entry by entry stays so under a shape cast to its own shape. -/
theorem castSelf_eq {s : Shape} (v W : s.Idx → EReal) (h : s.ShapeCasts s) (hv : ∀ i, v i = W i) :
    ∀ i, shapeCast s v h i = W i := by
  rw [shapeCast_self]; exact hv

/-- The host's plain product of the long array with `W` against a kernel's product of the block with `Wb` into a
    zero accumulator, when `Wb` is `W` entry by entry. -/
theorem RowsOf.dot {K N : Nat} {φ₁ φ₂ φ₃ φ₄ : FTy} {X : FVec Ideal ⟨2, ![E, K]⟩ φ₁} {Xb : FVec Ideal ⟨2, ![M, K]⟩ φ₃}
    (hX : RowsOf E M K o X Xb) (W : FVec Ideal ⟨2, ![K, N]⟩ φ₂) (Wb : FVec Ideal ⟨2, ![K, N]⟩ φ₄) (hW : ∀ i, Wb i = W i)
    (prec prec' : Option ContractPrecision) (sched : HostSchedule) :
    RowsOf E M N o (FloatOps.dotGeneral (DotDims.plain E K N) prec sched X W)
      (FloatOps.matmul (DotDims.plain M K N) prec' Xb Wb (constant ⟨2, ![M, N]⟩ .f32 0x00000000#32)) := fun y q h => by
  rw [matmul_zero_apply, dotGeneral_apply]
  exact Finset.sum_congr rfl fun k _ => by rw [hX y k h, hW]

/-- Pointwise sums. -/
theorem RowsOf.add {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (addf X Y) (addf Xb Yb) := fun y k h => by
  show (Xb (ix2 y k) : EReal) + Yb (ix2 y k) = X _ + Y _
  rw [hX y k h, hY y k h]

/-- Pointwise products. -/
theorem RowsOf.mul {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (mulf X Y) (mulf Xb Yb) := fun y k h => by
  show (Xb (ix2 y k) : EReal) * Yb (ix2 y k) = X _ * Y _
  rw [hX y k h, hY y k h]

/-- A vector spread over the rows: two `broadcast_in_dim`s of `b` on the long side, a shape cast and a broadcast of
    `bb` on the block, when `bb` is `b` entry by entry. -/
theorem RowsOf.bias {N : Nat} (b bb : (⟨1, ![N]⟩ : Shape).Idx → EReal) (hb : ∀ i, bb i = b i)
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨1, ![N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 b))
      (broadcastTo ⟨2, ![M, N]⟩ (shapeCast ⟨2, ![1, N]⟩ bb h1') h2') := fun y q h => by
  rw [castRow_broadcast_apply, bcastRow_bcast_apply, hb]

/-- `z ↦ z · σ(z)`: the host's quotient `1 / (1 + e⁻ᶻ)` with the word of the number one on the long side, the logistic
    operation on the block. -/
theorem RowsOf.silu {Z : FVec Ideal ⟨2, ![E, A]⟩ .f32} {Zb : FVec Ideal ⟨2, ![M, A]⟩ .f32} (hZ : RowsOf E M A o Z Zb)
    (h1 h2 : (⟨0, ![]⟩ : Shape).BroadcastsInDim ⟨2, ![E, A]⟩ ![]) :
    RowsOf E M A o
      (mulf Z (Host.divf (broadcastInDim ⟨2, ![E, A]⟩ ![] h1 (constant (F := Ideal) ⟨0, ![]⟩ .f32 0x3F800000#32))
        (addf (broadcastInDim ⟨2, ![E, A]⟩ ![] h2 (constant (F := Ideal) ⟨0, ![]⟩ .f32 0x3F800000#32)) (Host.exp (Host.negf Z)))))
      (mulf Zb (logistic Zb)) := fun y k h => by
  show (Zb (ix2 y k) : EReal) * Ideal.logistic (Zb (ix2 y k))
    = Z _ * Ideal.div (Ideal.ofBits .f32 0x3F800000#32) (Ideal.ofBits .f32 0x3F800000#32 + Ideal.exp (-(Z _)))
  rw [hZ y k h, Cert.Lib.Gru.logistic_eq_sigm]
  rfl

end Cert.Lib.RowBlocks

end
-- ==== Proof.Pay0.lean ====
/-
  The x-path call's body on a block of 4000 rows, against the whole-array stages.

  The body computes, from rows `o … o + 3999` of `x` and of `rbf` and the weights whole, two blocks:
    act (x · W_ji + b_ji)                                             — those rows of `x_ji`,
    act ((act (x · W_kj + b_kj) ⊙ ((rbf · W_rbf1) · W_rbf2)) · W_down)    — those rows of `x_kj_int`.
  Every step acts on each row by itself, so the block is the same rows of the whole-array stage.
-/
import proofs.«157410_j18751827214485_1_alg».proof.Proof.Gen.KernelIdeal.Skeleton
import proofs.«157410_j18751827214485_1_alg».proof.Proof.LibRowBlocks
import proofs.«157410_j18751827214485_1_alg».proof.Proof.Bridge

noncomputable section

namespace Cert.KernelIdeal.Pay0

open Idealize.ShloMosaic Idealize.ShloMosaic.ValueIdx
open Cert.KernelIdeal Cert.KernelIdeal.Gen Cert.Lib.RowBlocks

variable [Cert.ReferenceIdeal.Facts₀]
variable {o : Nat}

/-- The first output block is rows `o …` of `x_ji`. -/
theorem rows_xji (x : FVec Ideal S200000x128 .f32) (W : FVec Ideal S128x128 .f32) (b : FVec Ideal S128 .f32)
    (xb : Vec Ideal S4000x128 .f32) (Wb : Vec Ideal S128x128 .f32) (bb : Vec Ideal S128 .f32)
    (hx : RowsOf 200000 4000 128 o x xb) (hW : ∀ i, Wb i = W i) (hb : ∀ i, bb i = b i) :
    RowsOf 200000 4000 128 o (Cert.Bridge.xji x W b) (k0_pay3 (F := Ideal) xb Wb bb) := by
  unfold Cert.Bridge.xji Cert.Bridge.act128 Cert.Bridge.dense k0_pay3 k0_pay2
  dsimp only
  refine RowsOf.silu ?_ _ _
  refine RowsOf.add ?_ ?_
  · exact RowsOf.dot (hx.truncf _) W _ hW none none .single
  · exact RowsOf.bias b bb hb _ _ _ _

/-- The second output block is rows `o …` of `x_kj_int`. -/
theorem rows_xkjint (x : FVec Ideal S200000x128 .f32) (rbf : FVec Ideal S200000x6 .f32) (Wkj : FVec Ideal S128x128 .f32)
    (bkj : FVec Ideal S128 .f32) (W1 : FVec Ideal S6x8 .f32) (W2 : FVec Ideal S8x128 .f32) (Wd : FVec Ideal S128x64 .f32)
    (xb : Vec Ideal S4000x128 .f32) (Wkjb : Vec Ideal S128x128 .f32) (bkjb : Vec Ideal S128 .f32) (rb : Vec Ideal S4000x6 .f32)
    (W1b : Vec Ideal S6x8 .f32) (W2b : Vec Ideal S8x128 .f32) (Wdb : Vec Ideal S128x64 .f32)
    (hx : RowsOf 200000 4000 128 o x xb) (hr : RowsOf 200000 4000 6 o rbf rb)
    (hWkj : ∀ i, Wkjb i = Wkj i) (hbkj : ∀ i, bkjb i = bkj i) (h1 : ∀ i, W1b i = W1 i) (h2 : ∀ i, W2b i = W2 i)
    (hd : ∀ i, Wdb i = Wd i) :
    RowsOf 200000 4000 64 o (Cert.Bridge.xkjint x rbf Wkj bkj W1 W2 Wd)
      (k0_pay1 (F := Ideal) (k0_pay4 xb Wkjb bkjb rb W1b W2b Wdb)) := by
  unfold Cert.Bridge.xkjint Cert.Bridge.act64 Cert.Bridge.act128 Cert.Bridge.dense k0_pay1 k0_pay4 k0_pay2
  dsimp only
  refine RowsOf.silu ?_ _ _
  refine RowsOf.dot (RowsOf.truncf _ ?_) Wd _ hd none none .single
  refine RowsOf.mul ?_ ?_
  · refine RowsOf.silu ?_ _ _
    refine RowsOf.add ?_ ?_
    · exact RowsOf.dot (hx.truncf _) Wkj _ hWkj none none .single
    · exact RowsOf.bias bkj bkjb hbkj _ _ _ _
  · refine RowsOf.dot (RowsOf.truncf _ ?_) W2 _ h2 none none .single
    exact RowsOf.dot (hr.truncf _) W1 _ h1 none none .single

end Cert.KernelIdeal.Pay0

end
-- ==== Proof.Blocks0.lean ====
/-
  The x-path call: its two output arrays are `x_ji` and `x_kj_int`.

  The call walks 50 grid points; point `t` reads rows `4000 t … 4000 t + 3999` of `x` and of `rbf` and every weight whole, and
  writes the same rows of both outputs.  The body's two blocks are those rows of the whole-array stages (each step acts on
  each row by itself); the 50 blocks tile the 200 000 rows.
-/
import proofs.«157410_j18751827214485_1_alg».proof.Proof.Gen.KernelIdeal.Frame
import proofs.«157410_j18751827214485_1_alg».proof.Proof.LibRowBlocks
import proofs.«157410_j18751827214485_1_alg».proof.Proof.Bridge
import proofs.«157410_j18751827214485_1_alg».proof.Proof.Pay0

set_option maxRecDepth 16384

noncomputable section

namespace Cert.KernelIdeal.Blocks0

open Idealize.ShloMosaic Idealize.ShloMosaic.ValueIdx Idealize.ShloMosaic.TcCoe Idealize.SL.Sem
open Cert.KernelIdeal Cert.KernelIdeal.Gen Cert.Lib.RowBlocks
open Idealize.ShloMosaic.Pipeline (Dat Cfg Window)

variable [Cert.ReferenceIdeal.Facts₀]
variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

theorem t_lt (t : Fin cfg0.N) : t.val < 50 := by
  have h : t.val < grid0.N := t.isLt
  rwa [N_0] at h

/-! ## The block indices, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

/-! ## The input windows' blocks -/

/-- Point `t`'s block of window 0 is rows `4000 t …` of its array. -/
theorem rows_in0 (c : Dev nD) (t : Fin cfg0.N) :
    RowsOf 200000 4000 128 (t.val * 4000) (V c main_arg0) (iblk0 V c 0 t) := by
  intro y k h
  show V c main_arg0 (((cfg0.win 0).blk t).view.emb (ix2 y k)) = V c main_arg0 (ix2 ⟨t.val * 4000 + y.val, h⟩ k)
  refine congrArg _ (funext fun a => Fin.ext ?_)
  obtain ⟨e0, e1⟩ := idx0 t
  match a with
  | ⟨0, _⟩ => show win0_0.index t (0 : Fin 2) * 4000 + 1 * y.val = t.val * 4000 + y.val; omega
  | ⟨1, _⟩ => show win0_0.index t (1 : Fin 2) * 128 + 1 * k.val = k.val; omega

/-- Point `t`'s block of window 1 is rows `4000 t …` of its array. -/
theorem rows_in1 (c : Dev nD) (t : Fin cfg0.N) :
    RowsOf 200000 4000 6 (t.val * 4000) (V c main_arg1) (iblk0 V c 1 t) := by
  intro y k h
  show V c main_arg1 (((cfg0.win 1).blk t).view.emb (ix2 y k)) = V c main_arg1 (ix2 ⟨t.val * 4000 + y.val, h⟩ k)
  refine congrArg _ (funext fun a => Fin.ext ?_)
  obtain ⟨e0, e1⟩ := idx1 t
  match a with
  | ⟨0, _⟩ => show win0_1.index t (0 : Fin 2) * 4000 + 1 * y.val = t.val * 4000 + y.val; omega
  | ⟨1, _⟩ => show win0_1.index t (1 : Fin 2) * 6 + 1 * k.val = k.val; omega

/-- Every point's block of window 2 is its whole array. -/
theorem whole_in2 (c : Dev nD) (t : Fin cfg0.N) (i : S128x128.Idx) : iblk0 V c 2 t i = V c main_arg11 i := by
  show V c main_arg11 (((cfg0.win 2).blk t).view.emb i) = V c main_arg11 i
  refine congrArg _ (funext fun a => Fin.ext ?_)
  obtain ⟨e0, e1⟩ := idx2 t
  match a with
  | ⟨0, _⟩ => show win0_2.index t (0 : Fin 2) * 128 + 1 * (i 0).val = (i 0).val; omega
  | ⟨1, _⟩ => show win0_2.index t (1 : Fin 2) * 128 + 1 * (i 1).val = (i 1).val; omega

/-- Every point's block of window 3 is its whole array. -/
theorem whole_in3 (c : Dev nD) (t : Fin cfg0.N) (i : S128.Idx) : iblk0 V c 3 t i = V c main_arg12 i := by
  show V c main_arg12 (((cfg0.win 3).blk t).view.emb i) = V c main_arg12 i
  refine congrArg _ (funext fun a => Fin.ext ?_)
  have e0 := idx3 t
  match a with
  | ⟨0, _⟩ => show win0_3.index t (0 : Fin 1) * 128 + 1 * (i 0).val = (i 0).val; omega

/-- Every point's block of window 4 is its whole array. -/
theorem whole_in4 (c : Dev nD) (t : Fin cfg0.N) (i : S128x128.Idx) : iblk0 V c 4 t i = V c main_arg9 i := by
  show V c main_arg9 (((cfg0.win 4).blk t).view.emb i) = V c main_arg9 i
  refine congrArg _ (funext fun a => Fin.ext ?_)
  obtain ⟨e0, e1⟩ := idx4 t
  match a with
  | ⟨0, _⟩ => show win0_4.index t (0 : Fin 2) * 128 + 1 * (i 0).val = (i 0).val; omega
  | ⟨1, _⟩ => show win0_4.index t (1 : Fin 2) * 128 + 1 * (i 1).val = (i 1).val; omega

/-- Every point's block of window 5 is its whole array. -/
theorem whole_in5 (c : Dev nD) (t : Fin cfg0.N) (i : S128.Idx) : iblk0 V c 5 t i = V c main_arg10 i := by
  show V c main_arg10 (((cfg0.win 5).blk t).view.emb i) = V c main_arg10 i
  refine congrArg _ (funext fun a => Fin.ext ?_)
  have e0 := idx5 t
  match a with
  | ⟨0, _⟩ => show win0_5.index t (0 : Fin 1) * 128 + 1 * (i 0).val = (i 0).val; omega

/-- Every point's block of window 6 is its whole array. -/
theorem whole_in6 (c : Dev nD) (t : Fin cfg0.N) (i : S6x8.Idx) : iblk0 V c 6 t i = V c main_arg5 i := by
  show V c main_arg5 (((cfg0.win 6).blk t).view.emb i) = V c main_arg5 i
  refine congrArg _ (funext fun a => Fin.ext ?_)
  obtain ⟨e0, e1⟩ := idx6 t
  match a with
  | ⟨0, _⟩ => show win0_6.index t (0 : Fin 2) * 6 + 1 * (i 0).val = (i 0).val; omega
  | ⟨1, _⟩ => show win0_6.index t (1 : Fin 2) * 8 + 1 * (i 1).val = (i 1).val; omega

/-- Every point's block of window 7 is its whole array. -/
theorem whole_in7 (c : Dev nD) (t : Fin cfg0.N) (i : S8x128.Idx) : iblk0 V c 7 t i = V c main_arg6 i := by
  show V c main_arg6 (((cfg0.win 7).blk t).view.emb i) = V c main_arg6 i
  refine congrArg _ (funext fun a => Fin.ext ?_)
  obtain ⟨e0, e1⟩ := idx7 t
  match a with
  | ⟨0, _⟩ => show win0_7.index t (0 : Fin 2) * 8 + 1 * (i 0).val = (i 0).val; omega
  | ⟨1, _⟩ => show win0_7.index t (1 : Fin 2) * 128 + 1 * (i 1).val = (i 1).val; omega

/-- Every point's block of window 8 is its whole array. -/
theorem whole_in8 (c : Dev nD) (t : Fin cfg0.N) (i : S128x64.Idx) : iblk0 V c 8 t i = V c main_arg13 i := by
  show V c main_arg13 (((cfg0.win 8).blk t).view.emb i) = V c main_arg13 i
  refine congrArg _ (funext fun a => Fin.ext ?_)
  obtain ⟨e0, e1⟩ := idx8 t
  match a with
  | ⟨0, _⟩ => show win0_8.index t (0 : Fin 2) * 128 + 1 * (i 0).val = (i 0).val; omega
  | ⟨1, _⟩ => show win0_8.index t (1 : Fin 2) * 64 + 1 * (i 1).val = (i 1).val; omega

/-! ## Output window 9 -/

/-- What point `t` writes back is block `t` of the whole-array stage of the arrays as the call finds them. -/
theorem flushed_eq9 (c : Dev nD) (t : Fin cfg0.N) :
    (dat0 V c).flushed 9 t
      = ((cfg0.win 9).blk t).view.read (Elt Ideal) (Cert.Bridge.xji (V c main_arg0) (V c main_arg11) (V c main_arg12)) := by
  show (cfg0.win 9).cut (grid0.coords t) ((dat0 V c).after 9 t) = _
  rw [after0_9]
  unfold out0_9
  rw [View.canon_unit_zero hz]
  simp only [View.ld_unit_zero (S := S4000x128) hz, View.ld_unit_zero (S := S128x128) hz, View.ld_unit_zero (S := S128) hz1]
  funext j
  obtain ⟨y, q, rfl⟩ : ∃ (y : Fin 4000) (q : Fin 128), j = ix2 y q := ⟨j 0, j 1, eq_ix2 j⟩
  have ht := t_lt t
  have h : t.val * 4000 + y.val < 200000 := by have := y.isLt; omega
  have hout := Pay0.rows_xji (V c main_arg0) (V c main_arg11) (V c main_arg12) _ _ _ (rows_in0 V c t) (whole_in2 V c t) (whole_in3 V c t)
  refine (hout y q h).trans ?_
  show (Cert.Bridge.xji (V c main_arg0) (V c main_arg11) (V c main_arg12)) (ix2 ⟨t.val * 4000 + y.val, h⟩ q)
    = (Cert.Bridge.xji (V c main_arg0) (V c main_arg11) (V c main_arg12)) (((cfg0.win 9).blk t).view.emb (ix2 y q))
  refine congrArg _ (funext fun a => Fin.ext ?_)
  obtain ⟨e0, e1⟩ := idx9 t
  match a with
  | ⟨0, _⟩ => show t.val * 4000 + y.val = win0_9.index t (0 : Fin 2) * 4000 + 1 * y.val; omega
  | ⟨1, _⟩ => show q.val = win0_9.index t (1 : Fin 2) * 128 + 1 * q.val; omega

/-- An index of the output array is in point `t`'s block iff each coordinate is in the block's range on its axis. -/
theorem mem_blk9 (t : Fin cfg0.N) (i : S200000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v0_0).slice (win0_9.rect t)).set ↔ _
  rw [View.set_slice_whole, Rect.mem_set_unit]
  exact Iff.rfl

/-- Row `r` of the output is in the block of point `r / 4000`. -/
theorem cover9 (i : S200000x128.Idx) :
    ∃ t : Fin cfg0.N, (cfg0.win 9).flush t = true ∧ i ∈ ((cfg0.win 9).blk t).view.set := by
  have hi0 : (i 0).val < 200000 := (i 0).isLt
  have hi1 : (i 1).val < 128 := (i 1).isLt
  have hlt : (i 0).val / 4000 < grid0.N := by rw [N_0]; omega
  obtain ⟨e0, e1⟩ := idx9 ⟨(i 0).val / 4000, hlt⟩
  refine ⟨⟨(i 0).val / 4000, hlt⟩, flush0_9 _, ?_⟩
  rw [mem_blk9]
  intro a
  match a with
  | ⟨0, _⟩ =>
    show win0_9.index ⟨(i 0).val / 4000, hlt⟩ (0 : Fin 2) * 4000 ≤ (i 0).val
      ∧ (i 0).val < win0_9.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_9.index ⟨(i 0).val / 4000, hlt⟩ (1 : Fin 2) * 128 ≤ (i 1).val
      ∧ (i 1).val < win0_9.index ⟨(i 0).val / 4000, hlt⟩ (1 : Fin 2) * 128 + 128
    omega

/-- The output array after the call is the whole-array stage of the arrays as the call finds them. -/
theorem final9 (c : Dev nD) :
    (dat0 V c).arrAt 9 cfg0.N = Cert.Bridge.xji (V c main_arg0) (V c main_arg11) (V c main_arg12) :=
  (dat0 V c).arrAt_eq_of_cover 9 _ (fun t _ => flushed_eq9 V c t) cover9

/-! ## Output window 10 -/

/-- What point `t` writes back is block `t` of the whole-array stage of the arrays as the call finds them. -/
theorem flushed_eq10 (c : Dev nD) (t : Fin cfg0.N) :
    (dat0 V c).flushed 10 t
      = ((cfg0.win 10).blk t).view.read (Elt Ideal) (Cert.Bridge.xkjint (V c main_arg0) (V c main_arg1) (V c main_arg9) (V c main_arg10) (V c main_arg5) (V c main_arg6) (V c main_arg13)) := by
  show (cfg0.win 10).cut (grid0.coords t) ((dat0 V c).after 10 t) = _
  rw [after0_10]
  unfold out0_10
  rw [View.canon_unit_zero hz]
  simp only [View.ld_unit_zero (S := S4000x128) hz, View.ld_unit_zero (S := S128x128) hz, View.ld_unit_zero (S := S128) hz1, View.ld_unit_zero (S := S4000x6) hz, View.ld_unit_zero (S := S6x8) hz, View.ld_unit_zero (S := S8x128) hz, View.ld_unit_zero (S := S128x64) hz]
  funext j
  obtain ⟨y, q, rfl⟩ : ∃ (y : Fin 4000) (q : Fin 64), j = ix2 y q := ⟨j 0, j 1, eq_ix2 j⟩
  have ht := t_lt t
  have h : t.val * 4000 + y.val < 200000 := by have := y.isLt; omega
  have hout := Pay0.rows_xkjint (V c main_arg0) (V c main_arg1) (V c main_arg9) (V c main_arg10) (V c main_arg5) (V c main_arg6) (V c main_arg13)
    _ _ _ _ _ _ _ (rows_in0 V c t) (rows_in1 V c t) (whole_in4 V c t) (whole_in5 V c t) (whole_in6 V c t) (whole_in7 V c t) (whole_in8 V c t)
  refine (hout y q h).trans ?_
  show (Cert.Bridge.xkjint (V c main_arg0) (V c main_arg1) (V c main_arg9) (V c main_arg10) (V c main_arg5) (V c main_arg6) (V c main_arg13)) (ix2 ⟨t.val * 4000 + y.val, h⟩ q)
    = (Cert.Bridge.xkjint (V c main_arg0) (V c main_arg1) (V c main_arg9) (V c main_arg10) (V c main_arg5) (V c main_arg6) (V c main_arg13)) (((cfg0.win 10).blk t).view.emb (ix2 y q))
  refine congrArg _ (funext fun a => Fin.ext ?_)
  obtain ⟨e0, e1⟩ := idx10 t
  match a with
  | ⟨0, _⟩ => show t.val * 4000 + y.val = win0_10.index t (0 : Fin 2) * 4000 + 1 * y.val; omega
  | ⟨1, _⟩ => show q.val = win0_10.index t (1 : Fin 2) * 64 + 1 * q.val; omega

/-- An index of the output array is in point `t`'s block iff each coordinate is in the block's range on its axis. -/
theorem mem_blk10 (t : Fin cfg0.N) (i : S200000x64.Idx) :
    i ∈ ((cfg0.win 10).blk t).view.set ↔ ∀ a : Fin 2, win0_10.index t a * S4000x64.size a ≤ (i a).val
      ∧ (i a).val < win0_10.index t a * S4000x64.size a + S4000x64.size a := by
  show i ∈ ((View.whole main_v0_1).slice (win0_10.rect t)).set ↔ _
  rw [View.set_slice_whole, Rect.mem_set_unit]
  exact Iff.rfl

/-- Row `r` of the output is in the block of point `r / 4000`. -/
theorem cover10 (i : S200000x64.Idx) :
    ∃ t : Fin cfg0.N, (cfg0.win 10).flush t = true ∧ i ∈ ((cfg0.win 10).blk t).view.set := by
  have hi0 : (i 0).val < 200000 := (i 0).isLt
  have hi1 : (i 1).val < 64 := (i 1).isLt
  have hlt : (i 0).val / 4000 < grid0.N := by rw [N_0]; omega
  obtain ⟨e0, e1⟩ := idx10 ⟨(i 0).val / 4000, hlt⟩
  refine ⟨⟨(i 0).val / 4000, hlt⟩, flush0_10 _, ?_⟩
  rw [mem_blk10]
  intro a
  match a with
  | ⟨0, _⟩ =>
    show win0_10.index ⟨(i 0).val / 4000, hlt⟩ (0 : Fin 2) * 4000 ≤ (i 0).val
      ∧ (i 0).val < win0_10.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_10.index ⟨(i 0).val / 4000, hlt⟩ (1 : Fin 2) * 64 ≤ (i 1).val
      ∧ (i 1).val < win0_10.index ⟨(i 0).val / 4000, hlt⟩ (1 : Fin 2) * 64 + 64
    omega

/-- The output array after the call is the whole-array stage of the arrays as the call finds them. -/
theorem final10 (c : Dev nD) :
    (dat0 V c).arrAt 10 cfg0.N = Cert.Bridge.xkjint (V c main_arg0) (V c main_arg1) (V c main_arg9) (V c main_arg10) (V c main_arg5) (V c main_arg6) (V c main_arg13) :=
  (dat0 V c).arrAt_eq_of_cover 10 _ (fun t _ => flushed_eq10 V c t) cover10

end Cert.KernelIdeal.Blocks0

end
-- ==== Proof.Blocks1.lean ====
/-
  The basis-projection call: its output array is `sbf_p = (sbf · W_sbf1) · W_sbf2`.

  The call walks 100 grid points; point `t` reads rows `15000 t … 15000 t + 14999` of `sbf` and both weight matrices
  whole, and writes the same rows of the output.  Row `r` of a plain product depends on row `r` of its left operand
  only, so the block the body computes is those rows of the whole-array product; the 100 blocks tile the 1 500 000 rows.
-/
import proofs.«157410_j18751827214485_1_alg».proof.Proof.Gen.KernelIdeal.Frame
import proofs.«157410_j18751827214485_1_alg».proof.Proof.LibRowBlocks
import proofs.«157410_j18751827214485_1_alg».proof.Proof.Bridge

set_option maxRecDepth 16384

noncomputable section

namespace Cert.KernelIdeal.Blocks1

open Idealize.ShloMosaic Idealize.ShloMosaic.ValueIdx Idealize.ShloMosaic.TcCoe Idealize.SL.Sem
open Cert.KernelIdeal Cert.KernelIdeal.Gen Cert.Lib.RowBlocks
open Idealize.ShloMosaic.Pipeline (Dat Cfg Window)

variable [Cert.ReferenceIdeal.Facts₀]
variable (V : (c : Dev nD) → (b : Ref sig .tc) → Buf (Elt Ideal) ((c : Thread nD τ).loc b))

theorem hz : (![0, 0] : Fin 2 → Nat) = fun _ => 0 := funext fun a => by fin_cases a <;> rfl

/-- The block indices, decided over the grid: the `sbf` window and the output window are at block row `t`, column block
    0; each weight window is at block 0 on both axes. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 100 := by
  have h : t.val < grid1.N := t.isLt
  rwa [N_1] at h

/-- The body's value at rows `o …`: the same rows of `sbf_p`, when the `sbf` block holds those rows and the weight blocks
    are the weights. -/
theorem rows_pay {o : Nat} (sbf : FVec Ideal S1500000x42 .f32) (W1 : FVec Ideal S42x8 .f32) (W2 : FVec Ideal S8x64 .f32)
    (xb : Vec Ideal S15000x42 .f32) (W1b : Vec Ideal S42x8 .f32) (W2b : Vec Ideal S8x64 .f32)
    (hx : RowsOf 1500000 15000 42 o sbf xb) (h1 : ∀ i, W1b i = W1 i) (h2 : ∀ i, W2b i = W2 i) :
    RowsOf 1500000 15000 64 o (Cert.Bridge.sbfp sbf W1 W2) (k1_pay1 (F := Ideal) xb W1b W2b) := by
  unfold Cert.Bridge.sbfp k1_pay1
  exact (((hx.truncf _).dot W1 _ h1 none none .single).truncf _).dot W2 _ h2 none none .single

/-- Point `t`'s `sbf` block is rows `15000 t …` of the array. -/
theorem rows_in0 (c : Dev nD) (t : Fin cfg1.N) :
    RowsOf 1500000 15000 42 (t.val * 15000) (V c main_arg2) (iblk1 V c 0 t) := by
  intro y k h
  show V c main_arg2 (((cfg1.win 0).blk t).view.emb (ix2 y k)) = V c main_arg2 (ix2 ⟨t.val * 15000 + y.val, h⟩ k)
  refine congrArg _ (funext fun a => Fin.ext ?_)
  obtain ⟨e0, e1, -⟩ := idx_facts t
  match a with
  | ⟨0, _⟩ => show win1_0.index t (0 : Fin 2) * 15000 + 1 * y.val = t.val * 15000 + y.val; omega
  | ⟨1, _⟩ => show win1_0.index t (1 : Fin 2) * 42 + 1 * k.val = k.val; omega

/-- Each point's first weight block is the whole matrix. -/
theorem whole_in1 (c : Dev nD) (t : Fin cfg1.N) (i : S42x8.Idx) : iblk1 V c 1 t i = V c main_arg7 i := by
  show V c main_arg7 (((cfg1.win 1).blk t).view.emb i) = V c main_arg7 i
  refine congrArg _ (funext fun a => Fin.ext ?_)
  obtain ⟨-, -, e2, e3, -⟩ := idx_facts t
  match a with
  | ⟨0, _⟩ => show win1_1.index t (0 : Fin 2) * 42 + 1 * (i 0).val = (i 0).val; omega
  | ⟨1, _⟩ => show win1_1.index t (1 : Fin 2) * 8 + 1 * (i 1).val = (i 1).val; omega

/-- Each point's second weight block is the whole matrix. -/
theorem whole_in2 (c : Dev nD) (t : Fin cfg1.N) (i : S8x64.Idx) : iblk1 V c 2 t i = V c main_arg8 i := by
  show V c main_arg8 (((cfg1.win 2).blk t).view.emb i) = V c main_arg8 i
  refine congrArg _ (funext fun a => Fin.ext ?_)
  obtain ⟨-, -, -, -, e4, e5, -⟩ := idx_facts t
  match a with
  | ⟨0, _⟩ => show win1_2.index t (0 : Fin 2) * 8 + 1 * (i 0).val = (i 0).val; omega
  | ⟨1, _⟩ => show win1_2.index t (1 : Fin 2) * 64 + 1 * (i 1).val = (i 1).val; omega

/-- What point `t` writes back is block `t` of `sbf_p` of the arrays as the call finds them. -/
theorem flushed_eq (c : Dev nD) (t : Fin cfg1.N) :
    (dat1 V c).flushed 3 t
      = ((cfg1.win 3).blk t).view.read (Elt Ideal) (Cert.Bridge.sbfp (V c main_arg2) (V c main_arg7) (V c main_arg8)) := by
  show (cfg1.win 3).cut (grid1.coords t) ((dat1 V c).after 3 t) = _
  rw [after1_3]
  unfold out1_3
  rw [View.canon_unit_zero hz]
  simp only [View.ld_unit_zero (S := S15000x42) hz, View.ld_unit_zero (S := S42x8) hz, View.ld_unit_zero (S := S8x64) hz]
  funext j
  obtain ⟨y, q, rfl⟩ : ∃ (y : Fin 15000) (q : Fin 64), j = ix2 y q := ⟨j 0, j 1, eq_ix2 j⟩
  have ht := t_lt t
  have h : t.val * 15000 + y.val < 1500000 := by have := y.isLt; omega
  refine ((rows_pay (V c main_arg2) (V c main_arg7) (V c main_arg8) _ _ _ (rows_in0 V c t) (whole_in1 V c t) (whole_in2 V c t)) y q h).trans ?_
  show Cert.Bridge.sbfp (V c main_arg2) (V c main_arg7) (V c main_arg8) (ix2 ⟨t.val * 15000 + y.val, h⟩ q)
    = Cert.Bridge.sbfp (V c main_arg2) (V c main_arg7) (V c main_arg8) (((cfg1.win 3).blk t).view.emb (ix2 y q))
  refine congrArg _ (funext fun a => Fin.ext ?_)
  obtain ⟨-, -, -, -, -, -, e6, e7⟩ := idx_facts t
  match a with
  | ⟨0, _⟩ => show t.val * 15000 + y.val = win1_3.index t (0 : Fin 2) * 15000 + 1 * y.val; omega
  | ⟨1, _⟩ => show q.val = win1_3.index t (1 : Fin 2) * 64 + 1 * q.val; omega

/-- An index of the output array is in point `t`'s block iff each coordinate is in the block's range on its axis. -/
theorem mem_blk (t : Fin cfg1.N) (i : S1500000x64.Idx) :
    i ∈ ((cfg1.win 3).blk t).view.set ↔ ∀ a : Fin 2, win1_3.index t a * S15000x64.size a ≤ (i a).val
      ∧ (i a).val < win1_3.index t a * S15000x64.size a + S15000x64.size a := by
  show i ∈ ((View.whole main_v1).slice (win1_3.rect t)).set ↔ _
  rw [View.set_slice_whole, Rect.mem_set_unit]
  exact Iff.rfl

/-- Row `r` of the output is in the block of point `r / 15000`. -/
theorem cover (i : S1500000x64.Idx) :
    ∃ t : Fin cfg1.N, (cfg1.win 3).flush t = true ∧ i ∈ ((cfg1.win 3).blk t).view.set := by
  have hi0 : (i 0).val < 1500000 := (i 0).isLt
  have hi1 : (i 1).val < 64 := (i 1).isLt
  have hlt : (i 0).val / 15000 < grid1.N := by rw [N_1]; omega
  obtain ⟨-, -, -, -, -, -, e6, e7⟩ := idx_facts ⟨(i 0).val / 15000, hlt⟩
  refine ⟨⟨(i 0).val / 15000, hlt⟩, flush1_3 _, ?_⟩
  rw [mem_blk]
  intro a
  match a with
  | ⟨0, _⟩ =>
    show win1_3.index ⟨(i 0).val / 15000, hlt⟩ (0 : Fin 2) * 15000 ≤ (i 0).val
      ∧ (i 0).val < win1_3.index ⟨(i 0).val / 15000, hlt⟩ (0 : Fin 2) * 15000 + 15000
    rw [e6]
    show (i 0).val / 15000 * 15000 ≤ (i 0).val ∧ (i 0).val < (i 0).val / 15000 * 15000 + 15000
    omega
  | ⟨1, _⟩ =>
    show win1_3.index ⟨(i 0).val / 15000, hlt⟩ (1 : Fin 2) * 64 ≤ (i 1).val
      ∧ (i 1).val < win1_3.index ⟨(i 0).val / 15000, hlt⟩ (1 : Fin 2) * 64 + 64
    omega

/-- The output array after the call is `sbf_p` of the arrays as the call finds them. -/
theorem final (c : Dev nD) :
    (dat1 V c).arrAt 3 cfg1.N = Cert.Bridge.sbfp (V c main_arg2) (V c main_arg7) (V c main_arg8) :=
  (dat1 V c).arrAt_eq_of_cover 3 _ (fun t _ => flushed_eq V c t) cover

end Cert.KernelIdeal.Blocks1

end
-- ==== Proof.Pay2.lean ====
/-
  The combine-and-layers call's body on a block of 2000 rows, against the whole-array stage.

  From rows `o … o + 1999` of `x_ji`, of the aggregated messages and of `x`, and the layers' weights whole, the body computes
    h₀ = x_ji + act (agg · W_up),   h₁ = h₀ + act (act (h₀ · W₀ + b₀) · W₁ + b₁),   h₂ = act (h₁ · W_lin + b_lin) + x,
    h₃ = h₂ + act (act (h₂ · W₂ + b₂) · W₃ + b₃),   out = h₃ + act (act (h₃ · W₄ + b₄) · W₅ + b₅),
  in four pieces (up to `h₁ · W_lin`; `h₃`; `act (h₃ · W₄ + b₄)`; the last layer).  Every step acts on each row by itself, so each
  piece is the same rows of the corresponding whole-array term.
-/
import proofs.«157410_j18751827214485_1_alg».proof.Proof.Gen.KernelIdeal.Skeleton
import proofs.«157410_j18751827214485_1_alg».proof.Proof.LibRowBlocks
import proofs.«157410_j18751827214485_1_alg».proof.Proof.Bridge

noncomputable section

namespace Cert.KernelIdeal.Pay2

open Idealize.ShloMosaic Idealize.ShloMosaic.ValueIdx
open Cert.KernelIdeal Cert.KernelIdeal.Gen Cert.Lib.RowBlocks

variable [Cert.ReferenceIdeal.Facts₀]
variable {o : Nat}

/-- One dense layer with its activation: rows of `act (H · W + b)` from rows of `H`, the weight and bias blocks being the
    weight and bias up to casts to their own shapes. -/
theorem rows_layer {H : FVec Ideal S200000x128 .f32} {Hb : FVec Ideal S2000x128 .f32} (hH : RowsOf 200000 2000 128 o H Hb)
    (W : FVec Ideal S128x128 .f32) (Wb : Vec Ideal S128x128 .f32) (hW : ∀ i, Wb i = W i) (b : FVec Ideal S128 .f32) (bb : Vec Ideal S128 .f32) (hb : ∀ i, bb i = b i) :
    RowsOf 200000 2000 128 o (Cert.Bridge.act128 (Cert.Bridge.dense H W b))
      (mulf (addf (matmul dot_S2000x128_S128x128_S2000x128_1_0_0_1_n_n none (truncf .bf16 Hb bitsLt_bf16_f32)
            (truncf .bf16 (shapeCast S128x128 Wb shapeCasts_S128x128_S128x128) bitsLt_bf16_f32) (constant S2000x128 .f32 0x00000000#32))
          (broadcastTo S2000x128 (shapeCast S1x128 (shapeCast S128 bb shapeCasts_S128_S128) shapeCasts_S128_S1x128) broadcasts_S1x128_S2000x128))
        (logistic (addf (matmul dot_S2000x128_S128x128_S2000x128_1_0_0_1_n_n none (truncf .bf16 Hb bitsLt_bf16_f32)
            (truncf .bf16 (shapeCast S128x128 Wb shapeCasts_S128x128_S128x128) bitsLt_bf16_f32) (constant S2000x128 .f32 0x00000000#32))
          (broadcastTo S2000x128 (shapeCast S1x128 (shapeCast S128 bb shapeCasts_S128_S128) shapeCasts_S128_S1x128) broadcasts_S1x128_S2000x128)))) := by
  unfold Cert.Bridge.act128 Cert.Bridge.dense
  refine RowsOf.silu ?_ _ _
  refine RowsOf.add ?_ ?_
  · exact RowsOf.dot (hH.truncf _) W _ (castSelf_eq Wb W _ hW) none none .single
  · exact RowsOf.bias b _ (castSelf_eq bb b _ hb) _ _ _ _

/-- One residual layer: rows of `h + act (act (h · W0 + b0) · W1 + b1)` from rows of `h`. -/
theorem rows_res {H : FVec Ideal S200000x128 .f32} {Hb : FVec Ideal S2000x128 .f32} (hH : RowsOf 200000 2000 128 o H Hb)
    (W0 : FVec Ideal S128x128 .f32) (W0b : Vec Ideal S128x128 .f32) (hW0 : ∀ i, W0b i = W0 i) (b0 : FVec Ideal S128 .f32) (b0b : Vec Ideal S128 .f32) (hb0 : ∀ i, b0b i = b0 i)
    (W1 : FVec Ideal S128x128 .f32) (W1b : Vec Ideal S128x128 .f32) (hW1 : ∀ i, W1b i = W1 i) (b1 : FVec Ideal S128 .f32) (b1b : Vec Ideal S128 .f32) (hb1 : ∀ i, b1b i = b1 i) :
    RowsOf 200000 2000 128 o (Cert.Bridge.res H W0 b0 W1 b1)
      (addf Hb
        (mulf (addf (matmul dot_S2000x128_S128x128_S2000x128_1_0_0_1_n_n none
              (truncf .bf16
                (mulf (addf (matmul dot_S2000x128_S128x128_S2000x128_1_0_0_1_n_n none (truncf .bf16 Hb bitsLt_bf16_f32)
                      (truncf .bf16 (shapeCast S128x128 W0b shapeCasts_S128x128_S128x128) bitsLt_bf16_f32) (constant S2000x128 .f32 0x00000000#32))
                    (broadcastTo S2000x128 (shapeCast S1x128 (shapeCast S128 b0b shapeCasts_S128_S128) shapeCasts_S128_S1x128) broadcasts_S1x128_S2000x128))
                  (logistic (addf (matmul dot_S2000x128_S128x128_S2000x128_1_0_0_1_n_n none (truncf .bf16 Hb bitsLt_bf16_f32)
                      (truncf .bf16 (shapeCast S128x128 W0b shapeCasts_S128x128_S128x128) bitsLt_bf16_f32) (constant S2000x128 .f32 0x00000000#32))
                    (broadcastTo S2000x128 (shapeCast S1x128 (shapeCast S128 b0b shapeCasts_S128_S128) shapeCasts_S128_S1x128) broadcasts_S1x128_S2000x128))))
                bitsLt_bf16_f32)
              (truncf .bf16 (shapeCast S128x128 W1b shapeCasts_S128x128_S128x128) bitsLt_bf16_f32) (constant S2000x128 .f32 0x00000000#32))
            (broadcastTo S2000x128 (shapeCast S1x128 (shapeCast S128 b1b shapeCasts_S128_S128) shapeCasts_S128_S1x128) broadcasts_S1x128_S2000x128))
          (logistic (addf (matmul dot_S2000x128_S128x128_S2000x128_1_0_0_1_n_n none
              (truncf .bf16
                (mulf (addf (matmul dot_S2000x128_S128x128_S2000x128_1_0_0_1_n_n none (truncf .bf16 Hb bitsLt_bf16_f32)
                      (truncf .bf16 (shapeCast S128x128 W0b shapeCasts_S128x128_S128x128) bitsLt_bf16_f32) (constant S2000x128 .f32 0x00000000#32))
                    (broadcastTo S2000x128 (shapeCast S1x128 (shapeCast S128 b0b shapeCasts_S128_S128) shapeCasts_S128_S1x128) broadcasts_S1x128_S2000x128))
                  (logistic (addf (matmul dot_S2000x128_S128x128_S2000x128_1_0_0_1_n_n none (truncf .bf16 Hb bitsLt_bf16_f32)
                      (truncf .bf16 (shapeCast S128x128 W0b shapeCasts_S128x128_S128x128) bitsLt_bf16_f32) (constant S2000x128 .f32 0x00000000#32))
                    (broadcastTo S2000x128 (shapeCast S1x128 (shapeCast S128 b0b shapeCasts_S128_S128) shapeCasts_S128_S1x128) broadcasts_S1x128_S2000x128))))
                bitsLt_bf16_f32)
              (truncf .bf16 (shapeCast S128x128 W1b shapeCasts_S128x128_S128x128) bitsLt_bf16_f32) (constant S2000x128 .f32 0x00000000#32))
            (broadcastTo S2000x128 (shapeCast S1x128 (shapeCast S128 b1b shapeCasts_S128_S128) shapeCasts_S128_S1x128) broadcasts_S1x128_S2000x128))))) := by
  unfold Cert.Bridge.res
  exact RowsOf.add hH (rows_layer (rows_layer hH W0 W0b hW0 b0 b0b hb0) W1 W1b hW1 b1 b1b hb1)

/-- The first piece: rows of `h₁ · W_lin`, with `h₁ = h₀ + act (act (h₀ · W₀ + b₀) · W₁ + b₁)` and `h₀ = x_ji + act (agg · W_up)`. -/
theorem rows_first (xj : FVec Ideal S200000x128 .f32) (a : FVec Ideal S200000x64 .f32) (Wup : FVec Ideal S64x128 .f32)
    (W0 : FVec Ideal S128x128 .f32) (b0 : FVec Ideal S128 .f32) (W1 : FVec Ideal S128x128 .f32) (b1 : FVec Ideal S128 .f32) (Wl : FVec Ideal S128x128 .f32)
    (ab : Vec Ideal S2000x64 .f32) (Wupb : Vec Ideal S64x128 .f32) (xjb : Vec Ideal S2000x128 .f32)
    (W0b : Vec Ideal S128x128 .f32) (b0b : Vec Ideal S128 .f32) (W1b : Vec Ideal S128x128 .f32) (b1b : Vec Ideal S128 .f32) (Wlb : Vec Ideal S128x128 .f32)
    (ha : RowsOf 200000 2000 64 o a ab) (hxj : RowsOf 200000 2000 128 o xj xjb) (hWup : ∀ i, Wupb i = Wup i)
    (hW0 : ∀ i, W0b i = W0 i) (hb0 : ∀ i, b0b i = b0 i) (hW1 : ∀ i, W1b i = W1 i) (hb1 : ∀ i, b1b i = b1 i)
    (hWl : ∀ i, Wlb i = Wl i) :
    RowsOf 200000 2000 128 o
      (Host.dotGeneral Cert.ReferenceIdeal.dot_S200000x128_S128x128_S200000x128_1_0_0_1_n_n none
        (Cert.Bridge.res (addf xj (Cert.Bridge.act128
          (Host.dotGeneral Cert.ReferenceIdeal.dot_S200000x64_S64x128_S200000x128_1_0_0_1_n_n none a Wup))) W0 b0 W1 b1) Wl)
      (k2_pay2 (F := Ideal) ab Wupb xjb W0b b0b W1b b1b Wlb) := by
  unfold k2_pay2
  dsimp only
  refine RowsOf.dot (RowsOf.truncf _ ?_) Wl _ hWl none none .single
  refine rows_res ?_ W0 W0b hW0 b0 b0b hb0 W1 W1b hW1 b1 b1b hb1
  refine RowsOf.add (RowsOf.castSelf _ hxj) ?_
  unfold Cert.Bridge.act128
  refine RowsOf.silu ?_ _ _
  exact RowsOf.dot (RowsOf.truncf _ (RowsOf.castSelf _ ha)) Wup _ hWup none none .single

/-- The second piece: rows of `h₃ = h₂ + act (act (h₂ · W₂ + b₂) · W₃ + b₃)`, `h₂ = act (h₁ · W_lin + b_lin) + x`, from rows of
    `h₁ · W_lin`. -/
theorem rows_second (H1 : FVec Ideal S200000x128 .f32) (Wl : FVec Ideal S128x128 .f32) (bl : FVec Ideal S128 .f32) (x : FVec Ideal S200000x128 .f32)
    (W2 : FVec Ideal S128x128 .f32) (b2 : FVec Ideal S128 .f32) (W3 : FVec Ideal S128x128 .f32) (b3 : FVec Ideal S128 .f32)
    (pb : FVec Ideal S2000x128 .f32) (blb : Vec Ideal S128 .f32) (xb : Vec Ideal S2000x128 .f32)
    (W2b : Vec Ideal S128x128 .f32) (b2b : Vec Ideal S128 .f32) (W3b : Vec Ideal S128x128 .f32) (b3b : Vec Ideal S128 .f32)
    (hP : RowsOf 200000 2000 128 o (Host.dotGeneral Cert.ReferenceIdeal.dot_S200000x128_S128x128_S200000x128_1_0_0_1_n_n none H1 Wl) pb)
    (hbl : ∀ i, blb i = bl i) (hx : RowsOf 200000 2000 128 o x xb)
    (hW2 : ∀ i, W2b i = W2 i) (hb2 : ∀ i, b2b i = b2 i) (hW3 : ∀ i, W3b i = W3 i) (hb3 : ∀ i, b3b i = b3 i) :
    RowsOf 200000 2000 128 o
      (Cert.Bridge.res (addf (Cert.Bridge.act128 (Cert.Bridge.dense H1 Wl bl)) x) W2 b2 W3 b3)
      (k2_pay3 (F := Ideal) pb blb xb W2b b2b W3b b3b) := by
  unfold k2_pay3
  dsimp only
  refine rows_res ?_ W2 W2b hW2 b2 b2b hb2 W3 W3b hW3 b3 b3b hb3
  refine RowsOf.add ?_ hx
  unfold Cert.Bridge.act128 Cert.Bridge.dense
  refine RowsOf.silu ?_ _ _
  exact RowsOf.add hP (RowsOf.bias bl blb hbl _ _ _ _)

/-- The third piece: rows of `act (h₃ · W₄ + b₄)` from rows of `h₃`. -/
theorem rows_third (H3 : FVec Ideal S200000x128 .f32) (W4 : FVec Ideal S128x128 .f32) (b4 : FVec Ideal S128 .f32)
    (pb : FVec Ideal S2000x128 .f32) (blb : Vec Ideal S128 .f32) (xb : Vec Ideal S2000x128 .f32)
    (W2b : Vec Ideal S128x128 .f32) (b2b : Vec Ideal S128 .f32) (W3b : Vec Ideal S128x128 .f32) (b3b : Vec Ideal S128 .f32)
    (W4b : Vec Ideal S128x128 .f32) (b4b : Vec Ideal S128 .f32)
    (h3 : RowsOf 200000 2000 128 o H3 (k2_pay3 (F := Ideal) pb blb xb W2b b2b W3b b3b))
    (hW4 : ∀ i, W4b i = W4 i) (hb4 : ∀ i, b4b i = b4 i) :
    RowsOf 200000 2000 128 o (Cert.Bridge.act128 (Cert.Bridge.dense H3 W4 b4))
      (k2_pay4 (F := Ideal) pb blb xb W2b b2b W3b b3b W4b b4b) := by
  unfold k2_pay4
  dsimp only
  exact RowsOf.truncf _ (rows_layer h3 W4 W4b hW4 b4 b4b hb4)

/-- The last piece: rows of `h₃ + act (T · W₅ + b₅)` from rows of `h₃` and of `T`. -/
theorem rows_last (H3 T : FVec Ideal S200000x128 .f32) (W5 : FVec Ideal S128x128 .f32) (b5 : FVec Ideal S128 .f32)
    (h3b : FVec Ideal S2000x128 .f32) (tb : FVec Ideal S2000x128 .bf16) (W5b : Vec Ideal S128x128 .f32) (b5b : Vec Ideal S128 .f32)
    (h3 : RowsOf 200000 2000 128 o H3 h3b) (hT : RowsOf 200000 2000 128 o T tb)
    (hW5 : ∀ i, W5b i = W5 i) (hb5 : ∀ i, b5b i = b5 i) :
    RowsOf 200000 2000 128 o (addf H3 (Cert.Bridge.act128 (Cert.Bridge.dense T W5 b5)))
      (k2_pay1 (F := Ideal) h3b tb W5b b5b) := by
  unfold k2_pay1
  dsimp only
  refine RowsOf.add h3 ?_
  unfold Cert.Bridge.act128 Cert.Bridge.dense
  refine RowsOf.silu ?_ _ _
  refine RowsOf.add ?_ ?_
  · exact RowsOf.dot hT W5 _ (castSelf_eq W5b W5 _ hW5) none none .single
  · exact RowsOf.bias b5 _ (castSelf_eq b5b b5 _ hb5) _ _ _ _

end Cert.KernelIdeal.Pay2

end
-- ==== Proof.Blocks2.lean ====
/-
  The combine-and-layers call: its output array is the block's result as a function of `x_ji`, the aggregated messages,
  `x` and the layers' weights, as the call finds them.

  The call walks 100 grid points; point `t` reads rows `2000 t … 2000 t + 1999` of `x_ji`, of the aggregated messages and of `x`
  and every weight whole, and writes the same rows of the output.  The body's block is those rows of the whole-array stage
  (each step acts on each row by itself); the 100 blocks tile the 200 000 rows.
-/
import proofs.«157410_j18751827214485_1_alg».proof.Proof.Gen.KernelIdeal.Frame
import proofs.«157410_j18751827214485_1_alg».proof.Proof.LibRowBlocks
import proofs.«157410_j18751827214485_1_alg».proof.Proof.Bridge
import proofs.«157410_j18751827214485_1_alg».proof.Proof.Pay2

set_option maxRecDepth 16384

noncomputable section

namespace Cert.KernelIdeal.Blocks2

open Idealize.ShloMosaic Idealize.ShloMosaic.ValueIdx Idealize.ShloMosaic.TcCoe Idealize.SL.Sem
open Cert.KernelIdeal Cert.KernelIdeal.Gen Cert.Lib.RowBlocks
open Idealize.ShloMosaic.Pipeline (Dat Cfg Window)

variable [Cert.ReferenceIdeal.Facts₀]
variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

theorem t_lt (t : Fin cfg2.N) : t.val < 100 := by
  have h : t.val < grid2.N := t.isLt
  rwa [N_2] at h

/-! ## The block indices, decided over the grid -/

theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 2) = t.val ∧ win2_2.index t (1 : Fin 2) = 0 :=
  (by decide +kernel : ∀ t : Fin grid2.N, _)
theorem idx3 : ∀ t : Fin cfg2.N, win2_3.index t (0 : Fin 2) = 0 ∧ win2_3.index t (1 : Fin 2) = 0 :=
  (by decide +kernel : ∀ t : Fin grid2.N, _)
theorem idx4 : ∀ t : Fin cfg2.N, win2_4.index t (0 : Fin 2) = 0 ∧ win2_4.index t (1 : Fin 2) = 0 :=
  (by decide +kernel : ∀ t : Fin grid2.N, _)
theorem idx5 : ∀ t : Fin cfg2.N, win2_5.index t (0 : Fin 1) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)
theorem idx7 : ∀ t : Fin cfg2.N, win2_7.index t (0 : Fin 1) = 0 :=
  (by decide +kernel : ∀ t : Fin grid2.N, _)
theorem idx8 : ∀ t : Fin cfg2.N, win2_8.index t (0 : Fin 2) = 0 ∧ win2_8.index t (1 : Fin 2) = 0 :=
  (by decide +kernel : ∀ t : Fin grid2.N, _)
theorem idx9 : ∀ t : Fin cfg2.N, win2_9.index t (0 : Fin 1) = 0 :=
  (by decide +kernel : ∀ t : Fin grid2.N, _)
theorem idx10 : ∀ t : Fin cfg2.N, win2_10.index t (0 : Fin 2) = 0 ∧ win2_10.index t (1 : Fin 2) = 0 :=
  (by decide +kernel : ∀ t : Fin grid2.N, _)
theorem idx11 : ∀ t : Fin cfg2.N, win2_11.index t (0 : Fin 1) = 0 :=
  (by decide +kernel : ∀ t : Fin grid2.N, _)
theorem idx12 : ∀ t : Fin cfg2.N, win2_12.index t (0 : Fin 2) = 0 ∧ win2_12.index t (1 : Fin 2) = 0 :=
  (by decide +kernel : ∀ t : Fin grid2.N, _)
theorem idx13 : ∀ t : Fin cfg2.N, win2_13.index t (0 : Fin 1) = 0 :=
  (by decide +kernel : ∀ t : Fin grid2.N, _)
theorem idx14 : ∀ t : Fin cfg2.N, win2_14.index t (0 : Fin 2) = 0 ∧ win2_14.index t (1 : Fin 2) = 0 :=
  (by decide +kernel : ∀ t : Fin grid2.N, _)
theorem idx15 : ∀ t : Fin cfg2.N, win2_15.index t (0 : Fin 1) = 0 :=
  (by decide +kernel : ∀ t : Fin grid2.N, _)
theorem idx16 : ∀ t : Fin cfg2.N, win2_16.index t (0 : Fin 2) = 0 ∧ win2_16.index t (1 : Fin 2) = 0 :=
  (by decide +kernel : ∀ t : Fin grid2.N, _)
theorem idx17 : ∀ t : Fin cfg2.N, win2_17.index t (0 : Fin 1) = 0 :=
  (by decide +kernel : ∀ t : Fin grid2.N, _)
theorem idx18 : ∀ t : Fin cfg2.N, win2_18.index t (0 : Fin 2) = t.val ∧ win2_18.index t (1 : Fin 2) = 0 :=
  (by decide +kernel : ∀ t : Fin grid2.N, _)

/-! ## The input windows' blocks -/

/-- Point `t`'s block of window 0 is rows `2000 t …` of its array. -/
theorem rows_in0 (c : Dev nD) (t : Fin cfg2.N) :
    RowsOf 200000 2000 128 (t.val * 2000) (V c main_v0_0) (iblk2 V c 0 t) := by
  intro y k h
  show V c main_v0_0 (((cfg2.win 0).blk t).view.emb (ix2 y k)) = V c main_v0_0 (ix2 ⟨t.val * 2000 + y.val, h⟩ k)
  refine congrArg _ (funext fun a => Fin.ext ?_)
  obtain ⟨e0, e1⟩ := idx0 t
  match a with
  | ⟨0, _⟩ => show win2_0.index t (0 : Fin 2) * 2000 + 1 * y.val = t.val * 2000 + y.val; omega
  | ⟨1, _⟩ => show win2_0.index t (1 : Fin 2) * 128 + 1 * k.val = k.val; omega

/-- Point `t`'s block of window 1 is rows `2000 t …` of its array. -/
theorem rows_in1 (c : Dev nD) (t : Fin cfg2.N) :
    RowsOf 200000 2000 64 (t.val * 2000) (V c main_v12) (iblk2 V c 1 t) := by
  intro y k h
  show V c main_v12 (((cfg2.win 1).blk t).view.emb (ix2 y k)) = V c main_v12 (ix2 ⟨t.val * 2000 + y.val, h⟩ k)
  refine congrArg _ (funext fun a => Fin.ext ?_)
  obtain ⟨e0, e1⟩ := idx1 t
  match a with
  | ⟨0, _⟩ => show win2_1.index t (0 : Fin 2) * 2000 + 1 * y.val = t.val * 2000 + y.val; omega
  | ⟨1, _⟩ => show win2_1.index t (1 : Fin 2) * 64 + 1 * k.val = k.val; omega

/-- Point `t`'s block of window 2 is rows `2000 t …` of its array. -/
theorem rows_in2 (c : Dev nD) (t : Fin cfg2.N) :
    RowsOf 200000 2000 128 (t.val * 2000) (V c main_arg0) (iblk2 V c 2 t) := by
  intro y k h
  show V c main_arg0 (((cfg2.win 2).blk t).view.emb (ix2 y k)) = V c main_arg0 (ix2 ⟨t.val * 2000 + y.val, h⟩ k)
  refine congrArg _ (funext fun a => Fin.ext ?_)
  obtain ⟨e0, e1⟩ := idx2 t
  match a with
  | ⟨0, _⟩ => show win2_2.index t (0 : Fin 2) * 2000 + 1 * y.val = t.val * 2000 + y.val; omega
  | ⟨1, _⟩ => show win2_2.index t (1 : Fin 2) * 128 + 1 * k.val = k.val; omega

/-- Every point's block of window 3 is its whole array. -/
theorem whole_in3 (c : Dev nD) (t : Fin cfg2.N) (i : S64x128.Idx) : iblk2 V c 3 t i = V c main_arg14 i := by
  show V c main_arg14 (((cfg2.win 3).blk t).view.emb i) = V c main_arg14 i
  refine congrArg _ (funext fun a => Fin.ext ?_)
  obtain ⟨e0, e1⟩ := idx3 t
  match a with
  | ⟨0, _⟩ => show win2_3.index t (0 : Fin 2) * 64 + 1 * (i 0).val = (i 0).val; omega
  | ⟨1, _⟩ => show win2_3.index t (1 : Fin 2) * 128 + 1 * (i 1).val = (i 1).val; omega

/-- Every point's block of window 4 is its whole array. -/
theorem whole_in4 (c : Dev nD) (t : Fin cfg2.N) (i : S128x128.Idx) : iblk2 V c 4 t i = V c main_v14 i := by
  show V c main_v14 (((cfg2.win 4).blk t).view.emb i) = V c main_v14 i
  refine congrArg _ (funext fun a => Fin.ext ?_)
  obtain ⟨e0, e1⟩ := idx4 t
  match a with
  | ⟨0, _⟩ => show win2_4.index t (0 : Fin 2) * 128 + 1 * (i 0).val = (i 0).val; omega
  | ⟨1, _⟩ => show win2_4.index t (1 : Fin 2) * 128 + 1 * (i 1).val = (i 1).val; omega

/-- Every point's block of window 5 is its whole array. -/
theorem whole_in5 (c : Dev nD) (t : Fin cfg2.N) (i : S128.Idx) : iblk2 V c 5 t i = V c main_v18 i := by
  show V c main_v18 (((cfg2.win 5).blk t).view.emb i) = V c main_v18 i
  refine congrArg _ (funext fun a => Fin.ext ?_)
  have e0 := idx5 t
  match a with
  | ⟨0, _⟩ => show win2_5.index t (0 : Fin 1) * 128 + 1 * (i 0).val = (i 0).val; omega

/-- Every point's block of window 6 is its whole array. -/
theorem whole_in6 (c : Dev nD) (t : Fin cfg2.N) (i : S128x128.Idx) : iblk2 V c 6 t i = V c main_v16 i := by
  show V c main_v16 (((cfg2.win 6).blk t).view.emb i) = V c main_v16 i
  refine congrArg _ (funext fun a => Fin.ext ?_)
  obtain ⟨e0, e1⟩ := idx6 t
  match a with
  | ⟨0, _⟩ => show win2_6.index t (0 : Fin 2) * 128 + 1 * (i 0).val = (i 0).val; omega
  | ⟨1, _⟩ => show win2_6.index t (1 : Fin 2) * 128 + 1 * (i 1).val = (i 1).val; omega

/-- Every point's block of window 7 is its whole array. -/
theorem whole_in7 (c : Dev nD) (t : Fin cfg2.N) (i : S128.Idx) : iblk2 V c 7 t i = V c main_v20 i := by
  show V c main_v20 (((cfg2.win 7).blk t).view.emb i) = V c main_v20 i
  refine congrArg _ (funext fun a => Fin.ext ?_)
  have e0 := idx7 t
  match a with
  | ⟨0, _⟩ => show win2_7.index t (0 : Fin 1) * 128 + 1 * (i 0).val = (i 0).val; omega

/-- Every point's block of window 8 is its whole array. -/
theorem whole_in8 (c : Dev nD) (t : Fin cfg2.N) (i : S128x128.Idx) : iblk2 V c 8 t i = V c main_arg17 i := by
  show V c main_arg17 (((cfg2.win 8).blk t).view.emb i) = V c main_arg17 i
  refine congrArg _ (funext fun a => Fin.ext ?_)
  obtain ⟨e0, e1⟩ := idx8 t
  match a with
  | ⟨0, _⟩ => show win2_8.index t (0 : Fin 2) * 128 + 1 * (i 0).val = (i 0).val; omega
  | ⟨1, _⟩ => show win2_8.index t (1 : Fin 2) * 128 + 1 * (i 1).val = (i 1).val; omega

/-- Every point's block of window 9 is its whole array. -/
theorem whole_in9 (c : Dev nD) (t : Fin cfg2.N) (i : S128.Idx) : iblk2 V c 9 t i = V c main_arg18 i := by
  show V c main_arg18 (((cfg2.win 9).blk t).view.emb i) = V c main_arg18 i
  refine congrArg _ (funext fun a => Fin.ext ?_)
  have e0 := idx9 t
  match a with
  | ⟨0, _⟩ => show win2_9.index t (0 : Fin 1) * 128 + 1 * (i 0).val = (i 0).val; omega

/-- Every point's block of window 10 is its whole array. -/
theorem whole_in10 (c : Dev nD) (t : Fin cfg2.N) (i : S128x128.Idx) : iblk2 V c 10 t i = V c main_v22 i := by
  show V c main_v22 (((cfg2.win 10).blk t).view.emb i) = V c main_v22 i
  refine congrArg _ (funext fun a => Fin.ext ?_)
  obtain ⟨e0, e1⟩ := idx10 t
  match a with
  | ⟨0, _⟩ => show win2_10.index t (0 : Fin 2) * 128 + 1 * (i 0).val = (i 0).val; omega
  | ⟨1, _⟩ => show win2_10.index t (1 : Fin 2) * 128 + 1 * (i 1).val = (i 1).val; omega

/-- Every point's block of window 11 is its whole array. -/
theorem whole_in11 (c : Dev nD) (t : Fin cfg2.N) (i : S128.Idx) : iblk2 V c 11 t i = V c main_v30 i := by
  show V c main_v30 (((cfg2.win 11).blk t).view.emb i) = V c main_v30 i
  refine congrArg _ (funext fun a => Fin.ext ?_)
  have e0 := idx11 t
  match a with
  | ⟨0, _⟩ => show win2_11.index t (0 : Fin 1) * 128 + 1 * (i 0).val = (i 0).val; omega

/-- Every point's block of window 12 is its whole array. -/
theorem whole_in12 (c : Dev nD) (t : Fin cfg2.N) (i : S128x128.Idx) : iblk2 V c 12 t i = V c main_v24 i := by
  show V c main_v24 (((cfg2.win 12).blk t).view.emb i) = V c main_v24 i
  refine congrArg _ (funext fun a => Fin.ext ?_)
  obtain ⟨e0, e1⟩ := idx12 t
  match a with
  | ⟨0, _⟩ => show win2_12.index t (0 : Fin 2) * 128 + 1 * (i 0).val = (i 0).val; omega
  | ⟨1, _⟩ => show win2_12.index t (1 : Fin 2) * 128 + 1 * (i 1).val = (i 1).val; omega

/-- Every point's block of window 13 is its whole array. -/
theorem whole_in13 (c : Dev nD) (t : Fin cfg2.N) (i : S128.Idx) : iblk2 V c 13 t i = V c main_v32 i := by
  show V c main_v32 (((cfg2.win 13).blk t).view.emb i) = V c main_v32 i
  refine congrArg _ (funext fun a => Fin.ext ?_)
  have e0 := idx13 t
  match a with
  | ⟨0, _⟩ => show win2_13.index t (0 : Fin 1) * 128 + 1 * (i 0).val = (i 0).val; omega

/-- Every point's block of window 14 is its whole array. -/
theorem whole_in14 (c : Dev nD) (t : Fin cfg2.N) (i : S128x128.Idx) : iblk2 V c 14 t i = V c main_v26 i := by
  show V c main_v26 (((cfg2.win 14).blk t).view.emb i) = V c main_v26 i
  refine congrArg _ (funext fun a => Fin.ext ?_)
  obtain ⟨e0, e1⟩ := idx14 t
  match a with
  | ⟨0, _⟩ => show win2_14.index t (0 : Fin 2) * 128 + 1 * (i 0).val = (i 0).val; omega
  | ⟨1, _⟩ => show win2_14.index t (1 : Fin 2) * 128 + 1 * (i 1).val = (i 1).val; omega

/-- Every point's block of window 15 is its whole array. -/
theorem whole_in15 (c : Dev nD) (t : Fin cfg2.N) (i : S128.Idx) : iblk2 V c 15 t i = V c main_v34 i := by
  show V c main_v34 (((cfg2.win 15).blk t).view.emb i) = V c main_v34 i
  refine congrArg _ (funext fun a => Fin.ext ?_)
  have e0 := idx15 t
  match a with
  | ⟨0, _⟩ => show win2_15.index t (0 : Fin 1) * 128 + 1 * (i 0).val = (i 0).val; omega

/-- Every point's block of window 16 is its whole array. -/
theorem whole_in16 (c : Dev nD) (t : Fin cfg2.N) (i : S128x128.Idx) : iblk2 V c 16 t i = V c main_v28 i := by
  show V c main_v28 (((cfg2.win 16).blk t).view.emb i) = V c main_v28 i
  refine congrArg _ (funext fun a => Fin.ext ?_)
  obtain ⟨e0, e1⟩ := idx16 t
  match a with
  | ⟨0, _⟩ => show win2_16.index t (0 : Fin 2) * 128 + 1 * (i 0).val = (i 0).val; omega
  | ⟨1, _⟩ => show win2_16.index t (1 : Fin 2) * 128 + 1 * (i 1).val = (i 1).val; omega

/-- Every point's block of window 17 is its whole array. -/
theorem whole_in17 (c : Dev nD) (t : Fin cfg2.N) (i : S128.Idx) : iblk2 V c 17 t i = V c main_v36 i := by
  show V c main_v36 (((cfg2.win 17).blk t).view.emb i) = V c main_v36 i
  refine congrArg _ (funext fun a => Fin.ext ?_)
  have e0 := idx17 t
  match a with
  | ⟨0, _⟩ => show win2_17.index t (0 : Fin 1) * 128 + 1 * (i 0).val = (i 0).val; omega

/-! ## Output window 18 -/

/-- What point `t` writes back is block `t` of the whole-array stage of the arrays as the call finds them. -/
theorem flushed_eq18 (c : Dev nD) (t : Fin cfg2.N) :
    (dat2 V c).flushed 18 t
      = ((cfg2.win 18).blk t).view.read (Elt Ideal) (Cert.Bridge.out (V c main_v0_0) (V c main_v12) (V c main_arg0) (V c main_arg14) (V c main_v14) (V c main_v18) (V c main_v16) (V c main_v20) (V c main_arg17) (V c main_arg18) (V c main_v22) (V c main_v30) (V c main_v24) (V c main_v32) (V c main_v26) (V c main_v34) (V c main_v28) (V c main_v36)) := by
  show (cfg2.win 18).cut (grid2.coords t) ((dat2 V c).after 18 t) = _
  rw [after2_18]
  unfold out2_18
  rw [View.canon_unit_zero hz]
  simp only [View.ld_unit_zero (S := S2000x64) hz, View.ld_unit_zero (S := S64x128) hz, View.ld_unit_zero (S := S2000x128) hz, View.ld_unit_zero (S := S128x128) hz, View.ld_unit_zero (S := S128) hz1]
  funext j
  obtain ⟨y, q, rfl⟩ : ∃ (y : Fin 2000) (q : Fin 128), j = ix2 y q := ⟨j 0, j 1, eq_ix2 j⟩
  have ht := t_lt t
  have h : t.val * 2000 + y.val < 200000 := by have := y.isLt; omega
  have hP := Pay2.rows_first (V c main_v0_0) (V c main_v12) (V c main_arg14) (V c main_v14) (V c main_v18) (V c main_v16) (V c main_v20) (V c main_arg17) _ _ _ _ _ _ _ _
    (rows_in1 V c t) (rows_in0 V c t) (whole_in3 V c t) (whole_in4 V c t) (whole_in5 V c t) (whole_in6 V c t) (whole_in7 V c t) (whole_in8 V c t)
  have h3 := Pay2.rows_second _ (V c main_arg17) (V c main_arg18) (V c main_arg0) (V c main_v22) (V c main_v30) (V c main_v24) (V c main_v32) _ _ _ _ _ _ _ hP
    (whole_in9 V c t) (rows_in2 V c t) (whole_in10 V c t) (whole_in11 V c t) (whole_in12 V c t) (whole_in13 V c t)
  have h4 := Pay2.rows_third _ (V c main_v26) (V c main_v34) _ _ _ _ _ _ _ _ _ h3 (whole_in14 V c t) (whole_in15 V c t)
  have hout := Pay2.rows_last _ _ (V c main_v28) (V c main_v36) _ _ _ _ h3 h4 (whole_in16 V c t) (whole_in17 V c t)
  refine (hout y q h).trans ?_
  show (Cert.Bridge.out (V c main_v0_0) (V c main_v12) (V c main_arg0) (V c main_arg14) (V c main_v14) (V c main_v18) (V c main_v16) (V c main_v20) (V c main_arg17) (V c main_arg18) (V c main_v22) (V c main_v30) (V c main_v24) (V c main_v32) (V c main_v26) (V c main_v34) (V c main_v28) (V c main_v36)) (ix2 ⟨t.val * 2000 + y.val, h⟩ q)
    = (Cert.Bridge.out (V c main_v0_0) (V c main_v12) (V c main_arg0) (V c main_arg14) (V c main_v14) (V c main_v18) (V c main_v16) (V c main_v20) (V c main_arg17) (V c main_arg18) (V c main_v22) (V c main_v30) (V c main_v24) (V c main_v32) (V c main_v26) (V c main_v34) (V c main_v28) (V c main_v36)) (((cfg2.win 18).blk t).view.emb (ix2 y q))
  refine congrArg _ (funext fun a => Fin.ext ?_)
  obtain ⟨e0, e1⟩ := idx18 t
  match a with
  | ⟨0, _⟩ => show t.val * 2000 + y.val = win2_18.index t (0 : Fin 2) * 2000 + 1 * y.val; omega
  | ⟨1, _⟩ => show q.val = win2_18.index t (1 : Fin 2) * 128 + 1 * q.val; omega

/-- An index of the output array is in point `t`'s block iff each coordinate is in the block's range on its axis. -/
theorem mem_blk18 (t : Fin cfg2.N) (i : S200000x128.Idx) :
    i ∈ ((cfg2.win 18).blk t).view.set ↔ ∀ a : Fin 2, win2_18.index t a * S2000x128.size a ≤ (i a).val
      ∧ (i a).val < win2_18.index t a * S2000x128.size a + S2000x128.size a := by
  show i ∈ ((View.whole main_v37).slice (win2_18.rect t)).set ↔ _
  rw [View.set_slice_whole, Rect.mem_set_unit]
  exact Iff.rfl

/-- Row `r` of the output is in the block of point `r / 2000`. -/
theorem cover18 (i : S200000x128.Idx) :
    ∃ t : Fin cfg2.N, (cfg2.win 18).flush t = true ∧ i ∈ ((cfg2.win 18).blk t).view.set := by
  have hi0 : (i 0).val < 200000 := (i 0).isLt
  have hi1 : (i 1).val < 128 := (i 1).isLt
  have hlt : (i 0).val / 2000 < grid2.N := by rw [N_2]; omega
  obtain ⟨e0, e1⟩ := idx18 ⟨(i 0).val / 2000, hlt⟩
  refine ⟨⟨(i 0).val / 2000, hlt⟩, flush2_18 _, ?_⟩
  rw [mem_blk18]
  intro a
  match a with
  | ⟨0, _⟩ =>
    show win2_18.index ⟨(i 0).val / 2000, hlt⟩ (0 : Fin 2) * 2000 ≤ (i 0).val
      ∧ (i 0).val < win2_18.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_18.index ⟨(i 0).val / 2000, hlt⟩ (1 : Fin 2) * 128 ≤ (i 1).val
      ∧ (i 1).val < win2_18.index ⟨(i 0).val / 2000, hlt⟩ (1 : Fin 2) * 128 + 128
    omega

/-- The output array after the call is the whole-array stage of the arrays as the call finds them. -/
theorem final18 (c : Dev nD) :
    (dat2 V c).arrAt 18 cfg2.N = Cert.Bridge.out (V c main_v0_0) (V c main_v12) (V c main_arg0) (V c main_arg14) (V c main_v14) (V c main_v18) (V c main_v16) (V c main_v20) (V c main_arg17) (V c main_arg18) (V c main_v22) (V c main_v30) (V c main_v24) (V c main_v32) (V c main_v26) (V c main_v34) (V c main_v28) (V c main_v36) :=
  (dat2 V c).arrAt_eq_of_cover 18 _ (fun t _ => flushed_eq18 V c t) cover18

end Cert.KernelIdeal.Blocks2

end
-- ==== Proof.Assembly.lean ====
/-
  The idealized kernel's result array as one function of the launch arrays.

  The buffer contents at the segment boundaries are a fold: after the x-path call the two arrays it writes hold `x_ji` and
  `x_kj_int` of the launch arrays; after the basis-projection call its output holds `sbf_p`; the host stretch computes the
  aggregated messages from these and the two index arrays, and the layers of the stacked weights; the last call's output is
  the block's result of what it finds.  No call and no host operation writes an argument array.  Composing the four gives the
  result as `Bridge.result` of the twenty-one launch arrays.
-/
import proofs.«157410_j18751827214485_1_alg».proof.Proof.Gen.KernelIdeal.Frame
import proofs.«157410_j18751827214485_1_alg».proof.Proof.Bridge
import proofs.«157410_j18751827214485_1_alg».proof.Proof.BridgeCongr
import proofs.«157410_j18751827214485_1_alg».proof.Proof.Blocks0
import proofs.«157410_j18751827214485_1_alg».proof.Proof.Blocks1
import proofs.«157410_j18751827214485_1_alg».proof.Proof.Blocks2

set_option maxRecDepth 16384

noncomputable section

namespace Cert.KernelIdeal.Assembly

open Idealize.ShloMosaic Idealize.ShloMosaic.TcCoe Idealize.SL.Sem Idealize.ShloMosaic.StableHlo
open Cert.KernelIdeal Cert.KernelIdeal.Gen

variable [Cert.ReferenceIdeal.Facts₀]

/-! ## The host stretch, from any contents `W` -/

section Host
variable (W : Valuation τ sig (Elt Ideal))

/-- The aggregated messages: the gather, the product and the scatter-add of the host stretch. -/
theorem host_agg : after (hostOps2 (F := Ideal)) W (Proc.devRef .tc main_v12)
    = Cert.Bridge.agg (W (Proc.devRef .tc main_v0_1)) (W (Proc.devRef .tc main_v1)) (W (Proc.devRef .tc main_arg3)) (W (Proc.devRef .tc main_arg4)) := by
  after_results_simp
  rfl

/-- The stretch does not write `x_ji`. -/
theorem host_xji : after (hostOps2 (F := Ideal)) W (Proc.devRef .tc main_v0_0) = W (Proc.devRef .tc main_v0_0) := by
  after_results_simp

theorem host_main_v14 : after (hostOps2 (F := Ideal)) W (Proc.devRef .tc main_v14) = Cert.Bridge.w1_00 (W (Proc.devRef .tc main_arg15)) := by
  after_results_simp
  rfl

theorem host_main_v16 : after (hostOps2 (F := Ideal)) W (Proc.devRef .tc main_v16) = Cert.Bridge.w1_01 (W (Proc.devRef .tc main_arg15)) := by
  after_results_simp
  rfl

theorem host_main_v18 : after (hostOps2 (F := Ideal)) W (Proc.devRef .tc main_v18) = Cert.Bridge.b1_00 (W (Proc.devRef .tc main_arg16)) := by
  after_results_simp
  rfl

theorem host_main_v20 : after (hostOps2 (F := Ideal)) W (Proc.devRef .tc main_v20) = Cert.Bridge.b1_01 (W (Proc.devRef .tc main_arg16)) := by
  after_results_simp
  rfl

theorem host_main_v22 : after (hostOps2 (F := Ideal)) W (Proc.devRef .tc main_v22) = Cert.Bridge.w2_00 (W (Proc.devRef .tc main_arg19)) := by
  after_results_simp
  rfl

theorem host_main_v24 : after (hostOps2 (F := Ideal)) W (Proc.devRef .tc main_v24) = Cert.Bridge.w2_01 (W (Proc.devRef .tc main_arg19)) := by
  after_results_simp
  rfl

theorem host_main_v26 : after (hostOps2 (F := Ideal)) W (Proc.devRef .tc main_v26) = Cert.Bridge.w2_10 (W (Proc.devRef .tc main_arg19)) := by
  after_results_simp
  rfl

theorem host_main_v28 : after (hostOps2 (F := Ideal)) W (Proc.devRef .tc main_v28) = Cert.Bridge.w2_11 (W (Proc.devRef .tc main_arg19)) := by
  after_results_simp
  rfl

theorem host_main_v30 : after (hostOps2 (F := Ideal)) W (Proc.devRef .tc main_v30) = Cert.Bridge.b2_00 (W (Proc.devRef .tc main_arg20)) := by
  after_results_simp
  rfl

theorem host_main_v32 : after (hostOps2 (F := Ideal)) W (Proc.devRef .tc main_v32) = Cert.Bridge.b2_01 (W (Proc.devRef .tc main_arg20)) := by
  after_results_simp
  rfl

theorem host_main_v34 : after (hostOps2 (F := Ideal)) W (Proc.devRef .tc main_v34) = Cert.Bridge.b2_10 (W (Proc.devRef .tc main_arg20)) := by
  after_results_simp
  rfl

theorem host_main_v36 : after (hostOps2 (F := Ideal)) W (Proc.devRef .tc main_v36) = Cert.Bridge.b2_11 (W (Proc.devRef .tc main_arg20)) := by
  after_results_simp
  rfl

end Host

variable (m : (ℓ : Loc nD τ sig) → Buf (Elt Ideal) ℓ) (ρ : Dev nD → PrngReg) (c : Dev nD)

/-! ## After the x-path call -/

theorem w1_xji : W1 m ρ c (Proc.devRef .tc main_v0_0) = Cert.Bridge.xji (m ((c.tc : Thread nD τ).loc main_arg0)) (m ((c.tc : Thread nD τ).loc main_arg11)) (m ((c.tc : Thread nD τ).loc main_arg12)) :=
  (W1_arr m ρ c 9).trans (Blocks0.final9 (V0 m ρ) c)

theorem w1_xkjint : W1 m ρ c (Proc.devRef .tc main_v0_1)
    = Cert.Bridge.xkjint (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg5)) (m ((c.tc : Thread nD τ).loc main_arg6)) (m ((c.tc : Thread nD τ).loc main_arg13)) :=
  (W1_arr m ρ c 10).trans (Blocks0.final10 (V0 m ρ) c)
theorem w1_arg2 : W1 m ρ c (Proc.devRef .tc main_arg2) = (m ((c.tc : Thread nD τ).loc main_arg2)) := W1_of_ne m ρ c main_arg2 (by decide)
theorem w1_arg3 : W1 m ρ c (Proc.devRef .tc main_arg3) = (m ((c.tc : Thread nD τ).loc main_arg3)) := W1_of_ne m ρ c main_arg3 (by decide)
theorem w1_arg4 : W1 m ρ c (Proc.devRef .tc main_arg4) = (m ((c.tc : Thread nD τ).loc main_arg4)) := W1_of_ne m ρ c main_arg4 (by decide)
theorem w1_arg7 : W1 m ρ c (Proc.devRef .tc main_arg7) = (m ((c.tc : Thread nD τ).loc main_arg7)) := W1_of_ne m ρ c main_arg7 (by decide)
theorem w1_arg8 : W1 m ρ c (Proc.devRef .tc main_arg8) = (m ((c.tc : Thread nD τ).loc main_arg8)) := W1_of_ne m ρ c main_arg8 (by decide)
theorem w1_arg15 : W1 m ρ c (Proc.devRef .tc main_arg15) = (m ((c.tc : Thread nD τ).loc main_arg15)) := W1_of_ne m ρ c main_arg15 (by decide)
theorem w1_arg16 : W1 m ρ c (Proc.devRef .tc main_arg16) = (m ((c.tc : Thread nD τ).loc main_arg16)) := W1_of_ne m ρ c main_arg16 (by decide)
theorem w1_arg19 : W1 m ρ c (Proc.devRef .tc main_arg19) = (m ((c.tc : Thread nD τ).loc main_arg19)) := W1_of_ne m ρ c main_arg19 (by decide)
theorem w1_arg20 : W1 m ρ c (Proc.devRef .tc main_arg20) = (m ((c.tc : Thread nD τ).loc main_arg20)) := W1_of_ne m ρ c main_arg20 (by decide)

/-! ## After the basis-projection call -/

theorem w2_sbfp : W2 m ρ c (Proc.devRef .tc main_v1) = Cert.Bridge.sbfp (m ((c.tc : Thread nD τ).loc main_arg2)) (m ((c.tc : Thread nD τ).loc main_arg7)) (m ((c.tc : Thread nD τ).loc main_arg8)) := by
  refine (W2_arr m ρ c 3).trans ((Blocks1.final (V1 m ρ) c).trans ?_)
  show Cert.Bridge.sbfp (W1 m ρ c (Proc.devRef .tc main_arg2)) (W1 m ρ c (Proc.devRef .tc main_arg7)) (W1 m ρ c (Proc.devRef .tc main_arg8)) = _
  rw [w1_arg2, w1_arg7, w1_arg8]

theorem w2_xji : W2 m ρ c (Proc.devRef .tc main_v0_0) = Cert.Bridge.xji (m ((c.tc : Thread nD τ).loc main_arg0)) (m ((c.tc : Thread nD τ).loc main_arg11)) (m ((c.tc : Thread nD τ).loc main_arg12)) :=
  (W2_of_ne m ρ c main_v0_0 (by decide)).trans (w1_xji m ρ c)

theorem w2_xkjint : W2 m ρ c (Proc.devRef .tc main_v0_1)
    = Cert.Bridge.xkjint (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg5)) (m ((c.tc : Thread nD τ).loc main_arg6)) (m ((c.tc : Thread nD τ).loc main_arg13)) :=
  (W2_of_ne m ρ c main_v0_1 (by decide)).trans (w1_xkjint m ρ c)
theorem w2_arg3 : W2 m ρ c (Proc.devRef .tc main_arg3) = (m ((c.tc : Thread nD τ).loc main_arg3)) := (W2_of_ne m ρ c main_arg3 (by decide)).trans (w1_arg3 m ρ c)
theorem w2_arg4 : W2 m ρ c (Proc.devRef .tc main_arg4) = (m ((c.tc : Thread nD τ).loc main_arg4)) := (W2_of_ne m ρ c main_arg4 (by decide)).trans (w1_arg4 m ρ c)
theorem w2_arg15 : W2 m ρ c (Proc.devRef .tc main_arg15) = (m ((c.tc : Thread nD τ).loc main_arg15)) := (W2_of_ne m ρ c main_arg15 (by decide)).trans (w1_arg15 m ρ c)
theorem w2_arg16 : W2 m ρ c (Proc.devRef .tc main_arg16) = (m ((c.tc : Thread nD τ).loc main_arg16)) := (W2_of_ne m ρ c main_arg16 (by decide)).trans (w1_arg16 m ρ c)
theorem w2_arg19 : W2 m ρ c (Proc.devRef .tc main_arg19) = (m ((c.tc : Thread nD τ).loc main_arg19)) := (W2_of_ne m ρ c main_arg19 (by decide)).trans (w1_arg19 m ρ c)
theorem w2_arg20 : W2 m ρ c (Proc.devRef .tc main_arg20) = (m ((c.tc : Thread nD τ).loc main_arg20)) := (W2_of_ne m ρ c main_arg20 (by decide)).trans (w1_arg20 m ρ c)

/-! ## What the last call finds -/

theorem v3_xji : V3 m ρ c main_v0_0 = Cert.Bridge.xji (m ((c.tc : Thread nD τ).loc main_arg0)) (m ((c.tc : Thread nD τ).loc main_arg11)) (m ((c.tc : Thread nD τ).loc main_arg12)) :=
  (host_xji (W2 m ρ c)).trans (w2_xji m ρ c)

theorem v3_agg : V3 m ρ c main_v12
    = Cert.Bridge.agg (Cert.Bridge.xkjint (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg5)) (m ((c.tc : Thread nD τ).loc main_arg6)) (m ((c.tc : Thread nD τ).loc main_arg13)))
        (Cert.Bridge.sbfp (m ((c.tc : Thread nD τ).loc main_arg2)) (m ((c.tc : Thread nD τ).loc main_arg7)) (m ((c.tc : Thread nD τ).loc main_arg8))) (m ((c.tc : Thread nD τ).loc main_arg3)) (m ((c.tc : Thread nD τ).loc main_arg4)) := by
  refine (host_agg (W2 m ρ c)).trans ?_
  rw [w2_xkjint, w2_sbfp, w2_arg3, w2_arg4]

theorem v3_main_v14 : V3 m ρ c main_v14 = Cert.Bridge.w1_00 (m ((c.tc : Thread nD τ).loc main_arg15)) := by
  refine (host_main_v14 (W2 m ρ c)).trans ?_
  rw [w2_arg15]

theorem v3_main_v16 : V3 m ρ c main_v16 = Cert.Bridge.w1_01 (m ((c.tc : Thread nD τ).loc main_arg15)) := by
  refine (host_main_v16 (W2 m ρ c)).trans ?_
  rw [w2_arg15]

theorem v3_main_v18 : V3 m ρ c main_v18 = Cert.Bridge.b1_00 (m ((c.tc : Thread nD τ).loc main_arg16)) := by
  refine (host_main_v18 (W2 m ρ c)).trans ?_
  rw [w2_arg16]

theorem v3_main_v20 : V3 m ρ c main_v20 = Cert.Bridge.b1_01 (m ((c.tc : Thread nD τ).loc main_arg16)) := by
  refine (host_main_v20 (W2 m ρ c)).trans ?_
  rw [w2_arg16]

theorem v3_main_v22 : V3 m ρ c main_v22 = Cert.Bridge.w2_00 (m ((c.tc : Thread nD τ).loc main_arg19)) := by
  refine (host_main_v22 (W2 m ρ c)).trans ?_
  rw [w2_arg19]

theorem v3_main_v24 : V3 m ρ c main_v24 = Cert.Bridge.w2_01 (m ((c.tc : Thread nD τ).loc main_arg19)) := by
  refine (host_main_v24 (W2 m ρ c)).trans ?_
  rw [w2_arg19]

theorem v3_main_v26 : V3 m ρ c main_v26 = Cert.Bridge.w2_10 (m ((c.tc : Thread nD τ).loc main_arg19)) := by
  refine (host_main_v26 (W2 m ρ c)).trans ?_
  rw [w2_arg19]

theorem v3_main_v28 : V3 m ρ c main_v28 = Cert.Bridge.w2_11 (m ((c.tc : Thread nD τ).loc main_arg19)) := by
  refine (host_main_v28 (W2 m ρ c)).trans ?_
  rw [w2_arg19]

theorem v3_main_v30 : V3 m ρ c main_v30 = Cert.Bridge.b2_00 (m ((c.tc : Thread nD τ).loc main_arg20)) := by
  refine (host_main_v30 (W2 m ρ c)).trans ?_
  rw [w2_arg20]

theorem v3_main_v32 : V3 m ρ c main_v32 = Cert.Bridge.b2_01 (m ((c.tc : Thread nD τ).loc main_arg20)) := by
  refine (host_main_v32 (W2 m ρ c)).trans ?_
  rw [w2_arg20]

theorem v3_main_v34 : V3 m ρ c main_v34 = Cert.Bridge.b2_10 (m ((c.tc : Thread nD τ).loc main_arg20)) := by
  refine (host_main_v34 (W2 m ρ c)).trans ?_
  rw [w2_arg20]

theorem v3_main_v36 : V3 m ρ c main_v36 = Cert.Bridge.b2_11 (m ((c.tc : Thread nD τ).loc main_arg20)) := by
  refine (host_main_v36 (W2 m ρ c)).trans ?_
  rw [w2_arg20]

theorem v3_arg0 : V3 m ρ c main_arg0 = (m ((c.tc : Thread nD τ).loc main_arg0)) :=
  ((W4_arr m ρ c 2).trans (((dat2 (V3 m ρ) c).arrAt_in 2 rfl _).trans (A_eq2 (V3 m ρ) c 2))).symm.trans (W4_main_arg0 m ρ c)

theorem v3_arg14 : V3 m ρ c main_arg14 = (m ((c.tc : Thread nD τ).loc main_arg14)) :=
  ((W4_arr m ρ c 3).trans (((dat2 (V3 m ρ) c).arrAt_in 3 rfl _).trans (A_eq2 (V3 m ρ) c 3))).symm.trans (W4_main_arg14 m ρ c)

theorem v3_arg17 : V3 m ρ c main_arg17 = (m ((c.tc : Thread nD τ).loc main_arg17)) :=
  ((W4_arr m ρ c 8).trans (((dat2 (V3 m ρ) c).arrAt_in 8 rfl _).trans (A_eq2 (V3 m ρ) c 8))).symm.trans (W4_main_arg17 m ρ c)

theorem v3_arg18 : V3 m ρ c main_arg18 = (m ((c.tc : Thread nD τ).loc main_arg18)) :=
  ((W4_arr m ρ c 9).trans (((dat2 (V3 m ρ) c).arrAt_in 9 rfl _).trans (A_eq2 (V3 m ρ) c 9))).symm.trans (W4_main_arg18 m ρ c)

/-! ## The result -/

/-- The result array at the last boundary is the block's result of the launch arrays. -/
theorem result_eq : W4 m ρ c (Proc.devRef .tc main_v37)
    = Cert.Bridge.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  refine (W4_arr m ρ c 18).trans ((Blocks2.final18 (V3 m ρ) c).trans ?_)
  unfold Cert.Bridge.result
  exact Cert.Bridge.out_congr (v3_xji m ρ c) (v3_agg m ρ c) (v3_arg0 m ρ c) (v3_arg14 m ρ c) (v3_main_v14 m ρ c) (v3_main_v18 m ρ c) (v3_main_v16 m ρ c) (v3_main_v20 m ρ c) (v3_arg17 m ρ c) (v3_arg18 m ρ c) (v3_main_v22 m ρ c) (v3_main_v30 m ρ c) (v3_main_v24 m ρ c) (v3_main_v32 m ρ c) (v3_main_v26 m ρ c) (v3_main_v34 m ρ c) (v3_main_v28 m ρ c) (v3_main_v36 m ρ c)

end Cert.KernelIdeal.Assembly

end
-- ==== Proof.RefRunStages.lean ====
/-
  The reference program's run, in stages.

  The program's operations, in order, are cut into nine consecutive lines, each computing one stage of the block from
  buffers the earlier lines (or the launch) filled. For each line, over ANY contents `W` of the buffers before it:
  what its last buffer holds afterwards, as that stage's function of `W` at the buffers the line reads; and that a
  buffer the line does not write holds afterwards what it held before.
-/
import proofs.«157410_j18751827214485_1_alg».proof.Proof.Gen.ReferenceIdeal
import proofs.«157410_j18751827214485_1_alg».proof.Proof.Bridge
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines in a row: the second line's, from the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- A line's result buffer is among a list of references once the reference is in the list. -/
theorem single_sub_of_mem {Ws : List (Ref sig .tc)} {y : Ref sig .tc} (h : y ∈ Ws) :
    ({Proc.devRef (τ := τ) .tc y} : Finset (DevRef τ sig)) ⊆ (Ws.map (Proc.devRef (τ := τ) .tc)).toFinset :=
  Finset.singleton_subset_iff.mpr (List.mem_toFinset.mpr (List.mem_map_of_mem h))

/-! ## The nine lines -/

/-- Line 1: 13 operations, the last writing `main_v4`. -/
def c1 : List (HloOp τ sig (Elt F)) :=
  [ binary main_arg0 main_arg11 main_v0 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg12 main_v1 (broadcastInDim S1x128 ![1] bcast_S128_S1x128_1 : (⟨S128, .f32⟩ : BufTy).Contents (Elt F) → (⟨S1x128, .f32⟩ : BufTy).Contents (Elt F)),
    unary main_v1 main_v2 (broadcastInDim S200000x128 ![0, 1] bcast_S1x128_S200000x128_0_1 : (⟨S1x128, .f32⟩ : BufTy).Contents (Elt F) → (⟨S200000x128, .f32⟩ : BufTy).Contents (Elt F)),
    binary main_v0 main_v2 main_v3 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v3) (TRef.of (T := ⟨S200000x128, .f32⟩) main_call0_v0) Host.negf,
    TRef.unary (TRef.of (T := ⟨S200000x128, .f32⟩) main_call0_v0) (TRef.of (T := ⟨S200000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S200000x128, .f32⟩) main_call0_v2) (broadcastInDim S200000x128 ![] bcast_S_S200000x128),
    TRef.binary (TRef.of (T := ⟨S200000x128, .f32⟩) main_call0_v2) (TRef.of (T := ⟨S200000x128, .f32⟩) main_call0_v1) (TRef.of (T := ⟨S200000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S200000x128, .f32⟩) main_call0_v4) (broadcastInDim S200000x128 ![] bcast_S_S200000x128),
    TRef.binary (TRef.of (T := ⟨S200000x128, .f32⟩) main_call0_v4) (TRef.of (T := ⟨S200000x128, .f32⟩) main_call0_v3) (TRef.of (T := ⟨S200000x128, .f32⟩) main_call0_v5) Host.divf,
    TRef.binary (TRef.of (T := ⟨S200000x128, .f32⟩) main_v3) (TRef.of (T := ⟨S200000x128, .f32⟩) main_call0_v5) (TRef.of (T := ⟨S200000x128, .f32⟩) main_v4) mulf ]

/-- The references line 1 writes. -/
def w1 : List (Ref sig .tc) :=
  [main_v0, main_v1, main_v2, main_v3, main_call0_v0, main_call0_v1, main_call0_cst, main_call0_v2, main_call0_v3, main_call0_cst_0, main_call0_v4, main_call0_v5, main_v4]

set_option maxRecDepth 8192 in
theorem c1_writes : (c1 (F := F)).Forall fun op => op.writes ⊆ (w1.map (Proc.devRef (τ := τ) .tc)).toFinset := by
  unfold c1
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer line 1 does not write keeps its contents. -/
theorem c1_keep (W : Valuation τ sig (Elt F)) {r : Ref sig .tc} (hr : r ∉ w1) :
    after c1 W (Proc.devRef .tc r) = W (Proc.devRef .tc r) :=
  after_of_writes_sub c1 W c1_writes hr

/-- Line 2: 26 operations, the last writing `main_v14`. -/
def c2 : List (HloOp τ sig (Elt F)) :=
  [ binary main_arg0 main_arg9 main_v5 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg10 main_v6 (broadcastInDim S1x128 ![1] bcast_S128_S1x128_1 : (⟨S128, .f32⟩ : BufTy).Contents (Elt F) → (⟨S1x128, .f32⟩ : BufTy).Contents (Elt F)),
    unary main_v6 main_v7 (broadcastInDim S200000x128 ![0, 1] bcast_S1x128_S200000x128_0_1 : (⟨S1x128, .f32⟩ : BufTy).Contents (Elt F) → (⟨S200000x128, .f32⟩ : BufTy).Contents (Elt F)),
    binary main_v5 main_v7 main_v8 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v8) (TRef.of (T := ⟨S200000x128, .f32⟩) main_call1_v0) Host.negf,
    TRef.unary (TRef.of (T := ⟨S200000x128, .f32⟩) main_call1_v0) (TRef.of (T := ⟨S200000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S200000x128, .f32⟩) main_call1_v2) (broadcastInDim S200000x128 ![] bcast_S_S200000x128),
    TRef.binary (TRef.of (T := ⟨S200000x128, .f32⟩) main_call1_v2) (TRef.of (T := ⟨S200000x128, .f32⟩) main_call1_v1) (TRef.of (T := ⟨S200000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S200000x128, .f32⟩) main_call1_v4) (broadcastInDim S200000x128 ![] bcast_S_S200000x128),
    TRef.binary (TRef.of (T := ⟨S200000x128, .f32⟩) main_call1_v4) (TRef.of (T := ⟨S200000x128, .f32⟩) main_call1_v3) (TRef.of (T := ⟨S200000x128, .f32⟩) main_call1_v5) Host.divf,
    TRef.binary (TRef.of (T := ⟨S200000x128, .f32⟩) main_v8) (TRef.of (T := ⟨S200000x128, .f32⟩) main_call1_v5) (TRef.of (T := ⟨S200000x128, .f32⟩) main_v9) mulf,
    binary main_arg1 main_arg5 main_v10 ((fun l r => Host.dotGeneral dot_S200000x6_S6x8_S200000x8_1_0_0_1_n_n none l r) : (⟨S200000x6, .f32⟩ : BufTy).Contents (Elt F) → (⟨S6x8, .f32⟩ : BufTy).Contents (Elt F) → (⟨S200000x8, .f32⟩ : BufTy).Contents (Elt F)),
    binary main_v10 main_arg6 main_v11 ((fun l r => Host.dotGeneral dot_S200000x8_S8x128_S200000x128_1_0_0_1_n_n none l r) : (⟨S200000x8, .f32⟩ : BufTy).Contents (Elt F) → (⟨S8x128, .f32⟩ : BufTy).Contents (Elt F) → (⟨S200000x128, .f32⟩ : BufTy).Contents (Elt F)),
    binary main_v9 main_v11 main_v12 (mulf : (⟨S200000x128, .f32⟩ : BufTy).Contents (Elt F) → (⟨S200000x128, .f32⟩ : BufTy).Contents (Elt F) → (⟨S200000x128, .f32⟩ : BufTy).Contents (Elt F)),
    binary main_v12 main_arg13 main_v13 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    TRef.unary (TRef.of (T := ⟨S200000x64, .f32⟩) main_v13) (TRef.of (T := ⟨S200000x64, .f32⟩) main_call2_v0) Host.negf,
    TRef.unary (TRef.of (T := ⟨S200000x64, .f32⟩) main_call2_v0) (TRef.of (T := ⟨S200000x64, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S200000x64, .f32⟩) main_call2_v2) (broadcastInDim S200000x64 ![] bcast_S_S200000x64),
    TRef.binary (TRef.of (T := ⟨S200000x64, .f32⟩) main_call2_v2) (TRef.of (T := ⟨S200000x64, .f32⟩) main_call2_v1) (TRef.of (T := ⟨S200000x64, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S200000x64, .f32⟩) main_call2_v4) (broadcastInDim S200000x64 ![] bcast_S_S200000x64),
    TRef.binary (TRef.of (T := ⟨S200000x64, .f32⟩) main_call2_v4) (TRef.of (T := ⟨S200000x64, .f32⟩) main_call2_v3) (TRef.of (T := ⟨S200000x64, .f32⟩) main_call2_v5) Host.divf,
    TRef.binary (TRef.of (T := ⟨S200000x64, .f32⟩) main_v13) (TRef.of (T := ⟨S200000x64, .f32⟩) main_call2_v5) (TRef.of (T := ⟨S200000x64, .f32⟩) main_v14) mulf ]

/-- The references line 2 writes. -/
def w2 : List (Ref sig .tc) :=
  [main_v5, main_v6, main_v7, main_v8, main_call1_v0, main_call1_v1, main_call1_cst, main_call1_v2, main_call1_v3, main_call1_cst_0, main_call1_v4, main_call1_v5, main_v9, main_v10, main_v11, main_v12, main_v13, main_call2_v0, main_call2_v1, main_call2_cst, main_call2_v2, main_call2_v3, main_call2_cst_0, main_call2_v4, main_call2_v5, main_v14]

set_option maxRecDepth 8192 in
theorem c2_writes : (c2 (F := F)).Forall fun op => op.writes ⊆ (w2.map (Proc.devRef (τ := τ) .tc)).toFinset := by
  unfold c2
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer line 2 does not write keeps its contents. -/
theorem c2_keep (W : Valuation τ sig (Elt F)) {r : Ref sig .tc} (hr : r ∉ w2) :
    after c2 W (Proc.devRef .tc r) = W (Proc.devRef .tc r) :=
  after_of_writes_sub c2 W c2_writes hr

/-- Line 3: 2 operations, the last writing `main_v16`. -/
def c3 : List (HloOp τ sig (Elt F)) :=
  [ binary main_arg2 main_arg7 main_v15 ((fun l r => Host.dotGeneral dot_S1500000x42_S42x8_S1500000x8_1_0_0_1_n_n none l r) : (⟨S1500000x42, .f32⟩ : BufTy).Contents (Elt F) → (⟨S42x8, .f32⟩ : BufTy).Contents (Elt F) → (⟨S1500000x8, .f32⟩ : BufTy).Contents (Elt F)),
    binary main_v15 main_arg8 main_v16 ((fun l r => Host.dotGeneral dot_S1500000x8_S8x64_S1500000x64_1_0_0_1_n_n none l r) : (⟨S1500000x8, .f32⟩ : BufTy).Contents (Elt F) → (⟨S8x64, .f32⟩ : BufTy).Contents (Elt F) → (⟨S1500000x64, .f32⟩ : BufTy).Contents (Elt F)) ]

/-- The references line 3 writes. -/
def w3 : List (Ref sig .tc) :=
  [main_v15, main_v16]

set_option maxRecDepth 8192 in
theorem c3_writes : (c3 (F := F)).Forall fun op => op.writes ⊆ (w3.map (Proc.devRef (τ := τ) .tc)).toFinset := by
  unfold c3
  exact ⟨single_sub_of_mem (by decide), single_sub_of_mem (by decide)⟩

/-- A buffer line 3 does not write keeps its contents. -/
theorem c3_keep (W : Valuation τ sig (Elt F)) {r : Ref sig .tc} (hr : r ∉ w3) :
    after c3 W (Proc.devRef .tc r) = W (Proc.devRef .tc r) :=
  after_of_writes_sub c3 W c3_writes hr

/-- Line 4: 14 operations, the last writing `main_v27`. -/
def c4 : List (HloOp τ sig (Elt F)) :=
  [ nullary main_c (constantI S_ 32 0#32),
    unary main_c main_v17 (broadcastInDim S1500000 ![] bcast_S_S1500000 : (⟨S_, .i32⟩ : BufTy).Contents (Elt F) → (⟨S1500000, .i32⟩ : BufTy).Contents (Elt F)),
    binary main_arg3 main_v17 main_v18 (cmpi .slt : (⟨S1500000, .i32⟩ : BufTy).Contents (Elt F) → (⟨S1500000, .i32⟩ : BufTy).Contents (Elt F) → (⟨S1500000, .i1⟩ : BufTy).Contents (Elt F)),
    nullary main_c_0 (constantI S_ 32 200000#32),
    unary main_c_0 main_v19 (broadcastInDim S1500000 ![] bcast_S_S1500000 : (⟨S_, .i32⟩ : BufTy).Contents (Elt F) → (⟨S1500000, .i32⟩ : BufTy).Contents (Elt F)),
    binary main_arg3 main_v19 main_v20 (addi : (⟨S1500000, .i32⟩ : BufTy).Contents (Elt F) → (⟨S1500000, .i32⟩ : BufTy).Contents (Elt F) → (⟨S1500000, .i32⟩ : BufTy).Contents (Elt F)),
    ternary main_v18 main_v20 main_arg3 main_v21 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v21 main_v22 (broadcastInDim S1500000x1 ![0] bcast_S1500000_S1500000x1_0 : (⟨S1500000, .i32⟩ : BufTy).Contents (Elt F) → (⟨S1500000x1, .i32⟩ : BufTy).Contents (Elt F)),
    binary main_v14 main_v22 main_v23 ((fun x i => Host.gather gather_S200000x64_S1500000x1_S1500000x64_1_0_n_n_0_1_164 x i) : (⟨S200000x64, .f32⟩ : BufTy).Contents (Elt F) → (⟨S1500000x1, .i32⟩ : BufTy).Contents (Elt F) → (⟨S1500000x64, .f32⟩ : BufTy).Contents (Elt F)),
    binary main_v23 main_v16 main_v24 (mulf : (⟨S1500000x64, .f32⟩ : BufTy).Contents (Elt F) → (⟨S1500000x64, .f32⟩ : BufTy).Contents (Elt F) → (⟨S1500000x64, .f32⟩ : BufTy).Contents (Elt F)),
    nullary main_cst (constant S_ .f32 0x00000000#32),
    unary main_cst main_v25 (broadcastInDim S200000x64 ![] bcast_S_S200000x64 : (⟨S_, .f32⟩ : BufTy).Contents (Elt F) → (⟨S200000x64, .f32⟩ : BufTy).Contents (Elt F)),
    unary main_arg4 main_v26 (broadcastInDim S1500000x1 ![0] bcast_S1500000_S1500000x1_0 : (⟨S1500000, .i32⟩ : BufTy).Contents (Elt F) → (⟨S1500000x1, .i32⟩ : BufTy).Contents (Elt F)),
    ternary main_v25 main_v26 main_v24 main_v27 ((fun x i u => Host.scatterAdd scatter_S200000x64_S1500000x1_S1500000x64_1_0_0_1 x i u) : (⟨S200000x64, .f32⟩ : BufTy).Contents (Elt F) → (⟨S1500000x1, .i32⟩ : BufTy).Contents (Elt F) → (⟨S1500000x64, .f32⟩ : BufTy).Contents (Elt F) → (⟨S200000x64, .f32⟩ : BufTy).Contents (Elt F)) ]

/-- The references line 4 writes. -/
def w4 : List (Ref sig .tc) :=
  [main_c, main_v17, main_v18, main_c_0, main_v19, main_v20, main_v21, main_v22, main_v23, main_v24, main_cst, main_v25, main_v26, main_v27]

set_option maxRecDepth 8192 in
theorem c4_writes : (c4 (F := F)).Forall fun op => op.writes ⊆ (w4.map (Proc.devRef (τ := τ) .tc)).toFinset := by
  unfold c4
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer line 4 does not write keeps its contents. -/
theorem c4_keep (W : Valuation τ sig (Elt F)) {r : Ref sig .tc} (hr : r ∉ w4) :
    after c4 W (Proc.devRef .tc r) = W (Proc.devRef .tc r) :=
  after_of_writes_sub c4 W c4_writes hr

/-- Line 5: 11 operations, the last writing `main_v30`. -/
def c5 : List (HloOp τ sig (Elt F)) :=
  [ binary main_v27 main_arg14 main_v28 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F)),
    TRef.unary (TRef.of (T := ⟨S200000x128, .f32⟩) main_v28) (TRef.of (T := ⟨S200000x128, .f32⟩) main_call3_v0) Host.negf,
    TRef.unary (TRef.of (T := ⟨S200000x128, .f32⟩) main_call3_v0) (TRef.of (T := ⟨S200000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S200000x128, .f32⟩) main_call3_v2) (broadcastInDim S200000x128 ![] bcast_S_S200000x128),
    TRef.binary (TRef.of (T := ⟨S200000x128, .f32⟩) main_call3_v2) (TRef.of (T := ⟨S200000x128, .f32⟩) main_call3_v1) (TRef.of (T := ⟨S200000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S200000x128, .f32⟩) main_call3_v4) (broadcastInDim S200000x128 ![] bcast_S_S200000x128),
    TRef.binary (TRef.of (T := ⟨S200000x128, .f32⟩) main_call3_v4) (TRef.of (T := ⟨S200000x128, .f32⟩) main_call3_v3) (TRef.of (T := ⟨S200000x128, .f32⟩) main_call3_v5) Host.divf,
    TRef.binary (TRef.of (T := ⟨S200000x128, .f32⟩) main_v28) (TRef.of (T := ⟨S200000x128, .f32⟩) main_call3_v5) (TRef.of (T := ⟨S200000x128, .f32⟩) main_v29) mulf,
    binary main_v4 main_v29 main_v30 (addf : (⟨S200000x128, .f32⟩ : BufTy).Contents (Elt F) → (⟨S200000x128, .f32⟩ : BufTy).Contents (Elt F) → (⟨S200000x128, .f32⟩ : BufTy).Contents (Elt F)) ]

/-- The references line 5 writes. -/
def w5 : List (Ref sig .tc) :=
  [main_v28, main_call3_v0, main_call3_v1, main_call3_cst, main_call3_v2, main_call3_v3, main_call3_cst_0, main_call3_v4, main_call3_v5, main_v29, main_v30]

set_option maxRecDepth 8192 in
theorem c5_writes : (c5 (F := F)).Forall fun op => op.writes ⊆ (w5.map (Proc.devRef (τ := τ) .tc)).toFinset := by
  unfold c5
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer line 5 does not write keeps its contents. -/
theorem c5_keep (W : Valuation τ sig (Elt F)) {r : Ref sig .tc} (hr : r ∉ w5) :
    after c5 W (Proc.devRef .tc r) = W (Proc.devRef .tc r) :=
  after_of_writes_sub c5 W c5_writes hr

/-- Line 6: 35 operations, the last writing `main_v49`. -/
def c6 : List (HloOp τ sig (Elt F)) :=
  [ unary main_arg15 main_v31 ((extractStridedSlice S1x1x128x128 ![0, 0, 0, 0] · slices_S1x2x128x128_S1x1x128x128_0_0_0_0) : (⟨S1x2x128x128, .f32⟩ : BufTy).Contents (Elt F) → (⟨S1x1x128x128, .f32⟩ : BufTy).Contents (Elt F)),
    reshape main_v31 main_v32 rfl shapeCasts_S1x1x128x128_S128x128,
    binary main_v30 main_v32 main_v33 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg16 main_v34 ((extractStridedSlice S1x1x128 ![0, 0, 0] · slices_S1x2x128_S1x1x128_0_0_0) : (⟨S1x2x128, .f32⟩ : BufTy).Contents (Elt F) → (⟨S1x1x128, .f32⟩ : BufTy).Contents (Elt F)),
    reshape main_v34 main_v35 rfl shapeCasts_S1x1x128_S128,
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S200000x128 ![0, 1] bcast_S1x128_S200000x128_0_1 : (⟨S1x128, .f32⟩ : BufTy).Contents (Elt F) → (⟨S200000x128, .f32⟩ : BufTy).Contents (Elt F)),
    binary main_v33 main_v37 main_v38 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v38) (TRef.of (T := ⟨S200000x128, .f32⟩) main_call4_v0) Host.negf,
    TRef.unary (TRef.of (T := ⟨S200000x128, .f32⟩) main_call4_v0) (TRef.of (T := ⟨S200000x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S200000x128, .f32⟩) main_call4_v2) (broadcastInDim S200000x128 ![] bcast_S_S200000x128),
    TRef.binary (TRef.of (T := ⟨S200000x128, .f32⟩) main_call4_v2) (TRef.of (T := ⟨S200000x128, .f32⟩) main_call4_v1) (TRef.of (T := ⟨S200000x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S200000x128, .f32⟩) main_call4_v4) (broadcastInDim S200000x128 ![] bcast_S_S200000x128),
    TRef.binary (TRef.of (T := ⟨S200000x128, .f32⟩) main_call4_v4) (TRef.of (T := ⟨S200000x128, .f32⟩) main_call4_v3) (TRef.of (T := ⟨S200000x128, .f32⟩) main_call4_v5) Host.divf,
    TRef.binary (TRef.of (T := ⟨S200000x128, .f32⟩) main_v38) (TRef.of (T := ⟨S200000x128, .f32⟩) main_call4_v5) (TRef.of (T := ⟨S200000x128, .f32⟩) main_v39) mulf,
    unary main_arg15 main_v40 ((extractStridedSlice S1x1x128x128 ![0, 1, 0, 0] · slices_S1x2x128x128_S1x1x128x128_0_1_0_0) : (⟨S1x2x128x128, .f32⟩ : BufTy).Contents (Elt F) → (⟨S1x1x128x128, .f32⟩ : BufTy).Contents (Elt F)),
    reshape main_v40 main_v41 rfl shapeCasts_S1x1x128x128_S128x128,
    binary main_v39 main_v41 main_v42 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg16 main_v43 ((extractStridedSlice S1x1x128 ![0, 1, 0] · slices_S1x2x128_S1x1x128_0_1_0) : (⟨S1x2x128, .f32⟩ : BufTy).Contents (Elt F) → (⟨S1x1x128, .f32⟩ : BufTy).Contents (Elt F)),
    reshape main_v43 main_v44 rfl shapeCasts_S1x1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S200000x128 ![0, 1] bcast_S1x128_S200000x128_0_1 : (⟨S1x128, .f32⟩ : BufTy).Contents (Elt F) → (⟨S200000x128, .f32⟩ : BufTy).Contents (Elt F)),
    binary main_v42 main_v46 main_v47 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v47) (TRef.of (T := ⟨S200000x128, .f32⟩) main_call5_v0) Host.negf,
    TRef.unary (TRef.of (T := ⟨S200000x128, .f32⟩) main_call5_v0) (TRef.of (T := ⟨S200000x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S200000x128, .f32⟩) main_call5_v2) (broadcastInDim S200000x128 ![] bcast_S_S200000x128),
    TRef.binary (TRef.of (T := ⟨S200000x128, .f32⟩) main_call5_v2) (TRef.of (T := ⟨S200000x128, .f32⟩) main_call5_v1) (TRef.of (T := ⟨S200000x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S200000x128, .f32⟩) main_call5_v4) (broadcastInDim S200000x128 ![] bcast_S_S200000x128),
    TRef.binary (TRef.of (T := ⟨S200000x128, .f32⟩) main_call5_v4) (TRef.of (T := ⟨S200000x128, .f32⟩) main_call5_v3) (TRef.of (T := ⟨S200000x128, .f32⟩) main_call5_v5) Host.divf,
    TRef.binary (TRef.of (T := ⟨S200000x128, .f32⟩) main_v47) (TRef.of (T := ⟨S200000x128, .f32⟩) main_call5_v5) (TRef.of (T := ⟨S200000x128, .f32⟩) main_v48) mulf,
    binary main_v30 main_v48 main_v49 (addf : (⟨S200000x128, .f32⟩ : BufTy).Contents (Elt F) → (⟨S200000x128, .f32⟩ : BufTy).Contents (Elt F) → (⟨S200000x128, .f32⟩ : BufTy).Contents (Elt F)) ]

/-- The references line 6 writes. -/
def w6 : List (Ref sig .tc) :=
  [main_v31, main_v32, main_v33, main_v34, main_v35, main_v36, main_v37, main_v38, main_call4_v0, main_call4_v1, main_call4_cst, main_call4_v2, main_call4_v3, main_call4_cst_0, main_call4_v4, main_call4_v5, main_v39, main_v40, main_v41, main_v42, main_v43, main_v44, main_v45, main_v46, main_v47, main_call5_v0, main_call5_v1, main_call5_cst, main_call5_v2, main_call5_v3, main_call5_cst_0, main_call5_v4, main_call5_v5, main_v48, main_v49]

set_option maxRecDepth 8192 in
theorem c6_writes : (c6 (F := F)).Forall fun op => op.writes ⊆ (w6.map (Proc.devRef (τ := τ) .tc)).toFinset := by
  unfold c6
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer line 6 does not write keeps its contents. -/
theorem c6_keep (W : Valuation τ sig (Elt F)) {r : Ref sig .tc} (hr : r ∉ w6) :
    after c6 W (Proc.devRef .tc r) = W (Proc.devRef .tc r) :=
  after_of_writes_sub c6 W c6_writes hr

/-- Line 7: 14 operations, the last writing `main_v55`. -/
def c7 : List (HloOp τ sig (Elt F)) :=
  [ binary main_v49 main_arg17 main_v50 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg18 main_v51 (broadcastInDim S1x128 ![1] bcast_S128_S1x128_1 : (⟨S128, .f32⟩ : BufTy).Contents (Elt F) → (⟨S1x128, .f32⟩ : BufTy).Contents (Elt F)),
    unary main_v51 main_v52 (broadcastInDim S200000x128 ![0, 1] bcast_S1x128_S200000x128_0_1 : (⟨S1x128, .f32⟩ : BufTy).Contents (Elt F) → (⟨S200000x128, .f32⟩ : BufTy).Contents (Elt F)),
    binary main_v50 main_v52 main_v53 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v53) (TRef.of (T := ⟨S200000x128, .f32⟩) main_call6_v0) Host.negf,
    TRef.unary (TRef.of (T := ⟨S200000x128, .f32⟩) main_call6_v0) (TRef.of (T := ⟨S200000x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S200000x128, .f32⟩) main_call6_v2) (broadcastInDim S200000x128 ![] bcast_S_S200000x128),
    TRef.binary (TRef.of (T := ⟨S200000x128, .f32⟩) main_call6_v2) (TRef.of (T := ⟨S200000x128, .f32⟩) main_call6_v1) (TRef.of (T := ⟨S200000x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S200000x128, .f32⟩) main_call6_v4) (broadcastInDim S200000x128 ![] bcast_S_S200000x128),
    TRef.binary (TRef.of (T := ⟨S200000x128, .f32⟩) main_call6_v4) (TRef.of (T := ⟨S200000x128, .f32⟩) main_call6_v3) (TRef.of (T := ⟨S200000x128, .f32⟩) main_call6_v5) Host.divf,
    TRef.binary (TRef.of (T := ⟨S200000x128, .f32⟩) main_v53) (TRef.of (T := ⟨S200000x128, .f32⟩) main_call6_v5) (TRef.of (T := ⟨S200000x128, .f32⟩) main_v54) mulf,
    binary main_v54 main_arg0 main_v55 (addf : (⟨S200000x128, .f32⟩ : BufTy).Contents (Elt F) → (⟨S200000x128, .f32⟩ : BufTy).Contents (Elt F) → (⟨S200000x128, .f32⟩ : BufTy).Contents (Elt F)) ]

/-- The references line 7 writes. -/
def w7 : List (Ref sig .tc) :=
  [main_v50, main_v51, main_v52, main_v53, main_call6_v0, main_call6_v1, main_call6_cst, main_call6_v2, main_call6_v3, main_call6_cst_0, main_call6_v4, main_call6_v5, main_v54, main_v55]

set_option maxRecDepth 8192 in
theorem c7_writes : (c7 (F := F)).Forall fun op => op.writes ⊆ (w7.map (Proc.devRef (τ := τ) .tc)).toFinset := by
  unfold c7
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer line 7 does not write keeps its contents. -/
theorem c7_keep (W : Valuation τ sig (Elt F)) {r : Ref sig .tc} (hr : r ∉ w7) :
    after c7 W (Proc.devRef .tc r) = W (Proc.devRef .tc r) :=
  after_of_writes_sub c7 W c7_writes hr

/-- Line 8: 35 operations, the last writing `main_v74`. -/
def c8 : List (HloOp τ sig (Elt F)) :=
  [ unary main_arg19 main_v56 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    reshape main_v56 main_v57 rfl shapeCasts_S1x1x128x128_S128x128,
    binary main_v55 main_v57 main_v58 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg20 main_v59 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v59 main_v60 rfl shapeCasts_S1x1x128_S128,
    unary main_v60 main_v61 (broadcastInDim S1x128 ![1] bcast_S128_S1x128_1 : (⟨S128, .f32⟩ : BufTy).Contents (Elt F) → (⟨S1x128, .f32⟩ : BufTy).Contents (Elt F)),
    unary main_v61 main_v62 (broadcastInDim S200000x128 ![0, 1] bcast_S1x128_S200000x128_0_1 : (⟨S1x128, .f32⟩ : BufTy).Contents (Elt F) → (⟨S200000x128, .f32⟩ : BufTy).Contents (Elt F)),
    binary main_v58 main_v62 main_v63 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v63) (TRef.of (T := ⟨S200000x128, .f32⟩) main_call7_v0) Host.negf,
    TRef.unary (TRef.of (T := ⟨S200000x128, .f32⟩) main_call7_v0) (TRef.of (T := ⟨S200000x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S200000x128, .f32⟩) main_call7_v2) (broadcastInDim S200000x128 ![] bcast_S_S200000x128),
    TRef.binary (TRef.of (T := ⟨S200000x128, .f32⟩) main_call7_v2) (TRef.of (T := ⟨S200000x128, .f32⟩) main_call7_v1) (TRef.of (T := ⟨S200000x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S200000x128, .f32⟩) main_call7_v4) (broadcastInDim S200000x128 ![] bcast_S_S200000x128),
    TRef.binary (TRef.of (T := ⟨S200000x128, .f32⟩) main_call7_v4) (TRef.of (T := ⟨S200000x128, .f32⟩) main_call7_v3) (TRef.of (T := ⟨S200000x128, .f32⟩) main_call7_v5) Host.divf,
    TRef.binary (TRef.of (T := ⟨S200000x128, .f32⟩) main_v63) (TRef.of (T := ⟨S200000x128, .f32⟩) main_call7_v5) (TRef.of (T := ⟨S200000x128, .f32⟩) main_v64) mulf,
    unary main_arg19 main_v65 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    reshape main_v65 main_v66 rfl shapeCasts_S1x1x128x128_S128x128,
    binary main_v64 main_v66 main_v67 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg20 main_v68 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v68 main_v69 rfl shapeCasts_S1x1x128_S128,
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S200000x128 ![0, 1] bcast_S1x128_S200000x128_0_1 : (⟨S1x128, .f32⟩ : BufTy).Contents (Elt F) → (⟨S200000x128, .f32⟩ : BufTy).Contents (Elt F)),
    binary main_v67 main_v71 main_v72 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v72) (TRef.of (T := ⟨S200000x128, .f32⟩) main_call8_v0) Host.negf,
    TRef.unary (TRef.of (T := ⟨S200000x128, .f32⟩) main_call8_v0) (TRef.of (T := ⟨S200000x128, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S200000x128, .f32⟩) main_call8_v2) (broadcastInDim S200000x128 ![] bcast_S_S200000x128),
    TRef.binary (TRef.of (T := ⟨S200000x128, .f32⟩) main_call8_v2) (TRef.of (T := ⟨S200000x128, .f32⟩) main_call8_v1) (TRef.of (T := ⟨S200000x128, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S200000x128, .f32⟩) main_call8_v4) (broadcastInDim S200000x128 ![] bcast_S_S200000x128),
    TRef.binary (TRef.of (T := ⟨S200000x128, .f32⟩) main_call8_v4) (TRef.of (T := ⟨S200000x128, .f32⟩) main_call8_v3) (TRef.of (T := ⟨S200000x128, .f32⟩) main_call8_v5) Host.divf,
    TRef.binary (TRef.of (T := ⟨S200000x128, .f32⟩) main_v72) (TRef.of (T := ⟨S200000x128, .f32⟩) main_call8_v5) (TRef.of (T := ⟨S200000x128, .f32⟩) main_v73) mulf,
    binary main_v55 main_v73 main_v74 (addf : (⟨S200000x128, .f32⟩ : BufTy).Contents (Elt F) → (⟨S200000x128, .f32⟩ : BufTy).Contents (Elt F) → (⟨S200000x128, .f32⟩ : BufTy).Contents (Elt F)) ]

/-- The references line 8 writes. -/
def w8 : List (Ref sig .tc) :=
  [main_v56, main_v57, main_v58, main_v59, main_v60, main_v61, main_v62, main_v63, main_call7_v0, main_call7_v1, main_call7_cst, main_call7_v2, main_call7_v3, main_call7_cst_0, main_call7_v4, main_call7_v5, main_v64, main_v65, main_v66, main_v67, main_v68, main_v69, main_v70, main_v71, main_v72, main_call8_v0, main_call8_v1, main_call8_cst, main_call8_v2, main_call8_v3, main_call8_cst_0, main_call8_v4, main_call8_v5, main_v73, main_v74]

set_option maxRecDepth 8192 in
theorem c8_writes : (c8 (F := F)).Forall fun op => op.writes ⊆ (w8.map (Proc.devRef (τ := τ) .tc)).toFinset := by
  unfold c8
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer line 8 does not write keeps its contents. -/
theorem c8_keep (W : Valuation τ sig (Elt F)) {r : Ref sig .tc} (hr : r ∉ w8) :
    after c8 W (Proc.devRef .tc r) = W (Proc.devRef .tc r) :=
  after_of_writes_sub c8 W c8_writes hr

/-- Line 9: 35 operations, the last writing `main_v93`. -/
def c9 : List (HloOp τ sig (Elt F)) :=
  [ unary main_arg19 main_v75 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    reshape main_v75 main_v76 rfl shapeCasts_S1x1x128x128_S128x128,
    binary main_v74 main_v76 main_v77 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg20 main_v78 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v78 main_v79 rfl shapeCasts_S1x1x128_S128,
    unary main_v79 main_v80 (broadcastInDim S1x128 ![1] bcast_S128_S1x128_1 : (⟨S128, .f32⟩ : BufTy).Contents (Elt F) → (⟨S1x128, .f32⟩ : BufTy).Contents (Elt F)),
    unary main_v80 main_v81 (broadcastInDim S200000x128 ![0, 1] bcast_S1x128_S200000x128_0_1 : (⟨S1x128, .f32⟩ : BufTy).Contents (Elt F) → (⟨S200000x128, .f32⟩ : BufTy).Contents (Elt F)),
    binary main_v77 main_v81 main_v82 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v82) (TRef.of (T := ⟨S200000x128, .f32⟩) main_call9_v0) Host.negf,
    TRef.unary (TRef.of (T := ⟨S200000x128, .f32⟩) main_call9_v0) (TRef.of (T := ⟨S200000x128, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S200000x128, .f32⟩) main_call9_v2) (broadcastInDim S200000x128 ![] bcast_S_S200000x128),
    TRef.binary (TRef.of (T := ⟨S200000x128, .f32⟩) main_call9_v2) (TRef.of (T := ⟨S200000x128, .f32⟩) main_call9_v1) (TRef.of (T := ⟨S200000x128, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S200000x128, .f32⟩) main_call9_v4) (broadcastInDim S200000x128 ![] bcast_S_S200000x128),
    TRef.binary (TRef.of (T := ⟨S200000x128, .f32⟩) main_call9_v4) (TRef.of (T := ⟨S200000x128, .f32⟩) main_call9_v3) (TRef.of (T := ⟨S200000x128, .f32⟩) main_call9_v5) Host.divf,
    TRef.binary (TRef.of (T := ⟨S200000x128, .f32⟩) main_v82) (TRef.of (T := ⟨S200000x128, .f32⟩) main_call9_v5) (TRef.of (T := ⟨S200000x128, .f32⟩) main_v83) mulf,
    unary main_arg19 main_v84 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    reshape main_v84 main_v85 rfl shapeCasts_S1x1x128x128_S128x128,
    binary main_v83 main_v85 main_v86 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg20 main_v87 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v87 main_v88 rfl shapeCasts_S1x1x128_S128,
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S200000x128 ![0, 1] bcast_S1x128_S200000x128_0_1 : (⟨S1x128, .f32⟩ : BufTy).Contents (Elt F) → (⟨S200000x128, .f32⟩ : BufTy).Contents (Elt F)),
    binary main_v86 main_v90 main_v91 (addf : (⟨S200000x128, .f32⟩ : BufTy).Contents (Elt F) → (⟨S200000x128, .f32⟩ : BufTy).Contents (Elt F) → (⟨S200000x128, .f32⟩ : BufTy).Contents (Elt F)),
    TRef.unary (TRef.of (T := ⟨S200000x128, .f32⟩) main_v91) (TRef.of (T := ⟨S200000x128, .f32⟩) main_call10_v0) Host.negf,
    TRef.unary (TRef.of (T := ⟨S200000x128, .f32⟩) main_call10_v0) (TRef.of (T := ⟨S200000x128, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S200000x128, .f32⟩) main_call10_v2) (broadcastInDim S200000x128 ![] bcast_S_S200000x128),
    TRef.binary (TRef.of (T := ⟨S200000x128, .f32⟩) main_call10_v2) (TRef.of (T := ⟨S200000x128, .f32⟩) main_call10_v1) (TRef.of (T := ⟨S200000x128, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S200000x128, .f32⟩) main_call10_v4) (broadcastInDim S200000x128 ![] bcast_S_S200000x128),
    TRef.binary (TRef.of (T := ⟨S200000x128, .f32⟩) main_call10_v4) (TRef.of (T := ⟨S200000x128, .f32⟩) main_call10_v3) (TRef.of (T := ⟨S200000x128, .f32⟩) main_call10_v5) Host.divf,
    TRef.binary (TRef.of (T := ⟨S200000x128, .f32⟩) main_v91) (TRef.of (T := ⟨S200000x128, .f32⟩) main_call10_v5) (TRef.of (T := ⟨S200000x128, .f32⟩) main_v92) mulf,
    binary main_v74 main_v92 main_v93 (addf : (⟨S200000x128, .f32⟩ : BufTy).Contents (Elt F) → (⟨S200000x128, .f32⟩ : BufTy).Contents (Elt F) → (⟨S200000x128, .f32⟩ : BufTy).Contents (Elt F)) ]

/-- The references line 9 writes. -/
def w9 : List (Ref sig .tc) :=
  [main_v75, main_v76, main_v77, main_v78, main_v79, main_v80, main_v81, main_v82, main_call9_v0, main_call9_v1, main_call9_cst, main_call9_v2, main_call9_v3, main_call9_cst_0, main_call9_v4, main_call9_v5, main_v83, main_v84, main_v85, main_v86, main_v87, main_v88, main_v89, main_v90, main_v91, main_call10_v0, main_call10_v1, main_call10_cst, main_call10_v2, main_call10_v3, main_call10_cst_0, main_call10_v4, main_call10_v5, main_v92, main_v93]

set_option maxRecDepth 8192 in
theorem c9_writes : (c9 (F := F)).Forall fun op => op.writes ⊆ (w9.map (Proc.devRef (τ := τ) .tc)).toFinset := by
  unfold c9
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer line 9 does not write keeps its contents. -/
theorem c9_keep (W : Valuation τ sig (Elt F)) {r : Ref sig .tc} (hr : r ∉ w9) :
    after c9 W (Proc.devRef .tc r) = W (Proc.devRef .tc r) :=
  after_of_writes_sub c9 W c9_writes hr

/-! ## What each line computes -/

theorem c1_v4 (W : Valuation τ sig (Elt Ideal)) :
    after c1 W (Proc.devRef .tc main_v4)
      = Cert.Bridge.xji (W (Proc.devRef .tc main_arg0)) (W (Proc.devRef .tc main_arg11)) (W (Proc.devRef .tc main_arg12)) := by
  unfold c1
  after_results_simp
  rfl

theorem c2_v14 (W : Valuation τ sig (Elt Ideal)) :
    after c2 W (Proc.devRef .tc main_v14)
      = Cert.Bridge.xkjint (W (Proc.devRef .tc main_arg0)) (W (Proc.devRef .tc main_arg1)) (W (Proc.devRef .tc main_arg9)) (W (Proc.devRef .tc main_arg10))
          (W (Proc.devRef .tc main_arg5)) (W (Proc.devRef .tc main_arg6)) (W (Proc.devRef .tc main_arg13)) := by
  unfold c2
  after_results_simp
  rfl

theorem c3_v16 (W : Valuation τ sig (Elt Ideal)) :
    after c3 W (Proc.devRef .tc main_v16)
      = Cert.Bridge.sbfp (W (Proc.devRef .tc main_arg2)) (W (Proc.devRef .tc main_arg7)) (W (Proc.devRef .tc main_arg8)) := by
  unfold c3
  after_results_simp
  rfl

theorem c4_v27 (W : Valuation τ sig (Elt Ideal)) :
    after c4 W (Proc.devRef .tc main_v27)
      = Cert.Bridge.agg (W (Proc.devRef .tc main_v14)) (W (Proc.devRef .tc main_v16)) (W (Proc.devRef .tc main_arg3)) (W (Proc.devRef .tc main_arg4)) := by
  unfold c4
  after_results_simp
  rfl

theorem c5_v30 (W : Valuation τ sig (Elt Ideal)) :
    after c5 W (Proc.devRef .tc main_v30)
      = (addf (W (Proc.devRef .tc main_v4))
          (Cert.Bridge.act128 (Host.dotGeneral (F := Ideal) (φ₁ := .f32) (φ₂ := .f32) dot_S200000x64_S64x128_S200000x128_1_0_0_1_n_n none
            (W (Proc.devRef .tc main_v27)) (W (Proc.devRef .tc main_arg14)))) : FVec Ideal S200000x128 .f32) := by
  unfold c5
  after_results_simp
  rfl

theorem c6_v49 (W : Valuation τ sig (Elt Ideal)) :
    after c6 W (Proc.devRef .tc main_v49)
      = Cert.Bridge.res (W (Proc.devRef .tc main_v30)) (Cert.Bridge.w1_00 (W (Proc.devRef .tc main_arg15))) (Cert.Bridge.b1_00 (W (Proc.devRef .tc main_arg16)))
          (Cert.Bridge.w1_01 (W (Proc.devRef .tc main_arg15))) (Cert.Bridge.b1_01 (W (Proc.devRef .tc main_arg16))) := by
  unfold c6
  after_results_simp
  rfl

theorem c7_v55 (W : Valuation τ sig (Elt Ideal)) :
    after c7 W (Proc.devRef .tc main_v55)
      = (addf (Cert.Bridge.act128 (Cert.Bridge.dense (W (Proc.devRef .tc main_v49)) (W (Proc.devRef .tc main_arg17)) (W (Proc.devRef .tc main_arg18))))
          (W (Proc.devRef .tc main_arg0)) : FVec Ideal S200000x128 .f32) := by
  unfold c7
  after_results_simp
  rfl

theorem c8_v74 (W : Valuation τ sig (Elt Ideal)) :
    after c8 W (Proc.devRef .tc main_v74)
      = Cert.Bridge.res (W (Proc.devRef .tc main_v55)) (Cert.Bridge.w2_00 (W (Proc.devRef .tc main_arg19))) (Cert.Bridge.b2_00 (W (Proc.devRef .tc main_arg20)))
          (Cert.Bridge.w2_01 (W (Proc.devRef .tc main_arg19))) (Cert.Bridge.b2_01 (W (Proc.devRef .tc main_arg20))) := by
  unfold c8
  after_results_simp
  rfl

theorem c9_v93 (W : Valuation τ sig (Elt Ideal)) :
    after c9 W (Proc.devRef .tc main_v93)
      = Cert.Bridge.res (W (Proc.devRef .tc main_v74)) (Cert.Bridge.w2_10 (W (Proc.devRef .tc main_arg19))) (Cert.Bridge.b2_10 (W (Proc.devRef .tc main_arg20)))
          (Cert.Bridge.w2_11 (W (Proc.devRef .tc main_arg19))) (Cert.Bridge.b2_11 (W (Proc.devRef .tc main_arg20))) := by
  unfold c9
  after_results_simp
  rfl

end Cert.ReferenceIdeal.RefRun

end
-- ==== Proof.RefRun.lean ====
/-
  The reference program's run: on every device, from any memory with zero counters, every weakly fair execution
  terminates with the result buffer at the block's function of the twenty-one argument arrays, and the arguments
  unchanged.

  The program is the straight line of its operations, so each buffer ends at the fold of the operations' results over
  the launch contents. The line is nine stages in a row; the fold over it is the nine stages' folds composed, and each
  stage's last buffer is that stage's function of the buffers it reads, every other buffer passing through. Reading
  the result buffer back through the nine stages gives the block's function of the launch contents of the arguments.
-/
import proofs.«157410_j18751827214485_1_alg».proof.Proof.Gen.ReferenceIdeal
import proofs.«157410_j18751827214485_1_alg».proof.Proof.RefOps
import proofs.«157410_j18751827214485_1_alg».proof.Proof.RefRunStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-- The program's operations are the nine lines in a row. -/
theorem ops_split : (ops : List (HloOp τ sig (Elt F))) = c1 ++ (c2 ++ (c3 ++ (c4 ++ (c5 ++ (c6 ++ (c7 ++ (c8 ++ (c9)))))))) := by
  unfold c1 c2 c3 c4 c5 c6 c7 c8 c9
  rfl

/-- The contents after the whole program: the nine lines' folds, composed. -/
theorem after_ops (V : Valuation τ sig (Elt F)) :
    after ops V = after c9 (after c8 (after c7 (after c6 (after c5 (after c4 (after c3 (after c2 (after c1 (V))))))))) := by
  rw [ops_split, after_app, after_app, after_app, after_app, after_app, after_app, after_app, after_app]

/-- A buffer none of the nine lines writes holds at the end what it held at launch. -/
theorem after_ops_keep (V : Valuation τ sig (Elt F)) {r : Ref sig .tc}
    (h1 : r ∉ w1) (h2 : r ∉ w2) (h3 : r ∉ w3) (h4 : r ∉ w4) (h5 : r ∉ w5) (h6 : r ∉ w6) (h7 : r ∉ w7) (h8 : r ∉ w8) (h9 : r ∉ w9) :
    after ops V (Proc.devRef .tc r) = V (Proc.devRef .tc r) := by
  rw [after_ops, c9_keep _ h9, c8_keep _ h8, c7_keep _ h7, c6_keep _ h6, c5_keep _ h5, c4_keep _ h4, c3_keep _ h3, c2_keep _ h2,
    c1_keep _ h1]

/-- The result buffer at the end: the block's function of the arguments' contents at launch. Read back stage by
    stage: at each line, its last buffer becomes its stage's function of the buffers it reads, and every other
    buffer still needed passes through. -/
theorem after_ops_v93 (V : Valuation τ sig (Elt Ideal)) :
    after ops V (Proc.devRef .tc main_v93)
      = Cert.Bridge.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  rw [after_ops]
  rw [c9_v93]
  rw [c8_v74,
    c8_keep (r := main_arg19) _ (by decide),
    c8_keep (r := main_arg20) _ (by decide)]
  rw [c7_v55,
    c7_keep (r := main_arg19) _ (by decide),
    c7_keep (r := main_arg20) _ (by decide)]
  rw [c6_v49,
    c6_keep (r := main_arg17) _ (by decide),
    c6_keep (r := main_arg18) _ (by decide),
    c6_keep (r := main_arg0) _ (by decide),
    c6_keep (r := main_arg19) _ (by decide),
    c6_keep (r := main_arg20) _ (by decide)]
  rw [c5_v30,
    c5_keep (r := main_arg15) _ (by decide),
    c5_keep (r := main_arg16) _ (by decide),
    c5_keep (r := main_arg17) _ (by decide),
    c5_keep (r := main_arg18) _ (by decide),
    c5_keep (r := main_arg0) _ (by decide),
    c5_keep (r := main_arg19) _ (by decide),
    c5_keep (r := main_arg20) _ (by decide)]
  rw [c4_v27,
    c4_keep (r := main_v4) _ (by decide),
    c4_keep (r := main_arg14) _ (by decide),
    c4_keep (r := main_arg15) _ (by decide),
    c4_keep (r := main_arg16) _ (by decide),
    c4_keep (r := main_arg17) _ (by decide),
    c4_keep (r := main_arg18) _ (by decide),
    c4_keep (r := main_arg0) _ (by decide),
    c4_keep (r := main_arg19) _ (by decide),
    c4_keep (r := main_arg20) _ (by decide)]
  rw [c3_v16,
    c3_keep (r := main_v14) _ (by decide),
    c3_keep (r := main_arg3) _ (by decide),
    c3_keep (r := main_arg4) _ (by decide),
    c3_keep (r := main_v4) _ (by decide),
    c3_keep (r := main_arg14) _ (by decide),
    c3_keep (r := main_arg15) _ (by decide),
    c3_keep (r := main_arg16) _ (by decide),
    c3_keep (r := main_arg17) _ (by decide),
    c3_keep (r := main_arg18) _ (by decide),
    c3_keep (r := main_arg0) _ (by decide),
    c3_keep (r := main_arg19) _ (by decide),
    c3_keep (r := main_arg20) _ (by decide)]
  rw [c2_v14,
    c2_keep (r := main_arg2) _ (by decide),
    c2_keep (r := main_arg7) _ (by decide),
    c2_keep (r := main_arg8) _ (by decide),
    c2_keep (r := main_arg3) _ (by decide),
    c2_keep (r := main_arg4) _ (by decide),
    c2_keep (r := main_v4) _ (by decide),
    c2_keep (r := main_arg14) _ (by decide),
    c2_keep (r := main_arg15) _ (by decide),
    c2_keep (r := main_arg16) _ (by decide),
    c2_keep (r := main_arg17) _ (by decide),
    c2_keep (r := main_arg18) _ (by decide),
    c2_keep (r := main_arg0) _ (by decide),
    c2_keep (r := main_arg19) _ (by decide),
    c2_keep (r := main_arg20) _ (by decide)]
  rw [c1_v4,
    c1_keep (r := main_arg0) _ (by decide),
    c1_keep (r := main_arg1) _ (by decide),
    c1_keep (r := main_arg9) _ (by decide),
    c1_keep (r := main_arg10) _ (by decide),
    c1_keep (r := main_arg5) _ (by decide),
    c1_keep (r := main_arg6) _ (by decide),
    c1_keep (r := main_arg13) _ (by decide),
    c1_keep (r := main_arg2) _ (by decide),
    c1_keep (r := main_arg7) _ (by decide),
    c1_keep (r := main_arg8) _ (by decide),
    c1_keep (r := main_arg3) _ (by decide),
    c1_keep (r := main_arg4) _ (by decide),
    c1_keep (r := main_arg14) _ (by decide),
    c1_keep (r := main_arg15) _ (by decide),
    c1_keep (r := main_arg16) _ (by decide),
    c1_keep (r := main_arg17) _ (by decide),
    c1_keep (r := main_arg18) _ (by decide),
    c1_keep (r := main_arg19) _ (by decide),
    c1_keep (r := main_arg20) _ (by decide)]
  rfl

/-- On every device, from any memory with zero counters: every weakly fair execution of the program terminates with
    the result buffer at the block's function of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v93)
        = Cert.Bridge.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v93).trans (after_ops_v93 _),
      (h c main_arg0).trans (after_ops_keep _ (by decide) (by decide) (by decide) (by decide) (by decide) (by decide) (by decide) (by decide) (by decide)),
      (h c main_arg1).trans (after_ops_keep _ (by decide) (by decide) (by decide) (by decide) (by decide) (by decide) (by decide) (by decide) (by decide)),
      (h c main_arg2).trans (after_ops_keep _ (by decide) (by decide) (by decide) (by decide) (by decide) (by decide) (by decide) (by decide) (by decide)),
      (h c main_arg3).trans (after_ops_keep _ (by decide) (by decide) (by decide) (by decide) (by decide) (by decide) (by decide) (by decide) (by decide)),
      (h c main_arg4).trans (after_ops_keep _ (by decide) (by decide) (by decide) (by decide) (by decide) (by decide) (by decide) (by decide) (by decide)),
      (h c main_arg5).trans (after_ops_keep _ (by decide) (by decide) (by decide) (by decide) (by decide) (by decide) (by decide) (by decide) (by decide)),
      (h c main_arg6).trans (after_ops_keep _ (by decide) (by decide) (by decide) (by decide) (by decide) (by decide) (by decide) (by decide) (by decide)),
      (h c main_arg7).trans (after_ops_keep _ (by decide) (by decide) (by decide) (by decide) (by decide) (by decide) (by decide) (by decide) (by decide)),
      (h c main_arg8).trans (after_ops_keep _ (by decide) (by decide) (by decide) (by decide) (by decide) (by decide) (by decide) (by decide) (by decide)),
      (h c main_arg9).trans (after_ops_keep _ (by decide) (by decide) (by decide) (by decide) (by decide) (by decide) (by decide) (by decide) (by decide)),
      (h c main_arg10).trans (after_ops_keep _ (by decide) (by decide) (by decide) (by decide) (by decide) (by decide) (by decide) (by decide) (by decide)),
      (h c main_arg11).trans (after_ops_keep _ (by decide) (by decide) (by decide) (by decide) (by decide) (by decide) (by decide) (by decide) (by decide)),
      (h c main_arg12).trans (after_ops_keep _ (by decide) (by decide) (by decide) (by decide) (by decide) (by decide) (by decide) (by decide) (by decide)),
      (h c main_arg13).trans (after_ops_keep _ (by decide) (by decide) (by decide) (by decide) (by decide) (by decide) (by decide) (by decide) (by decide)),
      (h c main_arg14).trans (after_ops_keep _ (by decide) (by decide) (by decide) (by decide) (by decide) (by decide) (by decide) (by decide) (by decide)),
      (h c main_arg15).trans (after_ops_keep _ (by decide) (by decide) (by decide) (by decide) (by decide) (by decide) (by decide) (by decide) (by decide)),
      (h c main_arg16).trans (after_ops_keep _ (by decide) (by decide) (by decide) (by decide) (by decide) (by decide) (by decide) (by decide) (by decide)),
      (h c main_arg17).trans (after_ops_keep _ (by decide) (by decide) (by decide) (by decide) (by decide) (by decide) (by decide) (by decide) (by decide)),
      (h c main_arg18).trans (after_ops_keep _ (by decide) (by decide) (by decide) (by decide) (by decide) (by decide) (by decide) (by decide) (by decide)),
      (h c main_arg19).trans (after_ops_keep _ (by decide) (by decide) (by decide) (by decide) (by decide) (by decide) (by decide) (by decide) (by decide)),
      (h c main_arg20).trans (after_ops_keep _ (by decide) (by decide) (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.lean ====
/-
  The certificate of one interaction block (a message-passing layer over 200 000 edges and 1 500 000 triplets).

  The kernel runs three tiled calls with host operations between them; the reference is one straight line of host
  operations.  At the ideal values both compute, from the twenty-one argument arrays,
    x_ji = act (x · W_ji + b_ji),   x_kj_int = act ((act (x · W_kj + b_kj) ⊙ ((rbf · W_rbf1) · W_rbf2)) · W_down),
    sbf_p = (sbf · W_sbf1) · W_sbf2,   agg e = Σ over triplets t with idx_ji t = e of x_kj_int (idx_kj t) ⊙ sbf_p t,
    out = three residual layers and one skip layer applied to x_ji + act (agg · W_up),
  with act z = z · σ(z): a change of float format is the identity, a kernel's product into a zero accumulator and the host's
  dot_general are the same sum, the logistic operation is the host's quotient 1 / (1 + e⁻ᶻ), every stage acts on each row
  by itself so a block of rows of a stage is the stage of that block of rows, and the gather, the product and the
  scatter-add between the calls are the same host operations on both sides.  No law used needs finiteness.

  The frames of the two kernel programs are the generated ones; the reference's frame is its run with the result dropped;
  the ideal pass rewrote nothing, so nothing is to be preserved.
-/
import proofs.«157410_j18751827214485_1_alg».proof.Defs
import proofs.«157410_j18751827214485_1_alg».proof.Proof.Gen.Kernel
import proofs.«157410_j18751827214485_1_alg».proof.Proof.Gen.Kernel.Frame
import proofs.«157410_j18751827214485_1_alg».proof.Proof.Gen.KernelIdeal
import proofs.«157410_j18751827214485_1_alg».proof.Proof.Gen.KernelIdeal.Frame
import proofs.«157410_j18751827214485_1_alg».proof.Proof.Gen.ReferenceIdeal
import proofs.«157410_j18751827214485_1_alg».proof.Proof.Gen.Pre_finite_inputs
import proofs.«157410_j18751827214485_1_alg».proof.Proof.KernelRun
import proofs.«157410_j18751827214485_1_alg».proof.Proof.Assembly
import proofs.«157410_j18751827214485_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRun.run m ρ)

/-- Both runs end with the result array at the block's result of the argument arrays, which agree. -/
theorem algebraic : Cert.algebraic_KernelIdeal_ReferenceIdeal := by
  intro m ρ m' ρ' _ hagree
  refine ⟨fun c => Cert.Bridge.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelIdeal.Assembly.result_eq m ρ c), (h c).2⟩)
      (Cert.KernelIdeal.Gen.run_result m ρ)
  · refine (θ_run Cert.ReferenceIdeal.defs _ _).mono (fun r h c => ⟨(h c).1.trans ?_, (h c).2⟩)
      (Cert.ReferenceIdeal.RefRun.run m' ρ')
    obtain ⟨a0, a1, a2, a3, a4, a5, a6, a7, a8, a9, a10, a11, a12, a13, a14, a15, a16, a17, a18, a19, a20⟩ := hagree c
    rw [a0, a1, a2, a3, a4, a5, a6, a7, a8, a9, a10, a11, a12, a13, a14, a15, a16, a17, a18, a19, a20]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
